-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 101
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000, .f32⟩
  | .hbm, ⟨57, _⟩ => ⟨S1700000, .f32⟩
  | .hbm, ⟨58, _⟩ => ⟨S100000x128, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x128, .f32⟩
  | .hbm, ⟨68, _⟩ => ⟨S1700000x1, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S100000x128, .f32⟩
  | .hbm, ⟨82, _⟩ => ⟨S100000x64, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x64, .f32⟩
  | .hbm, ⟨92, _⟩ => ⟨S1700000x1, .f32⟩
  | .hbm, ⟨93, _⟩ => ⟨S1700000x64, .f32⟩
  | .hbm, ⟨94, _⟩ => ⟨S1700000x64, .f32⟩
  | .hbm, ⟨95, _⟩ => ⟨S_, .f32⟩
  | .hbm, ⟨96, _⟩ => ⟨S100000x64, .f32⟩
  | .hbm, ⟨97, _⟩ => ⟨S1700000x1, .i32⟩
  | .hbm, ⟨98, _⟩ => ⟨S100000x64, .f32⟩
  | .hbm, ⟨99, _⟩ => ⟨S1x64, .f32⟩
  | .hbm, ⟨100, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S1x64, .f32⟩
  | .local _ .vmem, ⟨29, _⟩ => ⟨S2000x64, .f32⟩
  | .local _ .vmem, ⟨30, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50_0 : Ref sig .tc := ⟨.hbm, 76, rfl⟩
abbrev main_v50_1 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v24 : BitVec 1 := Scalar.cmpi .eq arg0 c49_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  reduces_S2000x128_S128 : S2000x128.Reduces [0] S128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50_0) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50_1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 185
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128x64, .f32⟩
  | 8 => ⟨S64, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S100000, .f32⟩
  | 18 => ⟨S1700000, .f32⟩
  | 19 => ⟨S100000x128, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .i1⟩
  | 30 => ⟨S_, .f32⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x1, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S_, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x64, .f32⟩
  | 112 => ⟨S_, .f32⟩
  | 113 => ⟨S100000, .f32⟩
  | 114 => ⟨S1700000x1, .i32⟩
  | 115 => ⟨S100000, .f32⟩
  | 116 => ⟨S_, .f32⟩
  | 117 => ⟨S100000, .f32⟩
  | 118 => ⟨S100000, .i1⟩
  | 119 => ⟨S_, .f32⟩
  | 120 => ⟨S100000, .f32⟩
  | 121 => ⟨S100000, .i1⟩
  | 122 => ⟨S_, .f32⟩
  | 123 => ⟨S_, .f32⟩
  | 124 => ⟨S100000, .f32⟩
  | 125 => ⟨S100000, .f32⟩
  | 126 => ⟨S100000, .f32⟩
  | 127 => ⟨S_, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000, .f32⟩
  | 12 => ⟨S1700000, .f32⟩
  | 13 => ⟨S_, .i32⟩
  | 14 => ⟨S1700000, .i32⟩
  | 15 => ⟨S1700000, .i1⟩
  | 16 => ⟨S_, .i32⟩
  | 17 => ⟨S1700000, .i32⟩
  | 18 => ⟨S1700000, .i32⟩
  | 19 => ⟨S1700000, .i32⟩
  | 20 => ⟨S1700000x1, .i32⟩
  | 21 => ⟨S1700000, .f32⟩
  | 22 => ⟨S1700000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000x64, .f32⟩
  | 32 => ⟨S1700000x1, .f32⟩
  | 33 => ⟨S1700000x64, .f32⟩
  | 34 => ⟨S1700000x64, .f32⟩
  | 35 => ⟨S_, .f32⟩
  | 36 => ⟨S100000x64, .f32⟩
  | 37 => ⟨S1700000x1, .i32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x64, .f32⟩
  | 49 => ⟨S100000x64, .f32⟩
  | 50 => ⟨S100000x64, .f32⟩
  | 51 => ⟨S_, .f32⟩
  | 52 => ⟨S100000, .f32⟩
  | 53 => ⟨S100000x1, .f32⟩
  | 54 => ⟨S100000x1, .f32⟩
  | 55 => ⟨S100000x64, .f32⟩
  | 56 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_call3_v0 : Ref sig .tc := ⟨.hbm, 123, rfl⟩
abbrev main_call3_v1 : Ref sig .tc := ⟨.hbm, 124, rfl⟩
abbrev main_v86 : Ref sig .tc := ⟨.hbm, 125, rfl⟩
abbrev main_v87 : Ref sig .tc := ⟨.hbm, 126, rfl⟩
abbrev main_cst_20 : Ref sig .tc := ⟨.hbm, 127, rfl⟩
abbrev main_call4_v0 : Ref sig .tc := ⟨.hbm, 128, rfl⟩
abbrev main_call4_v1 : Ref sig .tc := ⟨.hbm, 129, rfl⟩
abbrev main_v88 : Ref sig .tc := ⟨.hbm, 130, rfl⟩
abbrev main_c_21 : Ref sig .tc := ⟨.hbm, 131, rfl⟩
abbrev main_v89 : Ref sig .tc := ⟨.hbm, 132, rfl⟩
abbrev main_v90 : Ref sig .tc := ⟨.hbm, 133, rfl⟩
abbrev main_c_22 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_23 : Ref sig .tc := ⟨.hbm, 141, rfl⟩
abbrev main_v97 : Ref sig .tc := ⟨.hbm, 142, rfl⟩
abbrev main_v98 : Ref sig .tc := ⟨.hbm, 143, rfl⟩
abbrev main_c_24 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_25 : Ref sig .tc := ⟨.hbm, 151, rfl⟩
abbrev main_v105 : Ref sig .tc := ⟨.hbm, 152, rfl⟩
abbrev main_v106 : Ref sig .tc := ⟨.hbm, 153, rfl⟩
abbrev main_c_26 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_27 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_call5_cst : Ref sig .tc := ⟨.hbm, 170, rfl⟩
abbrev main_call5_v0 : Ref sig .tc := ⟨.hbm, 171, rfl⟩
abbrev main_call5_cst_0 : Ref sig .tc := ⟨.hbm, 172, rfl⟩
abbrev main_call5_v1 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_call5_v5 : Ref sig .tc := ⟨.hbm, 177, rfl⟩
abbrev main_call5_v6 : Ref sig .tc := ⟨.hbm, 178, rfl⟩
abbrev main_call5_cst_1 : Ref sig .tc := ⟨.hbm, 179, rfl⟩
abbrev main_call5_v7 : Ref sig .tc := ⟨.hbm, 180, rfl⟩
abbrev main_call5_v8 : Ref sig .tc := ⟨.hbm, 181, rfl⟩
abbrev main_call5_v9 : Ref sig .tc := ⟨.hbm, 182, rfl⟩
abbrev main_call5_v10 : Ref sig .tc := ⟨.hbm, 183, rfl⟩
abbrev main_v121 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.K.ValueCond.lean ====
/-
  The program's run from one record per kernel region, with the result array named.

  The program is five kernel regions among stretches of host operations. Between two items every buffer that no region
  scopes holds a value determined by the launch memory, the host operations so far, and what each earlier region left in
  its output arrays. Given, for each region, a record saying that the region, entered from the contents before it, leaves
  the contents after it, the whole program terminates on every weakly fair execution; the result array then holds what
  the last region left, and no item ever writes an argument array.
-/
import proofs.«108080_j74191265071850_1_alg».proof.Proof.Gen.Kernel.Regions

set_option maxRecDepth 1040

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]
variable (m : (ℓ : Loc nD τ sig) → Buf (Elt F) ℓ) (outs : Outs (F := F))

set_option backward.isDefEq.respectTransparency.types false in
/-- The run with the result named. Under the same hypotheses as the conditional frame — one segment record per kernel region,
    entered from the buffers' contents before it and left at the contents after it — every weakly fair execution of the
    program terminates, and in every final memory the result array holds what the last region's record says it leaves
    (`outs 13` at the result's buffer) while each argument array holds its launch contents. The argument is the conditional
    frame's, with the result's buffer read off the last contents as well. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V10 m outs c) ∗ E 3 c) ⊢ R3.pre c)
    (hpost3 : ∀ c : Dev nD, R3.post c ⊢ iprop(StableHlo.held (c : Thread nD τ) (Pipeline.ucRefs τ sig) (V11 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V12 m outs c) ∗ E 4 c) ⊢ R4.pre c)
    (hpost4 : ∀ c : Dev nD, R4.post c ⊢ iprop(StableHlo.held (c : Thread nD τ) (Pipeline.ucRefs τ sig) (V13 m outs c) ∗ E 5 c)) :
    θ_run defs (onTc (τ := τ) (main (F := F))) ⟨m, fun _ => 0, ρ⟩ (fun r => ∀ c : Dev nD,
      r.2.mem ((c.tc : Thread nD τ).loc main_v70) = outs 13 main_v70 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, hpre0 c, hpost0 c, hpre1 c, hpost1 c, hpre2 c, (hpost2 c).trans (hpre3 c), hpost3 c, hpre4 c, (hpost4 c).trans (sep_mono .rfl (hE5 c))⟩)
    (hinit := ?_)
    (QY := fun c s => s.mem ((c.tc : Thread nD τ).loc main_v70) = outs 13 main_v70 c
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨(h (Proc.devRef .tc main_v70) (Finset.mem_filter.mpr ⟨StableHlo.devRef_mem_tcRefs main_v70, by decide⟩)).trans (Function.update_self _ _ _),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c),
        (h (Proc.devRef .tc main_arg7) (Finset.mem_filter.mpr ⟨StableHlo.devRef_mem_tcRefs main_arg7, by decide⟩)).trans (V13_main_arg7 m outs c),
        (h (Proc.devRef .tc main_arg8) (Finset.mem_filter.mpr ⟨StableHlo.devRef_mem_tcRefs main_arg8, by decide⟩)).trans (V13_main_arg8 m outs c)⟩
    · iexact HSI

end Cert.Kernel.Hand

end
-- ==== Proof.K.Region0.lean ====
import proofs.«108080_j74191265071850_1_alg».proof.Proof.Gen.Kernel.Launch
import proofs.«108080_j74191265071850_1_alg».proof.Proof.Gen.Kernel.Skeleton
import proofs.«108080_j74191265071850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of region 0, at any float model `F` and at a parameter `V`, the buffer contents when the region
is entered. The kernel is one matrix product per grid point: a block of 2000 rows of the input times the whole
128 x 128 weight matrix (fetched at the first point only, and kept), both operands rounded to bfloat16 first and the
products accumulated in 32-bit floats onto a zero block, stored as a block of 2000 rows of the output.
Per window the block it holds at a point; what the body leaves in the output window's buffer; the body's triple;
the pipeline's proof data and the body obligation at every point. -/

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # Region 0: the first linear layer's kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether it was fetched there or
    not (not fetched, the block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether it was fetched there or
    not (not fetched, the block index has not moved), for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x128 := Rect.unit (s := S2000x128) ![0, 0] S2000x128.size inb_S2000x128_S2000x128_0_0

/-! ## What the body leaves in the output window's buffer -/

/-- Window 2's staging buffer after the body, from the input windows' blocks: its one store, of the whole block,
    whose payload is the product of the two whole-block loads, each rounded to bfloat16, accumulated onto zeros. -/
def out0_2 (x0 : Vec F S2000x128 .f32) (x1 : Vec F S128x128 .f32) : Vec F S2000x128 .f32 :=
  View.canon [⟨r0_2, k0_pay1 (View.ld x0 r0_0) (View.ld x1 r0_1)⟩]

/-- The one store is of the whole block, so it covers the buffer. -/
theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

/-! ## The body's triple -/

set_option maxHeartbeats 1000000 in
/-- The kernel body on whole staging memrefs, the inputs' at read contents `x0`, `x1` and the output's at anything,
    at any grid coordinates, runs to the continuation holding the inputs' as they were and the output's at
    `out0_2` of the inputs'. The body also loads the output's buffer before storing into it; that value is not
    used, and the store overwrites every element of it. -/
theorem sound_kernel0 (c : Dev nD) (E : Set ℕ) (i : grid0.Coords)
    (arg0 : Memref sig .tc .vmem S2000x128 .f32) (harg0 : arg0.IsWhole) (arg1 : Memref sig .tc .vmem S128x128 .f32) (harg1 : arg1.IsWhole)
    (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/- Region 1 (the batch-norm statistics kernel), what its three control cases share: the body's two branch
   conditions decided over the grid, where the two output windows are idle, the staging and scratch memrefs the
   body is called with, and the class's invariant with the two scratch accumulators taken out of the scoped rest. -/
import proofs.«108080_j74191265071850_1_alg».proof.Proof.Gen.Kernel.Launch
import proofs.«108080_j74191265071850_1_alg».proof.Proof.Gen.Kernel.Skeleton
import proofs.«108080_j74191265071850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The condition of the first conditional (the accumulators are reset), from the grid coordinate. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the second conditional (mean and variance are stored), from the grid coordinate. -/
abbrev cond1_1 (i : grid1.Coords) : Prop := k1_cond2 i = 1#1
/-- It holds at the last point only. -/
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

/-- The two input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Away from the last point the two output windows are idle and are not written back. -/
theorem idleAt1_2 : ∀ t : Fin cfg1.N, ¬cond1_1 (grid1.coords t) → cfg1.idle 2 (grid1.coords t) = true :=
  (by decide +kernel : ∀ t : Fin grid1.N, ¬cond1_1 (grid1.coords t) → idle1 2 (grid1.coords t) = true)
theorem idleAt1_3 : ∀ t : Fin cfg1.N, ¬cond1_1 (grid1.coords t) → cfg1.idle 3 (grid1.coords t) = true :=
  (by decide +kernel : ∀ t : Fin grid1.N, ¬cond1_1 (grid1.coords t) → idle1 3 (grid1.coords t) = true)
theorem noFlush1_2 : ∀ t : Fin cfg1.N, ¬cond1_1 (grid1.coords t) → (cfg1.win 2).flush t = false :=
  (by decide +kernel : ∀ t : Fin grid1.N, ¬cond1_1 (grid1.coords t) → win1_2.flush t = false)
theorem noFlush1_3 : ∀ t : Fin cfg1.N, ¬cond1_1 (grid1.coords t) → (cfg1.win 3).flush t = false :=
  (by decide +kernel : ∀ t : Fin grid1.N, ¬cond1_1 (grid1.coords t) → win1_3.flush t = false)
/-- At the last point they are live: the body stores into them. -/
theorem liveAt1_2 : ∀ t : Fin cfg1.N, cond1_1 (grid1.coords t) → cfg1.idle 2 (grid1.coords t) = false :=
  (by decide +kernel : ∀ t : Fin grid1.N, cond1_1 (grid1.coords t) → idle1 2 (grid1.coords t) = false)
theorem liveAt1_3 : ∀ t : Fin cfg1.N, cond1_1 (grid1.coords t) → cfg1.idle 3 (grid1.coords t) = false :=
  (by decide +kernel : ∀ t : Fin grid1.N, cond1_1 (grid1.coords t) → idle1 3 (grid1.coords t) = false)

/-! ## The memrefs the body is called with -/

/-- One staging buffer of each output window, through which its contents are stated. -/
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
/-- Each window's current staging memref at point `t`, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch accumulators (the running column sums of the biased block and of its square): whole scoped
    buffers of the kernel's own, passed beside the windows and carried from point to point. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The class's invariant with the two accumulators as memrefs owned at some contents, the remainder of the
    scoped rest unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

end Cert.Kernel.Hand

end
-- ==== Proof.K.Region1A.lean ====
/- Region 1, the body's run at the FIRST grid point: both accumulators are reset to zero and then receive the
   block's column sums; mean and variance are not stored. -/
import proofs.«108080_j74191265071850_1_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two accumulators, as pieces (last first), at the first point — the reset
    taken, the final store not —, with the proof that on whole memrefs (the data block at `x0`, the bias row at
    `x1`, each accumulator at anything) the body runs to the continuation holding the inputs as they were and each
    accumulator with its pieces written. The output windows' buffers are not touched and are framed around the run. -/
noncomputable def kernelRun1_A (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) :
    Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.Kernel.Hand

end
-- ==== Proof.K.Region1B.lean ====
/- Region 1, the body's run at a grid point that is neither the first nor the last: both accumulators, holding
   what the point before left, receive the block's column sums; nothing else is stored. -/
import proofs.«108080_j74191265071850_1_alg».proof.Proof.K.Region1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two accumulators, as pieces (last first), at a middle point — neither
    conditional taken —, with the proof that on whole memrefs (the data block at `x0`, the bias row at `x1`, the
    accumulators at `xs0`, `xs1`) the body runs to the continuation holding the inputs as they were and each
    accumulator with its pieces written. The output windows' buffers are not touched and are framed around the run. -/
noncomputable def kernelRun1_B (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 : Vec F S1x128 .f32) (xs1 : Vec F S1x128 .f32) :
    Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.Kernel.Hand

end
-- ==== Proof.K.Region1C.lean ====
/- Region 1, the body's run at the LAST grid point: both accumulators, holding what the point before left,
   receive the block's column sums, and then the mean (the first accumulator divided by the row count) and the
   variance (the second divided by the row count, less the mean squared) are stored into the two output windows. -/
import proofs.«108080_j74191265071850_1_alg».proof.Proof.K.Region1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two output windows' buffers and in the two accumulators, as pieces (last
    first), at the last point — the reset not taken, the final store taken —, with the proof that on whole memrefs
    (the data block at `x0`, the bias row at `x1`, the outputs' at anything, the accumulators at `xs0`, `xs1`)
    the body runs to the continuation holding the inputs as they were and each written buffer with its pieces
    written. -/
noncomputable def kernelRun1_C (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32))
       (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.K.Region1.lean ====
/- Region 1 (the batch-norm statistics kernel) at the contents `V` its region is entered with: the windows'
   blocks, what the two accumulators and the two output windows hold after each grid point (by recursion on the
   point: the first point resets and adds, a middle point adds, the last point adds and then stores mean and
   variance), the region invariant carrying the two accumulators from point to point, the pipeline's proof data
   and its body obligation. -/
import proofs.«108080_j74191265071850_1_alg».proof.Proof.K.Region1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pieces each case writes cover the buffers they are written into -/

theorem scover1_A_0 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) (y : S1x128.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x128.size (by sl_kernel_rfl) y
theorem scover1_A_1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x128.size (by sl_kernel_rfl) y
theorem scover1_B_0 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x128.size (by sl_kernel_rfl) y
theorem scover1_B_1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x128.size (by sl_kernel_rfl) y
theorem cover1_C_2 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y
theorem cover1_C_3 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y
theorem scover1_C_0 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y
theorem scover1_C_1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y

/-! ## The case runs at a grid point, and pieces read back as contents -/

/-- The first point's run at that point's memrefs and input blocks. -/
abbrev runA1 (c : Dev nD) (t : Fin cfg1.N) (h0 : t.val = 0) (h1 : ¬t.val = 49) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h))
    (iblk1 V c 0 t) (iblk1 V c 1 t)
/-- A middle point's run at that point's memrefs and input blocks, the accumulators at `xs0`, `xs1`. -/
abbrev runB1 (c : Dev nD) (t : Fin cfg1.N) (h0 : ¬t.val = 0) (h1 : ¬t.val = 49) (xs0 xs1 : Vec F S1x128 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h))
    (iblk1 V c 0 t) (iblk1 V c 1 t) xs0 xs1
/-- The last point's run at that point's memrefs and input blocks, the accumulators at `xs0`, `xs1`. -/
abbrev runC1 (c : Dev nD) (t : Fin cfg1.N) (h0 : ¬t.val = 0) (h1 : t.val = 49) (xs0 xs1 : Vec F S1x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1)
    (iblk1 V c 0 t) (iblk1 V c 1 t) xs0 xs1

/-- A list of pieces read back over junk through a buffer's view: what a buffer covered by them holds. -/
abbrev rdS0 (L : List (View.Piece (Elt F) S1x128 .f32)) : Vec F S1x128 .f32 := VS1_0.read (Elt F) (VS1_0.writes (Elt F) VS1_0.junk L)
abbrev rdS1 (L : List (View.Piece (Elt F) S1x128 .f32)) : Vec F S1x128 .f32 := VS1_1.read (Elt F) (VS1_1.writes (Elt F) VS1_1.junk L)
abbrev rdO2 (L : List (View.Piece (Elt F) S1x128 .f32)) : Vec F S1x128 .f32 := VO1_2.read (Elt F) (VO1_2.writes (Elt F) VO1_2.junk L)
abbrev rdO3 (L : List (View.Piece (Elt F) S1x128 .f32)) : Vec F S1x128 .f32 := VO1_3.read (Elt F) (VO1_3.writes (Elt F) VO1_3.junk L)

/-! ## What the outputs and the accumulators hold after each point -/

/-- THE ACCUMULATION. After the body at position `n`: the two output windows' staging buffers, then the two
    accumulators. The first point resets the accumulators and adds the block's column sums; every later point
    adds to what the point before left; the last point moreover stores mean and variance into the output windows.
    Before the last point nothing is stored into the output windows — their component is no pieces read back, a
    placeholder nothing consults: at those points the windows are idle and are not written back. -/
def outsAt1 (c : Dev nD) : (n : ℕ) → n < cfg1.N → Vec F S1x128 .f32 × Vec F S1x128 .f32 × Vec F S1x128 .f32 × Vec F S1x128 .f32
  | 0, hn => (rdO2 [], rdO3 [], rdS0 (runA1 V c ⟨0, hn⟩ rfl (fun h => absurd h (by decide : ¬(0 : ℕ) = 49))).1, rdS1 (runA1 V c ⟨0, hn⟩ rfl (fun h => absurd h (by decide : ¬(0 : ℕ) = 49))).2.1)
  | n + 1, hn =>
    if h1 : n + 1 = 49 then
      (rdO2 (runC1 V c ⟨n + 1, hn⟩ (Nat.succ_ne_zero n) h1 (outsAt1 c n (Nat.lt_of_succ_lt hn)).2.2.1 (outsAt1 c n (Nat.lt_of_succ_lt hn)).2.2.2).1,
       rdO3 (runC1 V c ⟨n + 1, hn⟩ (Nat.succ_ne_zero n) h1 (outsAt1 c n (Nat.lt_of_succ_lt hn)).2.2.1 (outsAt1 c n (Nat.lt_of_succ_lt hn)).2.2.2).2.1,
       rdS0 (runC1 V c ⟨n + 1, hn⟩ (Nat.succ_ne_zero n) h1 (outsAt1 c n (Nat.lt_of_succ_lt hn)).2.2.1 (outsAt1 c n (Nat.lt_of_succ_lt hn)).2.2.2).2.2.1,
       rdS1 (runC1 V c ⟨n + 1, hn⟩ (Nat.succ_ne_zero n) h1 (outsAt1 c n (Nat.lt_of_succ_lt hn)).2.2.1 (outsAt1 c n (Nat.lt_of_succ_lt hn)).2.2.2).2.2.2.1)
    else
      (rdO2 [], rdO3 [],
       rdS0 (runB1 V c ⟨n + 1, hn⟩ (Nat.succ_ne_zero n) h1 (outsAt1 c n (Nat.lt_of_succ_lt hn)).2.2.1 (outsAt1 c n (Nat.lt_of_succ_lt hn)).2.2.2).1,
       rdS1 (runB1 V c ⟨n + 1, hn⟩ (Nat.succ_ne_zero n) h1 (outsAt1 c n (Nat.lt_of_succ_lt hn)).2.2.1 (outsAt1 c n (Nat.lt_of_succ_lt hn)).2.2.2).2.1)

/-- `outsAt1` at the first point. -/
theorem outsAt1_A (c : Dev nD) (t : Fin cfg1.N) (h0 : t.val = 0) (h1 : ¬t.val = 49) :
    outsAt1 V c t.val t.isLt = (rdO2 [], rdO3 [], rdS0 (runA1 V c t h0 h1).1, rdS1 (runA1 V c t h0 h1).2.1) := by
  obtain ⟨n, hn⟩ := t
  cases n with
  | zero => exact rfl
  | succ n => exact absurd h0 (Nat.succ_ne_zero n)

/-- `outsAt1` at a middle point: over what the point before left in the accumulators. -/
theorem outsAt1_B (c : Dev nD) (t : Fin cfg1.N) (h0 : ¬t.val = 0) (h1 : ¬t.val = 49) :
    outsAt1 V c t.val t.isLt = (rdO2 [], rdO3 [],
      rdS0 (runB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).1,
      rdS1 (runB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).2.1) := by
  obtain ⟨n, hn⟩ := t
  cases n with
  | zero => exact absurd rfl h0
  | succ n => exact (dif_neg h1).trans rfl

/-- `outsAt1` at the last point: over what the point before left in the accumulators. -/
theorem outsAt1_C (c : Dev nD) (t : Fin cfg1.N) (h0 : ¬t.val = 0) (h1 : t.val = 49) :
    outsAt1 V c t.val t.isLt =
     (rdO2 (runC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).1,
      rdO3 (runC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).2.1,
      rdS0 (runC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).2.2.1,
      rdS1 (runC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.1) := by
  obtain ⟨n, hn⟩ := t
  cases n with
  | zero => exact absurd rfl h0
  | succ n => exact (dif_pos h1).trans rfl

/-! ## The region invariant -/

/-- The region invariant before position `n`: before the first point the class's (every scoped buffer of the
    kernel's own at anything, the generator register at some state); afterwards the two accumulators at what the
    point before left in them, the remainder of the scoped rest unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the two outputs' at `outsAt1`'s first two components; the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point is the first, a middle one or the last,
    and that case's run applies: the invariant hands it the two accumulators at what the point before left (at
    anything at the first point) and takes them back at this point's contents, the pieces covering each; away from
    the last point the output windows' buffers are handed back untouched, at the last point they are covered by the
    stored mean and variance; the remainder of the scoped rest, the generator register and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val = 49
  · have h0 : ¬t.val = 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    (try dsimp only)
    rw [PhiS1_castSucc V c t, PhiS1_pos V c _ _ h0]
    iintro ⟨⟨⟨⟨HS0, HS1⟩, Hr⟩, Hg⟩, Ho, ⟨%d0, H0⟩, ⟨%d1, H1⟩, ⟨%d2, H2⟩, ⟨%d3, H3⟩⟩
    iapply ((runC1 V c t h0 h1 _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_C_2 c _ _ _ _ _ _ _ _ _ _ _ _ _ _ _ _ _ _ _)
    unfold owns; iexists _; isplitr
    swap; · iexact H3
    ipureintro; exact View.read_writes_of_cover _ _ _ _ _ (cover1_C_3 c _ _ _ _ _ _ _ _ _ _ _ _ _ _ _ _ _ _ _)
  · have hnc : ¬cond1_1 (grid1.coords t) := fun h => h1 ((hcond1_1 t).mp h)
    rw [Dat.leavesExact_idle (dat1 V c) 2 t (idleAt1_2 t hnc) (noFlush1_2 t hnc)]
    rw [Dat.leavesExact_idle (dat1 V c) 3 t (idleAt1_3 t hnc) (noFlush1_3 t hnc)]
    by_cases h0 : t.val = 0
    · rw [outsAt1_A V c t h0 h1]
      (try dsimp only)
      rw [PhiS1_castSucc V c t, PhiS1_zero V c _ _ h0, PhiA1_eq]
      iintro ⟨⟨⟨⟨HS0, HS1⟩, Hr⟩, Hg⟩, Ho, ⟨%d0, H0⟩, ⟨%d1, H1⟩, H2, H3⟩
      iapply ((runA1 V c t h0 h1).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexact H3
    · rw [outsAt1_B V c t h0 h1]
      (try dsimp only)
      rw [PhiS1_castSucc V c t, PhiS1_pos V c _ _ h0]
      iintro ⟨⟨⟨⟨HS0, HS1⟩, Hr⟩, Hg⟩, Ho, ⟨%d0, H0⟩, ⟨%d1, H1⟩, H2, H3⟩
      iapply ((runB1 V c t h0 h1 _ _).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.Kernel.Hand

end
-- ==== Proof.K.Region2.lean ====
import proofs.«108080_j74191265071850_1_alg».proof.Proof.Gen.Kernel.Launch
import proofs.«108080_j74191265071850_1_alg».proof.Proof.Gen.Kernel.Skeleton
import proofs.«108080_j74191265071850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of region 2, at any float model `F` and at a parameter `V`, the buffer contents when the region
is entered. Per grid point the kernel normalises a block of 2000 rows of the 128-column input with five one-row
windows (each fetched at the first point only, and kept): it adds the bias row (window 1), subtracts the mean row
(window 2), multiplies by the reciprocal square root of the variance row (window 3) plus a small constant, scales by
window 4, shifts by window 5, and clamps below at zero. Per window the block it holds at a point; what the body
leaves in the output window's buffer; the body's triple; the pipeline's proof data and the body obligation at every
point. -/

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # Region 2: the batch-normalisation kernel (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or
    not (not fetched, the block index has not moved), for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or
    not (not fetched, the block index has not moved), for any proof data whose array is `V`'s and whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether it was fetched there or
    not (not fetched, the block index has not moved), for any proof data whose array is `V`'s and whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether it was fetched there or
    not (not fetched, the block index has not moved), for any proof data whose array is `V`'s and whose body leaves
    the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether it was fetched there or
    not (not fetched, the block index has not moved), for any proof data whose array is `V`'s and whose body leaves
    the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether it was fetched there or
    not (not fetched, the block index has not moved), for any proof data whose array is `V`'s and whose body leaves
    the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: one whole-block rectangle per window -/

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_5 : Rect S1x128 := Rect.unit (s := S1x128) ![0, 0] S1x128.size inb_S1x128_S1x128_0_0
abbrev r2_6 : Rect S2000x128 := Rect.unit (s := S2000x128) ![0, 0] S2000x128.size inb_S2000x128_S2000x128_0_0

/-! ## What the body leaves in the output window's buffer -/

/-- Window 6's staging buffer after the body, from the input windows' blocks (`xW` is window `W`'s): its one
    store, of the whole block, whose payload is, elementwise with each one-row window repeated down the rows,
    `max(((x0 + x1 - x2) * rsqrt(x3 + ε)) * x4 + x5, 0)`. The body reads window 3 before window 2, and the payload takes
    its arguments in the order they are read: windows 0, 1, 3, 2, 4, 5. -/
def out2_6 (x0 : Vec F S2000x128 .f32) (x1 : Vec F S1x128 .f32) (x2 : Vec F S1x128 .f32) (x3 : Vec F S1x128 .f32) (x4 : Vec F S1x128 .f32) (x5 : Vec F S1x128 .f32) : Vec F S2000x128 .f32 :=
  View.canon [⟨r2_6, k2_pay1 (View.ld x0 r2_0) (View.ld x1 r2_1) (View.ld x3 r2_3) (View.ld x2 r2_2) (View.ld x4 r2_4) (View.ld x5 r2_5)⟩]

/-- The one store is of the whole block, so it covers the buffer. -/
theorem cover2_6 (p0 : Vec F S2000x128 .f32) (y : S2000x128.Idx) :
    ∃ pc ∈ ([⟨r2_6, p0⟩] : List (View.Piece (Elt F) S2000x128 .f32)), y ∈ pc.1.set :=
  View.cover_of_tiled [⟨r2_6, p0⟩] S2000x128.size (by rfl) y

/-! ## The body's triple -/

set_option maxHeartbeats 1000000 in
/-- The kernel body on whole staging memrefs, the inputs' at read contents `xW` and the output's at anything, at any
    grid coordinates, runs to the continuation holding the inputs' as they were and the output's at `out2_6` of
    the inputs'. The body also loads the output's buffer before storing into it; that value is
    not used, and the store overwrites every element of it. -/
theorem sound_kernel2 (c : Dev nD) (E : Set ℕ) (i : grid2.Coords)
    (arg0 : Memref sig .tc .vmem S2000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2__bn_apply_kernel i arg0 harg0 arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«108080_j74191265071850_1_alg».proof.Proof.Gen.Kernel.Launch
import proofs.«108080_j74191265071850_1_alg».proof.Proof.Gen.Kernel.Skeleton
import proofs.«108080_j74191265071850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of region 3, at any float model `F` and at a parameter `V`, the buffer contents when the region
is entered. The kernel is one matrix product per grid point: a block of 2000 rows of the 128-column input times the
whole 128 x 64 weight matrix (fetched at the first point only, and kept), both operands rounded to bfloat16 first and
the products accumulated in 32-bit floats onto a zero block, stored as a block of 2000 rows of the 64-column output. Per window the block it holds at a point; what the body leaves in the output window's buffer;
the body's triple; the pipeline's proof data and the body obligation at every point. -/

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # Region 3: the second linear layer's kernel (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or
    not (not fetched, the block index has not moved), for any proof data whose array is `V`'s and whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether it was fetched there or
    not (not fetched, the block index has not moved), for any proof data whose array is `V`'s and whose body leaves
    the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2000x128 := Rect.unit (s := S2000x128) ![0, 0] S2000x128.size inb_S2000x128_S2000x128_0_0
abbrev r3_1 : Rect S128x64 := Rect.unit (s := S128x64) ![0, 0] S128x64.size inb_S128x64_S128x64_0_0
abbrev r3_2 : Rect S2000x64 := Rect.unit (s := S2000x64) ![0, 0] S2000x64.size inb_S2000x64_S2000x64_0_0

/-! ## What the body leaves in the output window's buffer -/

/-- Window 2's staging buffer after the body, from the input windows' blocks: its one store, of the whole block,
    whose payload is the product of the two whole-block loads, each rounded to bfloat16, accumulated onto zeros. -/
def out3_2 (x0 : Vec F S2000x128 .f32) (x1 : Vec F S128x64 .f32) : Vec F S2000x64 .f32 :=
  View.canon [⟨r3_2, k3_pay1 (View.ld x0 r3_0) (View.ld x1 r3_1)⟩]

/-- The one store is of the whole block, so it covers the buffer. -/
theorem cover3_2 (p0 : Vec F S2000x64 .f32) (y : S2000x64.Idx) :
    ∃ pc ∈ ([⟨r3_2, p0⟩] : List (View.Piece (Elt F) S2000x64 .f32)), y ∈ pc.1.set :=
  View.cover_of_tiled [⟨r3_2, p0⟩] S2000x64.size (by rfl) y

/-! ## The body's triple -/

set_option maxHeartbeats 1000000 in
/-- The kernel body on whole staging memrefs, the inputs' at read contents `x0`, `x1` and the output's at anything,
    at any grid coordinates, runs to the continuation holding the inputs' as they were and the output's at
    `out3_2` of the inputs'. The body also loads the output's buffer before storing into it; that value is not
    used, and the store overwrites every element of it. -/
theorem sound_kernel3 (c : Dev nD) (E : Set ℕ) (i : grid3.Coords)
    (arg0 : Memref sig .tc .vmem S2000x128 .f32) (harg0 : arg0.IsWhole) (arg1 : Memref sig .tc .vmem S128x64 .f32) (harg1 : arg1.IsWhole)
    (arg2 : Memref sig .tc .vmem S2000x64 .f32) (harg2 : arg2.IsWhole)
    (x0 : Vec F S2000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3__linear_kernel i arg0 harg0 arg1 harg1 arg2 harg2) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and the output's at `out3_2` of the input blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
import proofs.«108080_j74191265071850_1_alg».proof.Proof.Gen.Kernel.Launch
import proofs.«108080_j74191265071850_1_alg».proof.Proof.Gen.Kernel.Skeleton
import proofs.«108080_j74191265071850_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of region 4, at any float model `F` and at a parameter `V`, the buffer contents when the region
is entered. Per grid point the kernel takes a block of 2000 rows of the 64-column input, adds the one-row bias
(fetched at the first point only, and kept) to every row, and stores the row-wise log-softmax: each row minus its
maximum, minus the logarithm of the sum of the exponentials of that difference. Per window the block it holds at a
point; what the body leaves in the output window's buffer; the body's triple; the pipeline's proof data and the
body obligation at every point. -/

-- membership in a rectangle of long extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # Region 4: the log-softmax kernel (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether it was fetched there or
    not (not fetched, the block index has not moved), for any proof data whose array is `V`'s and whose body leaves
    the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether it was fetched there or
    not (not fetched, the block index has not moved), for any proof data whose array is `V`'s and whose body leaves
    the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2000x64 := Rect.unit (s := S2000x64) ![0, 0] S2000x64.size inb_S2000x64_S2000x64_0_0
abbrev r4_1 : Rect S1x64 := Rect.unit (s := S1x64) ![0, 0] S1x64.size inb_S1x64_S1x64_0_0
abbrev r4_2 : Rect S2000x64 := Rect.unit (s := S2000x64) ![0, 0] S2000x64.size inb_S2000x64_S2000x64_0_0

/-! ## What the body leaves in the output window's buffer -/

/-- Window 2's staging buffer after the body, from the input windows' blocks: its one store, of the whole block,
    whose payload is the row-wise log-softmax of the first load plus the second (one row, added to every row). -/
def out4_2 (x0 : Vec F S2000x64 .f32) (x1 : Vec F S1x64 .f32) : Vec F S2000x64 .f32 :=
  View.canon [⟨r4_2, k4_pay1 (View.ld x0 r4_0) (View.ld x1 r4_1)⟩]

/-- The one store is of the whole block, so it covers the buffer. -/
theorem cover4_2 (p0 : Vec F S2000x64 .f32) (y : S2000x64.Idx) :
    ∃ pc ∈ ([⟨r4_2, p0⟩] : List (View.Piece (Elt F) S2000x64 .f32)), y ∈ pc.1.set :=
  View.cover_of_tiled [⟨r4_2, p0⟩] S2000x64.size (by rfl) y

/-! ## The body's triple -/

set_option maxHeartbeats 1000000 in
/-- The kernel body on whole staging memrefs, the inputs' at read contents `x0`, `x1` and the output's at anything,
    at any grid coordinates, runs to the continuation holding the inputs' as they were and the output's at
    `out4_2` of the inputs'. The body also loads the output's buffer before storing into it; that value is not
    used, and the store overwrites every element of it. -/
theorem sound_kernel4 (c : Dev nD) (E : Set ℕ) (i : grid4.Coords)
    (arg0 : Memref sig .tc .vmem S2000x64 .f32) (harg0 : arg0.IsWhole) (arg1 : Memref sig .tc .vmem S1x64 .f32) (harg1 : arg1.IsWhole)
    (arg2 : Memref sig .tc .vmem S2000x64 .f32) (harg2 : arg2.IsWhole)
    (x0 : Vec F S2000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__log_softmax_kernel i arg0 harg0 arg1 harg1 arg2 harg2) K := by
  simp only [cc4__log_softmax_kernel_eq_skeleton]; unfold cc4__log_softmax_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and the output's at `out4_2` of the input blocks; the invariant
    is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The program's run, assembled: the contents of every buffer between two items of the program, each region's proof
  data at the contents it is entered from, the five regions as segments, and the run itself — every weakly fair
  execution terminates, the result array ends at what the last region's write-backs leave, the arguments unchanged.

  The contents are a fold through the program: the launch memory; after a stretch of host operations, those operations
  applied; after a region, the same contents with each output array of the region replaced by the fold of the blocks the
  pipeline wrote back.
-/
import proofs.«108080_j74191265071850_1_alg».proof.Proof.K.ValueCond
import proofs.«108080_j74191265071850_1_alg».proof.Proof.K.Region0
import proofs.«108080_j74191265071850_1_alg».proof.Proof.K.Region1
import proofs.«108080_j74191265071850_1_alg».proof.Proof.K.Region2
import proofs.«108080_j74191265071850_1_alg».proof.Proof.K.Region3
import proofs.«108080_j74191265071850_1_alg».proof.Proof.K.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Mathlib.Tactic.IntervalCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between items -/

/-- A core's contents read at the TensorCore's references (what a region's proof data take). -/
abbrev atRef (W : Dev nD → Valuation τ sig (Elt F)) : (c : Dev nD) → (b : Ref sig .tc) → Buf (Elt F) ((c : Thread nD τ).loc b) :=
  fun c b => W c b

/-- What region 0 leaves in its output array: the fold of its 50 write-backs, from the contents after the first five
    host stretches. -/
def o6 (c : Dev nD) : Buf (Elt F) ((c : Thread nD τ).loc main_v35) := (dat0 (atRef (V5 m)) c).arrAt 2 cfg0.N
/-- After region 0. -/
def X6 (c : Dev nD) : Valuation τ sig (Elt F) := Function.update (V5 m c) main_v35 (o6 m c)
/-- After the host stretch between regions 0 and 1 (the first aggregation and the bias row). -/
def X7 (c : Dev nD) : Valuation τ sig (Elt F) := StableHlo.after hostOps1 (X6 m c)
/-- What region 1 leaves in its two output arrays (the column means and variances). -/
def o8_0 (c : Dev nD) : Buf (Elt F) ((c : Thread nD τ).loc main_v50_0) := (dat1 (atRef (X7 m)) c).arrAt 2 cfg1.N
def o8_1 (c : Dev nD) : Buf (Elt F) ((c : Thread nD τ).loc main_v50_1) := (dat1 (atRef (X7 m)) c).arrAt 3 cfg1.N
/-- After region 1. -/
def X8 (c : Dev nD) : Valuation τ sig (Elt F) := Function.update (Function.update (X7 m c) main_v50_0 (o8_0 m c)) main_v50_1 (o8_1 m c)
/-- After the three reshapes before region 2. -/
def X9 (c : Dev nD) : Valuation τ sig (Elt F) := StableHlo.after hostOps2 (X8 m c)
/-- What region 2 leaves in its output array (the normalised, rectified activations). -/
def o10 (c : Dev nD) : Buf (Elt F) ((c : Thread nD τ).loc main_v54) := (dat2 (atRef (X9 m)) c).arrAt 6 cfg2.N
/-- After region 2. -/
def X10 (c : Dev nD) : Valuation τ sig (Elt F) := Function.update (X9 m c) main_v54 (o10 m c)
/-- What region 3 leaves in its output array (the second linear layer). -/
def o11 (c : Dev nD) : Buf (Elt F) ((c : Thread nD τ).loc main_v55) := (dat3 (atRef (X10 m)) c).arrAt 2 cfg3.N
/-- After region 3. -/
def X11 (c : Dev nD) : Valuation τ sig (Elt F) := Function.update (X10 m c) main_v55 (o11 m c)
/-- After the host stretch between regions 3 and 4 (the second aggregation and the bias row). -/
def X12 (c : Dev nD) : Valuation τ sig (Elt F) := StableHlo.after hostOps4 (X11 m c)
/-- What region 4 leaves in its output array: the program's result. -/
def o13 (c : Dev nD) : Buf (Elt F) ((c : Thread nD τ).loc main_v70) := (dat4 (atRef (X12 m)) c).arrAt 2 cfg4.N
/-- After region 4. -/
def X13 (c : Dev nD) : Valuation τ sig (Elt F) := Function.update (X12 m c) main_v70 (o13 m c)

/-! ### A region changes its output arrays only -/

theorem X6_of (c : Dev nD) (b : Ref sig .tc) (h : b ≠ main_v35) : X6 m c b = V5 m c b :=
  Function.update_of_ne (StableHlo.devRef_ne_of_ne h) _ _
theorem X6_out (c : Dev nD) : X6 m c main_v35 = o6 m c := Function.update_self _ _ _
theorem X8_of (c : Dev nD) (b : Ref sig .tc) (h : ¬ (b = main_v50_0 ∨ b = main_v50_1)) : X8 m c b = X7 m c b :=
  (Function.update_of_ne (StableHlo.devRef_ne_of_ne fun e => h (Or.inr e)) _ _).trans
    (Function.update_of_ne (StableHlo.devRef_ne_of_ne fun e => h (Or.inl e)) _ _)
theorem X8_out_0 (c : Dev nD) : X8 m c main_v50_0 = o8_0 m c :=
  (Function.update_of_ne (StableHlo.devRef_ne_of_ne (by decide)) _ _).trans (Function.update_self _ _ _)
theorem X8_out_1 (c : Dev nD) : X8 m c main_v50_1 = o8_1 m c := Function.update_self _ _ _
theorem X10_of (c : Dev nD) (b : Ref sig .tc) (h : b ≠ main_v54) : X10 m c b = X9 m c b :=
  Function.update_of_ne (StableHlo.devRef_ne_of_ne h) _ _
theorem X10_out (c : Dev nD) : X10 m c main_v54 = o10 m c := Function.update_self _ _ _
theorem X11_of (c : Dev nD) (b : Ref sig .tc) (h : b ≠ main_v55) : X11 m c b = X10 m c b :=
  Function.update_of_ne (StableHlo.devRef_ne_of_ne h) _ _
theorem X11_out (c : Dev nD) : X11 m c main_v55 = o11 m c := Function.update_self _ _ _
theorem X13_of (c : Dev nD) (b : Ref sig .tc) (h : b ≠ main_v70) : X13 m c b = X12 m c b :=
  Function.update_of_ne (StableHlo.devRef_ne_of_ne h) _ _
theorem X13_out (c : Dev nD) : X13 m c main_v70 = o13 m c := Function.update_self _ _ _

/-! ### The same contents as the conditional frame names them -/

/-- What the regions leave, as the family the conditional frame's contents are written over. -/
def outs : Outs (F := F) := fun J r c =>
  match J with
  | 6 => X6 m c r
  | 8 => X8 m c r
  | 10 => X10 m c r
  | 11 => X11 m c r
  | 13 => X13 m c r
  | _ => V0 m c r

theorem V6_eq (c : Dev nD) : V6 m (outs m) c = X6 m c :=
  congrArg (Function.update (V5 m c) (Proc.devRef .tc main_v35)) (X6_out m c)
theorem V7_eq (c : Dev nD) : V7 m (outs m) c = X7 m c := congrArg (StableHlo.after hostOps1) (V6_eq m c)
theorem V8_eq (c : Dev nD) : V8 m (outs m) c = X8 m c := by
  show Function.update (Function.update (V7 m (outs m) c) (Proc.devRef .tc main_v50_0) (X8 m c main_v50_0)) (Proc.devRef .tc main_v50_1) (X8 m c main_v50_1) = X8 m c
  rw [V7_eq, X8_out_0, X8_out_1]; rfl
theorem V9_eq (c : Dev nD) : V9 m (outs m) c = X9 m c := congrArg (StableHlo.after hostOps2) (V8_eq m c)
theorem V10_eq (c : Dev nD) : V10 m (outs m) c = X10 m c := by
  show Function.update (V9 m (outs m) c) (Proc.devRef .tc main_v54) (X10 m c main_v54) = X10 m c
  rw [V9_eq, X10_out]; rfl
theorem V11_eq (c : Dev nD) : V11 m (outs m) c = X11 m c := by
  show Function.update (V10 m (outs m) c) (Proc.devRef .tc main_v55) (X11 m c main_v55) = X11 m c
  rw [V10_eq, X11_out]; rfl
theorem V12_eq (c : Dev nD) : V12 m (outs m) c = X12 m c := congrArg (StableHlo.after hostOps4) (V11_eq m c)
theorem V13_eq (c : Dev nD) : V13 m (outs m) c = X13 m c := by
  show Function.update (V12 m (outs m) c) (Proc.devRef .tc main_v70) (X13 m c main_v70) = X13 m c
  rw [V12_eq, X13_out]; rfl
theorem outs_result (c : Dev nD) : outs m 13 main_v70 c = o13 m c := X13_out m c

/-! ## The proof data family and what rides beside the buffers -/

/-- Every pipeline's proof data, each at the contents its region is entered from. -/
def pdats : (p : Fin 5) → (c : Dev nD) → Dat τ (Elt F) Unit ℕ (UR sig nD τ) ℕ (cfgs p) c
  | ⟨0, _⟩ => fun c => dat0 (atRef (V5 m)) c
  | ⟨1, _⟩ => fun c => dat1 (atRef (X7 m)) c
  | ⟨2, _⟩ => fun c => dat2 (atRef (X9 m)) c
  | ⟨3, _⟩ => fun c => dat3 (atRef (X10 m)) c
  | ⟨4, _⟩ => fun c => dat4 (atRef (X12 m)) c
abbrev vn : Variants := Variants.none
/-- No core owes another anything: no level is assigned. -/
abbrev Lz : GSem nD τ sig → Finset Unit := fun _ => ∅
abbrev lvz : GSem nD τ sig → Unit → ℕ := fun _ _ => 0
/-- What rides beside the buffers through every item: the core's generator register at some state and its dues, none. -/
abbrev Rz (c : Dev nD) : sProp 𝕄 := iprop((∃ r, prngReg c r) ∗ ∃ W, owes (c : Thread nD τ) (0 : CellTallies nD τ sig Unit) W)

/-! ## Region 0 -/

/-- After region 0 each of its arrays holds what the pipeline leaves: an input window's array what it held when the
    region was entered, an output window's array the folded write-backs. -/
theorem hF0 (c : Dev nD) (w : Fin cfg0.W) : (dat0 (atRef (V5 m)) c).arrAt w cfg0.N = atRef (X6 m) c (Pipeline.arrRef spec0 w) := by
  obtain ⟨n, hn⟩ := w
  have hn' : n < 3 := hn
  interval_cases n
  · exact ((dat0 (atRef (V5 m)) c).arrAt_in 0 rfl _).trans ((A_eq0 (atRef (V5 m)) c 0).trans (X6_of m c main_arg0 (by decide)).symm)
  · exact ((dat0 (atRef (V5 m)) c).arrAt_in 1 rfl _).trans ((A_eq0 (atRef (V5 m)) c 1).trans (X6_of m c main_arg3 (by decide)).symm)
  · exact (X6_out m c).symm

/-- Every buffer that is no array of region 0 holds after it what it held before. -/
theorem hrest0 (c : Dev nD) : ∀ b, b ∉ Finset.univ.image (Pipeline.arrRef spec0) → atRef (X6 m) c b = atRef (V5 m) c b :=
  fun b hb => X6_of m c b (fun e => hb (e ▸ Finset.mem_image.mpr ⟨2, Finset.mem_univ _, rfl⟩))

set_option backward.isDefEq.respectTransparency.types false in
/-- Region 0 as a segment: entered with every unscoped buffer at the contents before it, left with them at the
    contents after it. Its arrays are split out of the unscoped buffers and put back at what the pipeline leaves; the
    generator register goes into the region's invariant and comes back; nothing is owed; the kernel has no
    semaphore of its own. -/
def reg0 : RegionSeg (pcfgs (F := F)) adm (pdats m) () defs₀ vn Lz lvz 0 where
  win := launch0.win.to₀
  block_pos := launch0.block_pos
  stage_whole := launch0.stage_whole
  K := PEmpty
  osem k := k.elim
  ho := Pipeline.OwnSemFacts.none _
  hbody c := (body_obligation0 (atRef (V5 m)) c).loose
  hwaits := Pipeline.hwaits_of_owed_zero _ _ _ _ Lz lvz 0 fun _ _ => rfl
  pre c := iprop(StableHlo.held (c : Thread nD τ) (Pipeline.ucRefs τ sig) (V5 m c) ∗ Rz c)
  post c := iprop(StableHlo.held (c : Thread nD τ) (Pipeline.ucRefs τ sig) (X6 m c) ∗ Rz c)
  X c := iprop(∃ r, prngReg c r)
  Y c := iprop(∃ r, prngReg c r)
  Z c := Pipeline.unscopedRest (Ix := Unit) (Name := ℕ) (U := UR sig nD τ) (Lvl := ℕ) spec0 c ((atRef (V5 m)) c)
  hentry c := by
    rw [Pipeline.ownSems0_none]
    have hsplit := Pipeline.arrays_of_unscopedBufs (p := 0) (pcfgs (F := F)) adm (pdats m) launch0.win launch0.arr_whole c
      ((pdats m 0 c).share_full fun _ => rfl) ((atRef (V5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      ((atRef (V5 m)) c) ((atRef (X6 m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- After region 1 each of its arrays holds what the pipeline leaves: an input window's array what it held when the
    region was entered, an output window's array the folded write-backs. -/
theorem hF1 (c : Dev nD) (w : Fin cfg1.W) : (dat1 (atRef (X7 m)) c).arrAt w cfg1.N = atRef (X8 m) c (Pipeline.arrRef spec1 w) := by
  obtain ⟨n, hn⟩ := w
  have hn' : n < 4 := hn
  interval_cases n
  · exact ((dat1 (atRef (X7 m)) c).arrAt_in 0 rfl _).trans ((A_eq1 (atRef (X7 m)) c 0).trans (X8_of m c main_v48 (by decide)).symm)
  · exact ((dat1 (atRef (X7 m)) c).arrAt_in 1 rfl _).trans ((A_eq1 (atRef (X7 m)) c 1).trans (X8_of m c main_v49 (by decide)).symm)
  · exact (X8_out_0 m c).symm
  · exact (X8_out_1 m c).symm

/-- Every buffer that is no array of region 1 holds after it what it held before. -/
theorem hrest1 (c : Dev nD) : ∀ b, b ∉ Finset.univ.image (Pipeline.arrRef spec1) → atRef (X8 m) c b = atRef (X7 m) c b :=
  fun b hb => X8_of m c b (fun e => hb (by rcases e with e | e <;> subst e; exact Finset.mem_image.mpr ⟨2, Finset.mem_univ _, rfl⟩; exact Finset.mem_image.mpr ⟨3, Finset.mem_univ _, rfl⟩))

set_option backward.isDefEq.respectTransparency.types false in
/-- Region 1 as a segment: entered with every unscoped buffer at the contents before it, left with them at the
    contents after it. Its arrays are split out of the unscoped buffers and put back at what the pipeline leaves; the
    generator register goes into the region's invariant and comes back; nothing is owed; the kernel has no
    semaphore of its own. -/
def reg1 : RegionSeg (pcfgs (F := F)) adm (pdats m) () defs₀ vn Lz lvz 1 where
  win := launch1.win.to₀
  block_pos := launch1.block_pos
  stage_whole := launch1.stage_whole
  K := PEmpty
  osem k := k.elim
  ho := Pipeline.OwnSemFacts.none _
  hbody c := (body_obligation1 (atRef (X7 m)) c).loose
  hwaits := Pipeline.hwaits_of_owed_zero _ _ _ _ Lz lvz 1 fun _ _ => rfl
  pre c := iprop(StableHlo.held (c : Thread nD τ) (Pipeline.ucRefs τ sig) (X7 m c) ∗ Rz c)
  post c := iprop(StableHlo.held (c : Thread nD τ) (Pipeline.ucRefs τ sig) (X8 m c) ∗ Rz c)
  X c := iprop(∃ r, prngReg c r)
  Y c := iprop(∃ r, prngReg c r)
  Z c := Pipeline.unscopedRest (Ix := Unit) (Name := ℕ) (U := UR sig nD τ) (Lvl := ℕ) spec1 c ((atRef (X7 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) ((atRef (X7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atRef (X7 m)) c)
    unfold Pipeline.ΦA
    iintro ⟨Hp, -, Hr⟩
    isplitl [Hr]; · iexact Hr
    iexact Hp
  hout c := by
    rw [Pipeline.ownSems0_none]
    refine BIBase.Entails.trans (hout1 (atRef (X7 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      ((atRef (X7 m)) c) ((atRef (X8 m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option maxHeartbeats 4000000 in
/-- After region 2 each of its arrays holds what the pipeline leaves: an input window's array what it held when the
    region was entered, an output window's array the folded write-backs. -/
theorem hF2 (c : Dev nD) (w : Fin cfg2.W) : (dat2 (atRef (X9 m)) c).arrAt w cfg2.N = atRef (X10 m) c (Pipeline.arrRef spec2 w) := by
  obtain ⟨n, hn⟩ := w
  have hn' : n < 7 := hn
  interval_cases n
  · exact ((dat2 (atRef (X9 m)) c).arrAt_in 0 rfl _).trans ((A_eq2 (atRef (X9 m)) c 0).trans (X10_of m c main_v48 (by decide)).symm)
  · exact ((dat2 (atRef (X9 m)) c).arrAt_in 1 rfl _).trans ((A_eq2 (atRef (X9 m)) c 1).trans (X10_of m c main_v51 (by decide)).symm)
  · exact ((dat2 (atRef (X9 m)) c).arrAt_in 2 rfl _).trans ((A_eq2 (atRef (X9 m)) c 2).trans (X10_of m c main_v50_0 (by decide)).symm)
  · exact ((dat2 (atRef (X9 m)) c).arrAt_in 3 rfl _).trans ((A_eq2 (atRef (X9 m)) c 3).trans (X10_of m c main_v50_1 (by decide)).symm)
  · exact ((dat2 (atRef (X9 m)) c).arrAt_in 4 rfl _).trans ((A_eq2 (atRef (X9 m)) c 4).trans (X10_of m c main_v52 (by decide)).symm)
  · exact ((dat2 (atRef (X9 m)) c).arrAt_in 5 rfl _).trans ((A_eq2 (atRef (X9 m)) c 5).trans (X10_of m c main_v53 (by decide)).symm)
  · exact (X10_out m c).symm

/-- Every buffer that is no array of region 2 holds after it what it held before. -/
theorem hrest2 (c : Dev nD) : ∀ b, b ∉ Finset.univ.image (Pipeline.arrRef spec2) → atRef (X10 m) c b = atRef (X9 m) c b :=
  fun b hb => X10_of m c b (fun e => hb (e ▸ Finset.mem_image.mpr ⟨6, Finset.mem_univ _, rfl⟩))

set_option backward.isDefEq.respectTransparency.types false in
/-- Region 2 as a segment: entered with every unscoped buffer at the contents before it, left with them at the
    contents after it. Its arrays are split out of the unscoped buffers and put back at what the pipeline leaves; the
    generator register goes into the region's invariant and comes back; nothing is owed; the kernel has no
    semaphore of its own. -/
def reg2 : RegionSeg (pcfgs (F := F)) adm (pdats m) () defs₀ vn Lz lvz 2 where
  win := launch2.win.to₀
  block_pos := launch2.block_pos
  stage_whole := launch2.stage_whole
  K := PEmpty
  osem k := k.elim
  ho := Pipeline.OwnSemFacts.none _
  hbody c := (body_obligation2 (atRef (X9 m)) c).loose
  hwaits := Pipeline.hwaits_of_owed_zero _ _ _ _ Lz lvz 2 fun _ _ => rfl
  pre c := iprop(StableHlo.held (c : Thread nD τ) (Pipeline.ucRefs τ sig) (X9 m c) ∗ Rz c)
  post c := iprop(StableHlo.held (c : Thread nD τ) (Pipeline.ucRefs τ sig) (X10 m c) ∗ Rz c)
  X c := iprop(∃ r, prngReg c r)
  Y c := iprop(∃ r, prngReg c r)
  Z c := Pipeline.unscopedRest (Ix := Unit) (Name := ℕ) (U := UR sig nD τ) (Lvl := ℕ) spec2 c ((atRef (X9 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) ((atRef (X9 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      ((atRef (X9 m)) c) ((atRef (X10 m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- After region 3 each of its arrays holds what the pipeline leaves: an input window's array what it held when the
    region was entered, an output window's array the folded write-backs. -/
theorem hF3 (c : Dev nD) (w : Fin cfg3.W) : (dat3 (atRef (X10 m)) c).arrAt w cfg3.N = atRef (X11 m) c (Pipeline.arrRef spec3 w) := by
  obtain ⟨n, hn⟩ := w
  have hn' : n < 3 := hn
  interval_cases n
  · exact ((dat3 (atRef (X10 m)) c).arrAt_in 0 rfl _).trans ((A_eq3 (atRef (X10 m)) c 0).trans (X11_of m c main_v54 (by decide)).symm)
  · exact ((dat3 (atRef (X10 m)) c).arrAt_in 1 rfl _).trans ((A_eq3 (atRef (X10 m)) c 1).trans (X11_of m c main_arg7 (by decide)).symm)
  · exact (X11_out m c).symm

/-- Every buffer that is no array of region 3 holds after it what it held before. -/
theorem hrest3 (c : Dev nD) : ∀ b, b ∉ Finset.univ.image (Pipeline.arrRef spec3) → atRef (X11 m) c b = atRef (X10 m) c b :=
  fun b hb => X11_of m c b (fun e => hb (e ▸ Finset.mem_image.mpr ⟨2, Finset.mem_univ _, rfl⟩))

set_option backward.isDefEq.respectTransparency.types false in
/-- Region 3 as a segment: entered with every unscoped buffer at the contents before it, left with them at the
    contents after it. Its arrays are split out of the unscoped buffers and put back at what the pipeline leaves; the
    generator register goes into the region's invariant and comes back; nothing is owed; the kernel has no
    semaphore of its own. -/
def reg3 : RegionSeg (pcfgs (F := F)) adm (pdats m) () defs₀ vn Lz lvz 3 where
  win := launch3.win.to₀
  block_pos := launch3.block_pos
  stage_whole := launch3.stage_whole
  K := PEmpty
  osem k := k.elim
  ho := Pipeline.OwnSemFacts.none _
  hbody c := (body_obligation3 (atRef (X10 m)) c).loose
  hwaits := Pipeline.hwaits_of_owed_zero _ _ _ _ Lz lvz 3 fun _ _ => rfl
  pre c := iprop(StableHlo.held (c : Thread nD τ) (Pipeline.ucRefs τ sig) (X10 m c) ∗ Rz c)
  post c := iprop(StableHlo.held (c : Thread nD τ) (Pipeline.ucRefs τ sig) (X11 m c) ∗ Rz c)
  X c := iprop(∃ r, prngReg c r)
  Y c := iprop(∃ r, prngReg c r)
  Z c := Pipeline.unscopedRest (Ix := Unit) (Name := ℕ) (U := UR sig nD τ) (Lvl := ℕ) spec3 c ((atRef (X10 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) ((atRef (X10 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      ((atRef (X10 m)) c) ((atRef (X11 m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- After region 4 each of its arrays holds what the pipeline leaves: an input window's array what it held when the
    region was entered, an output window's array the folded write-backs. -/
theorem hF4 (c : Dev nD) (w : Fin cfg4.W) : (dat4 (atRef (X12 m)) c).arrAt w cfg4.N = atRef (X13 m) c (Pipeline.arrRef spec4 w) := by
  obtain ⟨n, hn⟩ := w
  have hn' : n < 3 := hn
  interval_cases n
  · exact ((dat4 (atRef (X12 m)) c).arrAt_in 0 rfl _).trans ((A_eq4 (atRef (X12 m)) c 0).trans (X13_of m c main_v68 (by decide)).symm)
  · exact ((dat4 (atRef (X12 m)) c).arrAt_in 1 rfl _).trans ((A_eq4 (atRef (X12 m)) c 1).trans (X13_of m c main_v69 (by decide)).symm)
  · exact (X13_out m c).symm

/-- Every buffer that is no array of region 4 holds after it what it held before. -/
theorem hrest4 (c : Dev nD) : ∀ b, b ∉ Finset.univ.image (Pipeline.arrRef spec4) → atRef (X13 m) c b = atRef (X12 m) c b :=
  fun b hb => X13_of m c b (fun e => hb (e ▸ Finset.mem_image.mpr ⟨2, Finset.mem_univ _, rfl⟩))

set_option backward.isDefEq.respectTransparency.types false in
/-- Region 4 as a segment: entered with every unscoped buffer at the contents before it, left with them at the
    contents after it. Its arrays are split out of the unscoped buffers and put back at what the pipeline leaves; the
    generator register goes into the region's invariant and comes back; nothing is owed; the kernel has no
    semaphore of its own. -/
def reg4 : RegionSeg (pcfgs (F := F)) adm (pdats m) () defs₀ vn Lz lvz 4 where
  win := launch4.win.to₀
  block_pos := launch4.block_pos
  stage_whole := launch4.stage_whole
  K := PEmpty
  osem k := k.elim
  ho := Pipeline.OwnSemFacts.none _
  hbody c := (body_obligation4 (atRef (X12 m)) c).loose
  hwaits := Pipeline.hwaits_of_owed_zero _ _ _ _ Lz lvz 4 fun _ _ => rfl
  pre c := iprop(StableHlo.held (c : Thread nD τ) (Pipeline.ucRefs τ sig) (X12 m c) ∗ Rz c)
  post c := iprop(StableHlo.held (c : Thread nD τ) (Pipeline.ucRefs τ sig) (X13 m c) ∗ Rz c)
  X c := iprop(∃ r, prngReg c r)
  Y c := iprop(∃ r, prngReg c r)
  Z c := Pipeline.unscopedRest (Ix := Unit) (Name := ℕ) (U := UR sig nD τ) (Lvl := ℕ) spec4 c ((atRef (X12 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) ((atRef (X12 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      ((atRef (X12 m)) c) ((atRef (X13 m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates; the result array ends at
    the fold of the last region's write-backs (`o13`) and every argument array at its launch contents. -/
theorem run_value (ρ : Dev nD → PrngReg) :
    θ_run defs (onTc (τ := τ) (main (F := F))) ⟨m, fun _ => 0, ρ⟩ (fun r => ∀ c : Dev nD,
      r.2.mem ((c.tc : Thread nD τ).loc main_v70) = o13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have key : ∀ c : Dev nD, iprop(unscopedSems0 c ∗ owes (c : Thread nD τ) (0 : CellTallies nD τ sig Unit) ∅ ∗ Pipeline.launchCred (fun _ : Dev nD => (0 : CellTallies nD τ sig Unit)) c ∗ prngReg c (ρ c) ∗ iprop(emp)) ⊢ (Rz c : sProp 𝕄) := fun c => by
    iintro ⟨-, HO, -, Hp, -⟩
    isplitl [Hp]; · iexists _; iexact Hp
    iexists ∅; iexact HO
  have hall : (bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ iprop(emp)))
      ⊢ (bigSep Finset.univ (fun c : Dev nD => Rz c) : sProp 𝕄) := bigSep_mono fun c _ => key c
  have h := value_cond m (Ix := Unit) (U := UR sig nD τ) (Lvl := ℕ) emb₁ () vn Lz lvz (fun _ _ => rfl) ρ (outs m) (pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rz c)
    (hE0 := by
      iintro ⟨H, -⟩
      imodintro
      iapply hall
      iexact H)
    (hE5 := fun c => by iintro ⟨-, HO⟩; iexact HO)
    (reg0 m) (fun c => .rfl) (fun c => by rw [V6_eq]; exact .rfl)
    (reg1 m) (fun c => by rw [V7_eq]; exact .rfl) (fun c => by rw [V8_eq]; exact .rfl)
    (reg2 m) (fun c => by rw [V9_eq]; exact .rfl) (fun c => by rw [V10_eq]; exact .rfl)
    (reg3 m) (fun c => .rfl) (fun c => by rw [V11_eq]; exact .rfl)
    (reg4 m) (fun c => by rw [V12_eq]; exact .rfl) (fun c => by rw [V13_eq]; exact .rfl)
  refine (θ_run defs _ _).mono (fun r hr c => ?_) h
  rw [← outs_result]; exact hr c

/-- The frame: every weakly fair execution terminates and every argument array ends at its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => (hr c).2) (run_value m ρ)

end Cert.Kernel.Hand

end
-- ==== Proof.KI.ValueCond.lean ====
/-
  The program's run from one record per kernel region, with the result array named.

  The program is five kernel regions among stretches of host operations. Between two items every buffer that no region
  scopes holds a value determined by the launch memory, the host operations so far, and what each earlier region left in
  its output arrays. Given, for each region, a record saying that the region, entered from the contents before it, leaves
  the contents after it, the whole program terminates on every weakly fair execution; the result array then holds what
  the last region left, and no item ever writes an argument array.
-/
import proofs.«108080_j74191265071850_1_alg».proof.Proof.Gen.KernelIdeal.Regions

set_option maxRecDepth 1040

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ) (outs : Outs (F := F))

set_option backward.isDefEq.respectTransparency.types false in
/-- The run with the result named. Under the same hypotheses as the conditional frame — one segment record per kernel region,
    entered from the buffers' contents before it and left at the contents after it — every weakly fair execution of the
    program terminates, and in every final memory the result array holds what the last region's record says it leaves
    (`outs 13` at the result's buffer) while each argument array holds its launch contents. The argument is the conditional
    frame's, with the result's buffer read off the last contents as well. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V10 m outs c) ∗ E 3 c) ⊢ R3.pre c)
    (hpost3 : ∀ c : Dev nD, R3.post c ⊢ iprop(StableHlo.held (c : Thread nD τ) (Pipeline.ucRefs τ sig) (V11 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V12 m outs c) ∗ E 4 c) ⊢ R4.pre c)
    (hpost4 : ∀ c : Dev nD, R4.post c ⊢ iprop(StableHlo.held (c : Thread nD τ) (Pipeline.ucRefs τ sig) (V13 m outs c) ∗ E 5 c)) :
    θ_run defs (onTc (τ := τ) (main (F := F))) ⟨m, fun _ => 0, ρ⟩ (fun r => ∀ c : Dev nD,
      r.2.mem ((c.tc : Thread nD τ).loc main_v70) = outs 13 main_v70 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, hpre0 c, hpost0 c, hpre1 c, hpost1 c, hpre2 c, (hpost2 c).trans (hpre3 c), hpost3 c, hpre4 c, (hpost4 c).trans (sep_mono .rfl (hE5 c))⟩)
    (hinit := ?_)
    (QY := fun c s => s.mem ((c.tc : Thread nD τ).loc main_v70) = outs 13 main_v70 c
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨(h (Proc.devRef .tc main_v70) (Finset.mem_filter.mpr ⟨StableHlo.devRef_mem_tcRefs main_v70, by decide⟩)).trans (Function.update_self _ _ _),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c),
        (h (Proc.devRef .tc main_arg7) (Finset.mem_filter.mpr ⟨StableHlo.devRef_mem_tcRefs main_arg7, by decide⟩)).trans (V13_main_arg7 m outs c),
        (h (Proc.devRef .tc main_arg8) (Finset.mem_filter.mpr ⟨StableHlo.devRef_mem_tcRefs main_arg8, by decide⟩)).trans (V13_main_arg8 m outs c)⟩
    · iexact HSI

end Cert.KernelIdeal.Hand

end
-- ==== Proof.KI.Region0.lean ====
import proofs.«108080_j74191265071850_1_alg».proof.Proof.Gen.KernelIdeal.Launch
import proofs.«108080_j74191265071850_1_alg».proof.Proof.Gen.KernelIdeal.Skeleton
import proofs.«108080_j74191265071850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of region 0, at any float model `F` and at a parameter `V`, the buffer contents when the region
is entered. The kernel is one matrix product per grid point: a block of 2000 rows of the input times the whole
128 x 128 weight matrix (fetched at the first point only, and kept), both operands rounded to bfloat16 first and the
products accumulated in 32-bit floats onto a zero block, stored as a block of 2000 rows of the output.
Per window the block it holds at a point; what the body leaves in the output window's buffer; the body's triple;
the pipeline's proof data and the body obligation at every point. -/

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # Region 0: the first linear layer's kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether it was fetched there or
    not (not fetched, the block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether it was fetched there or
    not (not fetched, the block index has not moved), for any proof data whose array is `V`'s and whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x128 := Rect.unit (s := S2000x128) ![0, 0] S2000x128.size inb_S2000x128_S2000x128_0_0

/-! ## What the body leaves in the output window's buffer -/

/-- Window 2's staging buffer after the body, from the input windows' blocks: its one store, of the whole block,
    whose payload is the product of the two whole-block loads, each rounded to bfloat16, accumulated onto zeros. -/
def out0_2 (x0 : Vec F S2000x128 .f32) (x1 : Vec F S128x128 .f32) : Vec F S2000x128 .f32 :=
  View.canon [⟨r0_2, k0_pay1 (View.ld x0 r0_0) (View.ld x1 r0_1)⟩]

/-- The one store is of the whole block, so it covers the buffer. -/
theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

/-! ## The body's triple -/

set_option maxHeartbeats 1000000 in
/-- The kernel body on whole staging memrefs, the inputs' at read contents `x0`, `x1` and the output's at anything,
    at any grid coordinates, runs to the continuation holding the inputs' as they were and the output's at
    `out0_2` of the inputs'. The body also loads the output's buffer before storing into it; that value is not
    used, and the store overwrites every element of it. -/
theorem sound_kernel0 (c : Dev nD) (E : Set ℕ) (i : grid0.Coords)
    (arg0 : Memref sig .tc .vmem S2000x128 .f32) (harg0 : arg0.IsWhole) (arg1 : Memref sig .tc .vmem S128x128 .f32) (harg1 : arg1.IsWhole)
    (arg2 : Memref sig .tc .vmem S2000x128 .f32) (harg2 : arg2.IsWhole)
    (x0 : Vec F S2000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/- Region 1 (the batch-norm statistics kernel), what its three control cases share: the body's two branch
   conditions decided over the grid, where the two output windows are idle, the staging and scratch memrefs the
   body is called with, and the class's invariant with the two scratch accumulators taken out of the scoped rest. -/
import proofs.«108080_j74191265071850_1_alg».proof.Proof.Gen.KernelIdeal.Launch
import proofs.«108080_j74191265071850_1_alg».proof.Proof.Gen.KernelIdeal.Skeleton
import proofs.«108080_j74191265071850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions -/

/-- The condition of the first conditional (the accumulators are reset), from the grid coordinate. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the second conditional (mean and variance are stored), from the grid coordinate. -/
abbrev cond1_1 (i : grid1.Coords) : Prop := k1_cond2 i = 1#1
/-- It holds at the last point only. -/
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

/-- The two input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Away from the last point the two output windows are idle and are not written back. -/
theorem idleAt1_2 : ∀ t : Fin cfg1.N, ¬cond1_1 (grid1.coords t) → cfg1.idle 2 (grid1.coords t) = true :=
  (by decide +kernel : ∀ t : Fin grid1.N, ¬cond1_1 (grid1.coords t) → idle1 2 (grid1.coords t) = true)
theorem idleAt1_3 : ∀ t : Fin cfg1.N, ¬cond1_1 (grid1.coords t) → cfg1.idle 3 (grid1.coords t) = true :=
  (by decide +kernel : ∀ t : Fin grid1.N, ¬cond1_1 (grid1.coords t) → idle1 3 (grid1.coords t) = true)
theorem noFlush1_2 : ∀ t : Fin cfg1.N, ¬cond1_1 (grid1.coords t) → (cfg1.win 2).flush t = false :=
  (by decide +kernel : ∀ t : Fin grid1.N, ¬cond1_1 (grid1.coords t) → win1_2.flush t = false)
theorem noFlush1_3 : ∀ t : Fin cfg1.N, ¬cond1_1 (grid1.coords t) → (cfg1.win 3).flush t = false :=
  (by decide +kernel : ∀ t : Fin grid1.N, ¬cond1_1 (grid1.coords t) → win1_3.flush t = false)
/-- At the last point they are live: the body stores into them. -/
theorem liveAt1_2 : ∀ t : Fin cfg1.N, cond1_1 (grid1.coords t) → cfg1.idle 2 (grid1.coords t) = false :=
  (by decide +kernel : ∀ t : Fin grid1.N, cond1_1 (grid1.coords t) → idle1 2 (grid1.coords t) = false)
theorem liveAt1_3 : ∀ t : Fin cfg1.N, cond1_1 (grid1.coords t) → cfg1.idle 3 (grid1.coords t) = false :=
  (by decide +kernel : ∀ t : Fin grid1.N, cond1_1 (grid1.coords t) → idle1 3 (grid1.coords t) = false)

/-! ## The memrefs the body is called with -/

/-- One staging buffer of each output window, through which its contents are stated. -/
abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
/-- Each window's current staging memref at point `t`, and its wholeness. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch accumulators (the running column sums of the biased block and of its square): whole scoped
    buffers of the kernel's own, passed beside the windows and carried from point to point. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The class's invariant with the two accumulators as memrefs owned at some contents, the remainder of the
    scoped rest unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

end Cert.KernelIdeal.Hand

end
-- ==== Proof.KI.Region1A.lean ====
/- Region 1, the body's run at the FIRST grid point: both accumulators are reset to zero and then receive the
   block's column sums; mean and variance are not stored. -/
import proofs.«108080_j74191265071850_1_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two accumulators, as pieces (last first), at the first point — the reset
    taken, the final store not —, with the proof that on whole memrefs (the data block at `x0`, the bias row at
    `x1`, each accumulator at anything) the body runs to the continuation holding the inputs as they were and each
    accumulator with its pieces written. The output windows' buffers are not touched and are framed around the run. -/
noncomputable def kernelRun1_A (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) :
    Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.KernelIdeal.Hand

end
-- ==== Proof.KI.Region1B.lean ====
/- Region 1, the body's run at a grid point that is neither the first nor the last: both accumulators, holding
   what the point before left, receive the block's column sums; nothing else is stored. -/
import proofs.«108080_j74191265071850_1_alg».proof.Proof.KI.Region1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two accumulators, as pieces (last first), at a middle point — neither
    conditional taken —, with the proof that on whole memrefs (the data block at `x0`, the bias row at `x1`, the
    accumulators at `xs0`, `xs1`) the body runs to the continuation holding the inputs as they were and each
    accumulator with its pieces written. The output windows' buffers are not touched and are framed around the run. -/
noncomputable def kernelRun1_B (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 : Vec F S1x128 .f32) (xs1 : Vec F S1x128 .f32) :
    Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.KernelIdeal.Hand

end
-- ==== Proof.KI.Region1C.lean ====
/- Region 1, the body's run at the LAST grid point: both accumulators, holding what the point before left,
   receive the block's column sums, and then the mean (the first accumulator divided by the row count) and the
   variance (the second divided by the row count, less the mean squared) are stored into the two output windows. -/
import proofs.«108080_j74191265071850_1_alg».proof.Proof.KI.Region1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the two output windows' buffers and in the two accumulators, as pieces (last
    first), at the last point — the reset not taken, the final store taken —, with the proof that on whole memrefs
    (the data block at `x0`, the bias row at `x1`, the outputs' at anything, the accumulators at `xs0`, `xs1`)
    the body runs to the continuation holding the inputs as they were and each written buffer with its pieces
    written. -/
noncomputable def kernelRun1_C (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 : Vec F S1x128 .f32) (xs1 : Vec F S1x128 .f32) :
    Σ' (L2 : List (View.Piece (Elt F) S1x128 .f32)) (L3 : List (View.Piece (Elt F) S1x128 .f32))
       (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.Region1.lean ====
/- Region 1 (the batch-norm statistics kernel) at the contents `V` its region is entered with: the windows'
   blocks, what the two accumulators and the two output windows hold after each grid point (by recursion on the
   point: the first point resets and adds, a middle point adds, the last point adds and then stores mean and
   variance), the region invariant carrying the two accumulators from point to point, the pipeline's proof data
   and its body obligation. -/
import proofs.«108080_j74191265071850_1_alg».proof.Proof.KI.Region1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pieces each case writes cover the buffers they are written into -/

theorem scover1_A_0 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) (y : S1x128.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x128.size (by sl_kernel_rfl) y
theorem scover1_A_1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x128.size (by sl_kernel_rfl) y
theorem scover1_B_0 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x128.size (by sl_kernel_rfl) y
theorem scover1_B_1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x128.size (by sl_kernel_rfl) y
theorem cover1_C_2 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y
theorem cover1_C_3 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y
theorem scover1_C_0 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y
theorem scover1_C_1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y

/-! ## The case runs at a grid point, and pieces read back as contents -/

/-- The first point's run at that point's memrefs and input blocks. -/
abbrev runA1 (c : Dev nD) (t : Fin cfg1.N) (h0 : t.val = 0) (h1 : ¬t.val = 49) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h))
    (iblk1 V c 0 t) (iblk1 V c 1 t)
/-- A middle point's run at that point's memrefs and input blocks, the accumulators at `xs0`, `xs1`. -/
abbrev runB1 (c : Dev nD) (t : Fin cfg1.N) (h0 : ¬t.val = 0) (h1 : ¬t.val = 49) (xs0 xs1 : Vec F S1x128 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h))
    (iblk1 V c 0 t) (iblk1 V c 1 t) xs0 xs1
/-- The last point's run at that point's memrefs and input blocks, the accumulators at `xs0`, `xs1`. -/
abbrev runC1 (c : Dev nD) (t : Fin cfg1.N) (h0 : ¬t.val = 0) (h1 : t.val = 49) (xs0 xs1 : Vec F S1x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1)
    (iblk1 V c 0 t) (iblk1 V c 1 t) xs0 xs1

/-- A list of pieces read back over junk through a buffer's view: what a buffer covered by them holds. -/
abbrev rdS0 (L : List (View.Piece (Elt F) S1x128 .f32)) : Vec F S1x128 .f32 := VS1_0.read (Elt F) (VS1_0.writes (Elt F) VS1_0.junk L)
abbrev rdS1 (L : List (View.Piece (Elt F) S1x128 .f32)) : Vec F S1x128 .f32 := VS1_1.read (Elt F) (VS1_1.writes (Elt F) VS1_1.junk L)
abbrev rdO2 (L : List (View.Piece (Elt F) S1x128 .f32)) : Vec F S1x128 .f32 := VO1_2.read (Elt F) (VO1_2.writes (Elt F) VO1_2.junk L)
abbrev rdO3 (L : List (View.Piece (Elt F) S1x128 .f32)) : Vec F S1x128 .f32 := VO1_3.read (Elt F) (VO1_3.writes (Elt F) VO1_3.junk L)

/-! ## What the outputs and the accumulators hold after each point -/

/-- THE ACCUMULATION. After the body at position `n`: the two output windows' staging buffers, then the two
    accumulators. The first point resets the accumulators and adds the block's column sums; every later point
    adds to what the point before left; the last point moreover stores mean and variance into the output windows.
    Before the last point nothing is stored into the output windows — their component is no pieces read back, a
    placeholder nothing consults: at those points the windows are idle and are not written back. -/
def outsAt1 (c : Dev nD) : (n : ℕ) → n < cfg1.N → Vec F S1x128 .f32 × Vec F S1x128 .f32 × Vec F S1x128 .f32 × Vec F S1x128 .f32
  | 0, hn => (rdO2 [], rdO3 [], rdS0 (runA1 V c ⟨0, hn⟩ rfl (fun h => absurd h (by decide : ¬(0 : ℕ) = 49))).1, rdS1 (runA1 V c ⟨0, hn⟩ rfl (fun h => absurd h (by decide : ¬(0 : ℕ) = 49))).2.1)
  | n + 1, hn =>
    if h1 : n + 1 = 49 then
      (rdO2 (runC1 V c ⟨n + 1, hn⟩ (Nat.succ_ne_zero n) h1 (outsAt1 c n (Nat.lt_of_succ_lt hn)).2.2.1 (outsAt1 c n (Nat.lt_of_succ_lt hn)).2.2.2).1,
       rdO3 (runC1 V c ⟨n + 1, hn⟩ (Nat.succ_ne_zero n) h1 (outsAt1 c n (Nat.lt_of_succ_lt hn)).2.2.1 (outsAt1 c n (Nat.lt_of_succ_lt hn)).2.2.2).2.1,
       rdS0 (runC1 V c ⟨n + 1, hn⟩ (Nat.succ_ne_zero n) h1 (outsAt1 c n (Nat.lt_of_succ_lt hn)).2.2.1 (outsAt1 c n (Nat.lt_of_succ_lt hn)).2.2.2).2.2.1,
       rdS1 (runC1 V c ⟨n + 1, hn⟩ (Nat.succ_ne_zero n) h1 (outsAt1 c n (Nat.lt_of_succ_lt hn)).2.2.1 (outsAt1 c n (Nat.lt_of_succ_lt hn)).2.2.2).2.2.2.1)
    else
      (rdO2 [], rdO3 [],
       rdS0 (runB1 V c ⟨n + 1, hn⟩ (Nat.succ_ne_zero n) h1 (outsAt1 c n (Nat.lt_of_succ_lt hn)).2.2.1 (outsAt1 c n (Nat.lt_of_succ_lt hn)).2.2.2).1,
       rdS1 (runB1 V c ⟨n + 1, hn⟩ (Nat.succ_ne_zero n) h1 (outsAt1 c n (Nat.lt_of_succ_lt hn)).2.2.1 (outsAt1 c n (Nat.lt_of_succ_lt hn)).2.2.2).2.1)

/-- `outsAt1` at the first point. -/
theorem outsAt1_A (c : Dev nD) (t : Fin cfg1.N) (h0 : t.val = 0) (h1 : ¬t.val = 49) :
    outsAt1 V c t.val t.isLt = (rdO2 [], rdO3 [], rdS0 (runA1 V c t h0 h1).1, rdS1 (runA1 V c t h0 h1).2.1) := by
  obtain ⟨n, hn⟩ := t
  cases n with
  | zero => exact rfl
  | succ n => exact absurd h0 (Nat.succ_ne_zero n)

/-- `outsAt1` at a middle point: over what the point before left in the accumulators. -/
theorem outsAt1_B (c : Dev nD) (t : Fin cfg1.N) (h0 : ¬t.val = 0) (h1 : ¬t.val = 49) :
    outsAt1 V c t.val t.isLt = (rdO2 [], rdO3 [],
      rdS0 (runB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).1,
      rdS1 (runB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).2.1) := by
  obtain ⟨n, hn⟩ := t
  cases n with
  | zero => exact absurd rfl h0
  | succ n => exact (dif_neg h1).trans rfl

/-- `outsAt1` at the last point: over what the point before left in the accumulators. -/
theorem outsAt1_C (c : Dev nD) (t : Fin cfg1.N) (h0 : ¬t.val = 0) (h1 : t.val = 49) :
    outsAt1 V c t.val t.isLt =
     (rdO2 (runC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).1,
      rdO3 (runC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).2.1,
      rdS0 (runC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).2.2.1,
      rdS1 (runC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2).2.2.2.1) := by
  obtain ⟨n, hn⟩ := t
  cases n with
  | zero => exact absurd rfl h0
  | succ n => exact (dif_pos h1).trans rfl

/-! ## The region invariant -/

/-- The region invariant before position `n`: before the first point the class's (every scoped buffer of the
    kernel's own at anything, the generator register at some state); afterwards the two accumulators at what the
    point before left in them, the remainder of the scoped rest unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the two outputs' at `outsAt1`'s first two components; the
    invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point is the first, a middle one or the last,
    and that case's run applies: the invariant hands it the two accumulators at what the point before left (at
    anything at the first point) and takes them back at this point's contents, the pieces covering each; away from
    the last point the output windows' buffers are handed back untouched, at the last point they are covered by the
    stored mean and variance; the remainder of the scoped rest, the generator register and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val = 49
  · have h0 : ¬t.val = 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    (try dsimp only)
    rw [PhiS1_castSucc V c t, PhiS1_pos V c _ _ h0]
    iintro ⟨⟨⟨⟨HS0, HS1⟩, Hr⟩, Hg⟩, Ho, ⟨%d0, H0⟩, ⟨%d1, H1⟩, ⟨%d2, H2⟩, ⟨%d3, H3⟩⟩
    iapply ((runC1 V c t h0 h1 _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_C_2 c _ _ _ _ _ _ _ _ _ _ _ _ _ _ _ _ _ _ _)
    unfold owns; iexists _; isplitr
    swap; · iexact H3
    ipureintro; exact View.read_writes_of_cover _ _ _ _ _ (cover1_C_3 c _ _ _ _ _ _ _ _ _ _ _ _ _ _ _ _ _ _ _)
  · have hnc : ¬cond1_1 (grid1.coords t) := fun h => h1 ((hcond1_1 t).mp h)
    rw [Dat.leavesExact_idle (dat1 V c) 2 t (idleAt1_2 t hnc) (noFlush1_2 t hnc)]
    rw [Dat.leavesExact_idle (dat1 V c) 3 t (idleAt1_3 t hnc) (noFlush1_3 t hnc)]
    by_cases h0 : t.val = 0
    · rw [outsAt1_A V c t h0 h1]
      (try dsimp only)
      rw [PhiS1_castSucc V c t, PhiS1_zero V c _ _ h0, PhiA1_eq]
      iintro ⟨⟨⟨⟨HS0, HS1⟩, Hr⟩, Hg⟩, Ho, ⟨%d0, H0⟩, ⟨%d1, H1⟩, H2, H3⟩
      iapply ((runA1 V c t h0 h1).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexact H3
    · rw [outsAt1_B V c t h0 h1]
      (try dsimp only)
      rw [PhiS1_castSucc V c t, PhiS1_pos V c _ _ h0]
      iintro ⟨⟨⟨⟨HS0, HS1⟩, Hr⟩, Hg⟩, Ho, ⟨%d0, H0⟩, ⟨%d1, H1⟩, H2, H3⟩
      iapply ((runB1 V c t h0 h1 _ _).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 50 := N_1; omega)

end Cert.KernelIdeal.Hand

end
-- ==== Proof.KI.Region2.lean ====
import proofs.«108080_j74191265071850_1_alg».proof.Proof.Gen.KernelIdeal.Launch
import proofs.«108080_j74191265071850_1_alg».proof.Proof.Gen.KernelIdeal.Skeleton
import proofs.«108080_j74191265071850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of region 2, at any float model `F` and at a parameter `V`, the buffer contents when the region
is entered. Per grid point the kernel normalises a block of 2000 rows of the 128-column input with five one-row
windows (each fetched at the first point only, and kept): it adds the bias row (window 1), subtracts the mean row
(window 2), multiplies by the reciprocal square root of the variance row (window 3) plus a small constant, scales by
window 4, shifts by window 5, and clamps below at zero. Per window the block it holds at a point; what the body
leaves in the output window's buffer; the body's triple; the pipeline's proof data and the body obligation at every
point. -/

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # Region 2: the batch-normalisation kernel (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or
    not (not fetched, the block index has not moved), for any proof data whose array is `V`'s and whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or
    not (not fetched, the block index has not moved), for any proof data whose array is `V`'s and whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether it was fetched there or
    not (not fetched, the block index has not moved), for any proof data whose array is `V`'s and whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether it was fetched there or
    not (not fetched, the block index has not moved), for any proof data whose array is `V`'s and whose body leaves
    the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether it was fetched there or
    not (not fetched, the block index has not moved), for any proof data whose array is `V`'s and whose body leaves
    the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether it was fetched there or
    not (not fetched, the block index has not moved), for any proof data whose array is `V`'s and whose body leaves
    the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: one whole-block rectangle per window -/

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S1x128 := Rect.unit (s := S1x128) ![0, 0] S1x128.size inb_S1x128_S1x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_5 : Rect S1x128 := Rect.unit (s := S1x128) ![0, 0] S1x128.size inb_S1x128_S1x128_0_0
abbrev r2_6 : Rect S2000x128 := Rect.unit (s := S2000x128) ![0, 0] S2000x128.size inb_S2000x128_S2000x128_0_0

/-! ## What the body leaves in the output window's buffer -/

/-- Window 6's staging buffer after the body, from the input windows' blocks (`xW` is window `W`'s): its one
    store, of the whole block, whose payload is, elementwise with each one-row window repeated down the rows,
    `max(((x0 + x1 - x2) * rsqrt(x3 + ε)) * x4 + x5, 0)`. The body reads window 3 before window 2, and the payload takes
    its arguments in the order they are read: windows 0, 1, 3, 2, 4, 5. -/
def out2_6 (x0 : Vec F S2000x128 .f32) (x1 : Vec F S1x128 .f32) (x2 : Vec F S1x128 .f32) (x3 : Vec F S1x128 .f32) (x4 : Vec F S1x128 .f32) (x5 : Vec F S1x128 .f32) : Vec F S2000x128 .f32 :=
  View.canon [⟨r2_6, k2_pay1 (View.ld x0 r2_0) (View.ld x1 r2_1) (View.ld x3 r2_3) (View.ld x2 r2_2) (View.ld x4 r2_4) (View.ld x5 r2_5)⟩]

/-- The one store is of the whole block, so it covers the buffer. -/
theorem cover2_6 (p0 : Vec F S2000x128 .f32) (y : S2000x128.Idx) :
    ∃ pc ∈ ([⟨r2_6, p0⟩] : List (View.Piece (Elt F) S2000x128 .f32)), y ∈ pc.1.set :=
  View.cover_of_tiled [⟨r2_6, p0⟩] S2000x128.size (by rfl) y

/-! ## The body's triple -/

set_option maxHeartbeats 1000000 in
/-- The kernel body on whole staging memrefs, the inputs' at read contents `xW` and the output's at anything, at any
    grid coordinates, runs to the continuation holding the inputs' as they were and the output's at `out2_6` of
    the inputs'. The body also loads the output's buffer before storing into it; that value is
    not used, and the store overwrites every element of it. -/
theorem sound_kernel2 (c : Dev nD) (E : Set ℕ) (i : grid2.Coords)
    (arg0 : Memref sig .tc .vmem S2000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2__bn_apply_kernel i arg0 harg0 arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«108080_j74191265071850_1_alg».proof.Proof.Gen.KernelIdeal.Launch
import proofs.«108080_j74191265071850_1_alg».proof.Proof.Gen.KernelIdeal.Skeleton
import proofs.«108080_j74191265071850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of region 3, at any float model `F` and at a parameter `V`, the buffer contents when the region
is entered. The kernel is one matrix product per grid point: a block of 2000 rows of the 128-column input times the
whole 128 x 64 weight matrix (fetched at the first point only, and kept), both operands rounded to bfloat16 first and
the products accumulated in 32-bit floats onto a zero block, stored as a block of 2000 rows of the 64-column output. Per window the block it holds at a point; what the body leaves in the output window's buffer;
the body's triple; the pipeline's proof data and the body obligation at every point. -/

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # Region 3: the second linear layer's kernel (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or
    not (not fetched, the block index has not moved), for any proof data whose array is `V`'s and whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether it was fetched there or
    not (not fetched, the block index has not moved), for any proof data whose array is `V`'s and whose body leaves
    the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2000x128 := Rect.unit (s := S2000x128) ![0, 0] S2000x128.size inb_S2000x128_S2000x128_0_0
abbrev r3_1 : Rect S128x64 := Rect.unit (s := S128x64) ![0, 0] S128x64.size inb_S128x64_S128x64_0_0
abbrev r3_2 : Rect S2000x64 := Rect.unit (s := S2000x64) ![0, 0] S2000x64.size inb_S2000x64_S2000x64_0_0

/-! ## What the body leaves in the output window's buffer -/

/-- Window 2's staging buffer after the body, from the input windows' blocks: its one store, of the whole block,
    whose payload is the product of the two whole-block loads, each rounded to bfloat16, accumulated onto zeros. -/
def out3_2 (x0 : Vec F S2000x128 .f32) (x1 : Vec F S128x64 .f32) : Vec F S2000x64 .f32 :=
  View.canon [⟨r3_2, k3_pay1 (View.ld x0 r3_0) (View.ld x1 r3_1)⟩]

/-- The one store is of the whole block, so it covers the buffer. -/
theorem cover3_2 (p0 : Vec F S2000x64 .f32) (y : S2000x64.Idx) :
    ∃ pc ∈ ([⟨r3_2, p0⟩] : List (View.Piece (Elt F) S2000x64 .f32)), y ∈ pc.1.set :=
  View.cover_of_tiled [⟨r3_2, p0⟩] S2000x64.size (by rfl) y

/-! ## The body's triple -/

set_option maxHeartbeats 1000000 in
/-- The kernel body on whole staging memrefs, the inputs' at read contents `x0`, `x1` and the output's at anything,
    at any grid coordinates, runs to the continuation holding the inputs' as they were and the output's at
    `out3_2` of the inputs'. The body also loads the output's buffer before storing into it; that value is not
    used, and the store overwrites every element of it. -/
theorem sound_kernel3 (c : Dev nD) (E : Set ℕ) (i : grid3.Coords)
    (arg0 : Memref sig .tc .vmem S2000x128 .f32) (harg0 : arg0.IsWhole) (arg1 : Memref sig .tc .vmem S128x64 .f32) (harg1 : arg1.IsWhole)
    (arg2 : Memref sig .tc .vmem S2000x64 .f32) (harg2 : arg2.IsWhole)
    (x0 : Vec F S2000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3__linear_kernel i arg0 harg0 arg1 harg1 arg2 harg2) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and the output's at `out3_2` of the input blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
import proofs.«108080_j74191265071850_1_alg».proof.Proof.Gen.KernelIdeal.Launch
import proofs.«108080_j74191265071850_1_alg».proof.Proof.Gen.KernelIdeal.Skeleton
import proofs.«108080_j74191265071850_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The class-A half of region 4, at any float model `F` and at a parameter `V`, the buffer contents when the region
is entered. Per grid point the kernel takes a block of 2000 rows of the 64-column input, adds the one-row bias
(fetched at the first point only, and kept) to every row, and stores the row-wise log-softmax: each row minus its
maximum, minus the logarithm of the sum of the exponentials of that difference. Per window the block it holds at a
point; what the body leaves in the output window's buffer; the body's triple; the pipeline's proof data and the
body obligation at every point. -/

-- membership in a rectangle of long extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! # Region 4: the log-softmax kernel (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether it was fetched there or
    not (not fetched, the block index has not moved), for any proof data whose array is `V`'s and whose body leaves
    the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether it was fetched there or
    not (not fetched, the block index has not moved), for any proof data whose array is `V`'s and whose body leaves
    the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S2000x64 := Rect.unit (s := S2000x64) ![0, 0] S2000x64.size inb_S2000x64_S2000x64_0_0
abbrev r4_1 : Rect S1x64 := Rect.unit (s := S1x64) ![0, 0] S1x64.size inb_S1x64_S1x64_0_0
abbrev r4_2 : Rect S2000x64 := Rect.unit (s := S2000x64) ![0, 0] S2000x64.size inb_S2000x64_S2000x64_0_0

/-! ## What the body leaves in the output window's buffer -/

/-- Window 2's staging buffer after the body, from the input windows' blocks: its one store, of the whole block,
    whose payload is the row-wise log-softmax of the first load plus the second (one row, added to every row). -/
def out4_2 (x0 : Vec F S2000x64 .f32) (x1 : Vec F S1x64 .f32) : Vec F S2000x64 .f32 :=
  View.canon [⟨r4_2, k4_pay1 (View.ld x0 r4_0) (View.ld x1 r4_1)⟩]

/-- The one store is of the whole block, so it covers the buffer. -/
theorem cover4_2 (p0 : Vec F S2000x64 .f32) (y : S2000x64.Idx) :
    ∃ pc ∈ ([⟨r4_2, p0⟩] : List (View.Piece (Elt F) S2000x64 .f32)), y ∈ pc.1.set :=
  View.cover_of_tiled [⟨r4_2, p0⟩] S2000x64.size (by rfl) y

/-! ## The body's triple -/

set_option maxHeartbeats 1000000 in
/-- The kernel body on whole staging memrefs, the inputs' at read contents `x0`, `x1` and the output's at anything,
    at any grid coordinates, runs to the continuation holding the inputs' as they were and the output's at
    `out4_2` of the inputs'. The body also loads the output's buffer before storing into it; that value is not
    used, and the store overwrites every element of it. -/
theorem sound_kernel4 (c : Dev nD) (E : Set ℕ) (i : grid4.Coords)
    (arg0 : Memref sig .tc .vmem S2000x64 .f32) (harg0 : arg0.IsWhole) (arg1 : Memref sig .tc .vmem S1x64 .f32) (harg1 : arg1.IsWhole)
    (arg2 : Memref sig .tc .vmem S2000x64 .f32) (harg2 : arg2.IsWhole)
    (x0 : Vec F S2000x64 .f32) (x1 : Vec F S1x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__log_softmax_kernel i arg0 harg0 arg1 harg1 arg2 harg2) K := by
  simp only [cc4__log_softmax_kernel_eq_skeleton]; unfold cc4__log_softmax_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and the output's at `out4_2` of the input blocks; the invariant
    is the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The program's run, assembled: the contents of every buffer between two items of the program, each region's proof
  data at the contents it is entered from, the five regions as segments, and the run itself — every weakly fair
  execution terminates, the result array ends at what the last region's write-backs leave, the arguments unchanged.

  The contents are a fold through the program: the launch memory; after a stretch of host operations, those operations
  applied; after a region, the same contents with each output array of the region replaced by the fold of the blocks the
  pipeline wrote back.
-/
import proofs.«108080_j74191265071850_1_alg».proof.Proof.KI.ValueCond
import proofs.«108080_j74191265071850_1_alg».proof.Proof.KI.Region0
import proofs.«108080_j74191265071850_1_alg».proof.Proof.KI.Region1
import proofs.«108080_j74191265071850_1_alg».proof.Proof.KI.Region2
import proofs.«108080_j74191265071850_1_alg».proof.Proof.KI.Region3
import proofs.«108080_j74191265071850_1_alg».proof.Proof.KI.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Mathlib.Tactic.IntervalCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between items -/

/-- A core's contents read at the TensorCore's references (what a region's proof data take). -/
abbrev atRef (W : Dev nD → Valuation τ sig (Elt F)) : (c : Dev nD) → (b : Ref sig .tc) → Buf (Elt F) ((c : Thread nD τ).loc b) :=
  fun c b => W c b

/-- What region 0 leaves in its output array: the fold of its 50 write-backs, from the contents after the first five
    host stretches. -/
def o6 (c : Dev nD) : Buf (Elt F) ((c : Thread nD τ).loc main_v35) := (dat0 (atRef (V5 m)) c).arrAt 2 cfg0.N
/-- After region 0. -/
def X6 (c : Dev nD) : Valuation τ sig (Elt F) := Function.update (V5 m c) main_v35 (o6 m c)
/-- After the host stretch between regions 0 and 1 (the first aggregation and the bias row). -/
def X7 (c : Dev nD) : Valuation τ sig (Elt F) := StableHlo.after hostOps1 (X6 m c)
/-- What region 1 leaves in its two output arrays (the column means and variances). -/
def o8_0 (c : Dev nD) : Buf (Elt F) ((c : Thread nD τ).loc main_v50_0) := (dat1 (atRef (X7 m)) c).arrAt 2 cfg1.N
def o8_1 (c : Dev nD) : Buf (Elt F) ((c : Thread nD τ).loc main_v50_1) := (dat1 (atRef (X7 m)) c).arrAt 3 cfg1.N
/-- After region 1. -/
def X8 (c : Dev nD) : Valuation τ sig (Elt F) := Function.update (Function.update (X7 m c) main_v50_0 (o8_0 m c)) main_v50_1 (o8_1 m c)
/-- After the three reshapes before region 2. -/
def X9 (c : Dev nD) : Valuation τ sig (Elt F) := StableHlo.after hostOps2 (X8 m c)
/-- What region 2 leaves in its output array (the normalised, rectified activations). -/
def o10 (c : Dev nD) : Buf (Elt F) ((c : Thread nD τ).loc main_v54) := (dat2 (atRef (X9 m)) c).arrAt 6 cfg2.N
/-- After region 2. -/
def X10 (c : Dev nD) : Valuation τ sig (Elt F) := Function.update (X9 m c) main_v54 (o10 m c)
/-- What region 3 leaves in its output array (the second linear layer). -/
def o11 (c : Dev nD) : Buf (Elt F) ((c : Thread nD τ).loc main_v55) := (dat3 (atRef (X10 m)) c).arrAt 2 cfg3.N
/-- After region 3. -/
def X11 (c : Dev nD) : Valuation τ sig (Elt F) := Function.update (X10 m c) main_v55 (o11 m c)
/-- After the host stretch between regions 3 and 4 (the second aggregation and the bias row). -/
def X12 (c : Dev nD) : Valuation τ sig (Elt F) := StableHlo.after hostOps4 (X11 m c)
/-- What region 4 leaves in its output array: the program's result. -/
def o13 (c : Dev nD) : Buf (Elt F) ((c : Thread nD τ).loc main_v70) := (dat4 (atRef (X12 m)) c).arrAt 2 cfg4.N
/-- After region 4. -/
def X13 (c : Dev nD) : Valuation τ sig (Elt F) := Function.update (X12 m c) main_v70 (o13 m c)

/-! ### A region changes its output arrays only -/

theorem X6_of (c : Dev nD) (b : Ref sig .tc) (h : b ≠ main_v35) : X6 m c b = V5 m c b :=
  Function.update_of_ne (StableHlo.devRef_ne_of_ne h) _ _
theorem X6_out (c : Dev nD) : X6 m c main_v35 = o6 m c := Function.update_self _ _ _
theorem X8_of (c : Dev nD) (b : Ref sig .tc) (h : ¬ (b = main_v50_0 ∨ b = main_v50_1)) : X8 m c b = X7 m c b :=
  (Function.update_of_ne (StableHlo.devRef_ne_of_ne fun e => h (Or.inr e)) _ _).trans
    (Function.update_of_ne (StableHlo.devRef_ne_of_ne fun e => h (Or.inl e)) _ _)
theorem X8_out_0 (c : Dev nD) : X8 m c main_v50_0 = o8_0 m c :=
  (Function.update_of_ne (StableHlo.devRef_ne_of_ne (by decide)) _ _).trans (Function.update_self _ _ _)
theorem X8_out_1 (c : Dev nD) : X8 m c main_v50_1 = o8_1 m c := Function.update_self _ _ _
theorem X10_of (c : Dev nD) (b : Ref sig .tc) (h : b ≠ main_v54) : X10 m c b = X9 m c b :=
  Function.update_of_ne (StableHlo.devRef_ne_of_ne h) _ _
theorem X10_out (c : Dev nD) : X10 m c main_v54 = o10 m c := Function.update_self _ _ _
theorem X11_of (c : Dev nD) (b : Ref sig .tc) (h : b ≠ main_v55) : X11 m c b = X10 m c b :=
  Function.update_of_ne (StableHlo.devRef_ne_of_ne h) _ _
theorem X11_out (c : Dev nD) : X11 m c main_v55 = o11 m c := Function.update_self _ _ _
theorem X13_of (c : Dev nD) (b : Ref sig .tc) (h : b ≠ main_v70) : X13 m c b = X12 m c b :=
  Function.update_of_ne (StableHlo.devRef_ne_of_ne h) _ _
theorem X13_out (c : Dev nD) : X13 m c main_v70 = o13 m c := Function.update_self _ _ _

/-! ### The same contents as the conditional frame names them -/

/-- What the regions leave, as the family the conditional frame's contents are written over. -/
def outs : Outs (F := F) := fun J r c =>
  match J with
  | 6 => X6 m c r
  | 8 => X8 m c r
  | 10 => X10 m c r
  | 11 => X11 m c r
  | 13 => X13 m c r
  | _ => V0 m c r

theorem V6_eq (c : Dev nD) : V6 m (outs m) c = X6 m c :=
  congrArg (Function.update (V5 m c) (Proc.devRef .tc main_v35)) (X6_out m c)
theorem V7_eq (c : Dev nD) : V7 m (outs m) c = X7 m c := congrArg (StableHlo.after hostOps1) (V6_eq m c)
theorem V8_eq (c : Dev nD) : V8 m (outs m) c = X8 m c := by
  show Function.update (Function.update (V7 m (outs m) c) (Proc.devRef .tc main_v50_0) (X8 m c main_v50_0)) (Proc.devRef .tc main_v50_1) (X8 m c main_v50_1) = X8 m c
  rw [V7_eq, X8_out_0, X8_out_1]; rfl
theorem V9_eq (c : Dev nD) : V9 m (outs m) c = X9 m c := congrArg (StableHlo.after hostOps2) (V8_eq m c)
theorem V10_eq (c : Dev nD) : V10 m (outs m) c = X10 m c := by
  show Function.update (V9 m (outs m) c) (Proc.devRef .tc main_v54) (X10 m c main_v54) = X10 m c
  rw [V9_eq, X10_out]; rfl
theorem V11_eq (c : Dev nD) : V11 m (outs m) c = X11 m c := by
  show Function.update (V10 m (outs m) c) (Proc.devRef .tc main_v55) (X11 m c main_v55) = X11 m c
  rw [V10_eq, X11_out]; rfl
theorem V12_eq (c : Dev nD) : V12 m (outs m) c = X12 m c := congrArg (StableHlo.after hostOps4) (V11_eq m c)
theorem V13_eq (c : Dev nD) : V13 m (outs m) c = X13 m c := by
  show Function.update (V12 m (outs m) c) (Proc.devRef .tc main_v70) (X13 m c main_v70) = X13 m c
  rw [V12_eq, X13_out]; rfl
theorem outs_result (c : Dev nD) : outs m 13 main_v70 c = o13 m c := X13_out m c

/-! ## The proof data family and what rides beside the buffers -/

/-- Every pipeline's proof data, each at the contents its region is entered from. -/
def pdats : (p : Fin 5) → (c : Dev nD) → Dat τ (Elt F) Unit ℕ (UR sig nD τ) ℕ (cfgs p) c
  | ⟨0, _⟩ => fun c => dat0 (atRef (V5 m)) c
  | ⟨1, _⟩ => fun c => dat1 (atRef (X7 m)) c
  | ⟨2, _⟩ => fun c => dat2 (atRef (X9 m)) c
  | ⟨3, _⟩ => fun c => dat3 (atRef (X10 m)) c
  | ⟨4, _⟩ => fun c => dat4 (atRef (X12 m)) c
abbrev vn : Variants := Variants.none
/-- No core owes another anything: no level is assigned. -/
abbrev Lz : GSem nD τ sig → Finset Unit := fun _ => ∅
abbrev lvz : GSem nD τ sig → Unit → ℕ := fun _ _ => 0
/-- What rides beside the buffers through every item: the core's generator register at some state and its dues, none. -/
abbrev Rz (c : Dev nD) : sProp 𝕄 := iprop((∃ r, prngReg c r) ∗ ∃ W, owes (c : Thread nD τ) (0 : CellTallies nD τ sig Unit) W)

/-! ## Region 0 -/

/-- After region 0 each of its arrays holds what the pipeline leaves: an input window's array what it held when the
    region was entered, an output window's array the folded write-backs. -/
theorem hF0 (c : Dev nD) (w : Fin cfg0.W) : (dat0 (atRef (V5 m)) c).arrAt w cfg0.N = atRef (X6 m) c (Pipeline.arrRef spec0 w) := by
  obtain ⟨n, hn⟩ := w
  have hn' : n < 3 := hn
  interval_cases n
  · exact ((dat0 (atRef (V5 m)) c).arrAt_in 0 rfl _).trans ((A_eq0 (atRef (V5 m)) c 0).trans (X6_of m c main_arg0 (by decide)).symm)
  · exact ((dat0 (atRef (V5 m)) c).arrAt_in 1 rfl _).trans ((A_eq0 (atRef (V5 m)) c 1).trans (X6_of m c main_arg3 (by decide)).symm)
  · exact (X6_out m c).symm

/-- Every buffer that is no array of region 0 holds after it what it held before. -/
theorem hrest0 (c : Dev nD) : ∀ b, b ∉ Finset.univ.image (Pipeline.arrRef spec0) → atRef (X6 m) c b = atRef (V5 m) c b :=
  fun b hb => X6_of m c b (fun e => hb (e ▸ Finset.mem_image.mpr ⟨2, Finset.mem_univ _, rfl⟩))

set_option backward.isDefEq.respectTransparency.types false in
/-- Region 0 as a segment: entered with every unscoped buffer at the contents before it, left with them at the
    contents after it. Its arrays are split out of the unscoped buffers and put back at what the pipeline leaves; the
    generator register goes into the region's invariant and comes back; nothing is owed; the kernel has no
    semaphore of its own. -/
def reg0 : RegionSeg (pcfgs (F := F)) adm (pdats m) () defs₀ vn Lz lvz 0 where
  win := launch0.win.to₀
  block_pos := launch0.block_pos
  stage_whole := launch0.stage_whole
  K := PEmpty
  osem k := k.elim
  ho := Pipeline.OwnSemFacts.none _
  hbody c := (body_obligation0 (atRef (V5 m)) c).loose
  hwaits := Pipeline.hwaits_of_owed_zero _ _ _ _ Lz lvz 0 fun _ _ => rfl
  pre c := iprop(StableHlo.held (c : Thread nD τ) (Pipeline.ucRefs τ sig) (V5 m c) ∗ Rz c)
  post c := iprop(StableHlo.held (c : Thread nD τ) (Pipeline.ucRefs τ sig) (X6 m c) ∗ Rz c)
  X c := iprop(∃ r, prngReg c r)
  Y c := iprop(∃ r, prngReg c r)
  Z c := Pipeline.unscopedRest (Ix := Unit) (Name := ℕ) (U := UR sig nD τ) (Lvl := ℕ) spec0 c ((atRef (V5 m)) c)
  hentry c := by
    rw [Pipeline.ownSems0_none]
    have hsplit := Pipeline.arrays_of_unscopedBufs (p := 0) (pcfgs (F := F)) adm (pdats m) launch0.win launch0.arr_whole c
      ((pdats m 0 c).share_full fun _ => rfl) ((atRef (V5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      ((atRef (V5 m)) c) ((atRef (X6 m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- After region 1 each of its arrays holds what the pipeline leaves: an input window's array what it held when the
    region was entered, an output window's array the folded write-backs. -/
theorem hF1 (c : Dev nD) (w : Fin cfg1.W) : (dat1 (atRef (X7 m)) c).arrAt w cfg1.N = atRef (X8 m) c (Pipeline.arrRef spec1 w) := by
  obtain ⟨n, hn⟩ := w
  have hn' : n < 4 := hn
  interval_cases n
  · exact ((dat1 (atRef (X7 m)) c).arrAt_in 0 rfl _).trans ((A_eq1 (atRef (X7 m)) c 0).trans (X8_of m c main_v48 (by decide)).symm)
  · exact ((dat1 (atRef (X7 m)) c).arrAt_in 1 rfl _).trans ((A_eq1 (atRef (X7 m)) c 1).trans (X8_of m c main_v49 (by decide)).symm)
  · exact (X8_out_0 m c).symm
  · exact (X8_out_1 m c).symm

/-- Every buffer that is no array of region 1 holds after it what it held before. -/
theorem hrest1 (c : Dev nD) : ∀ b, b ∉ Finset.univ.image (Pipeline.arrRef spec1) → atRef (X8 m) c b = atRef (X7 m) c b :=
  fun b hb => X8_of m c b (fun e => hb (by rcases e with e | e <;> subst e; exact Finset.mem_image.mpr ⟨2, Finset.mem_univ _, rfl⟩; exact Finset.mem_image.mpr ⟨3, Finset.mem_univ _, rfl⟩))

set_option backward.isDefEq.respectTransparency.types false in
/-- Region 1 as a segment: entered with every unscoped buffer at the contents before it, left with them at the
    contents after it. Its arrays are split out of the unscoped buffers and put back at what the pipeline leaves; the
    generator register goes into the region's invariant and comes back; nothing is owed; the kernel has no
    semaphore of its own. -/
def reg1 : RegionSeg (pcfgs (F := F)) adm (pdats m) () defs₀ vn Lz lvz 1 where
  win := launch1.win.to₀
  block_pos := launch1.block_pos
  stage_whole := launch1.stage_whole
  K := PEmpty
  osem k := k.elim
  ho := Pipeline.OwnSemFacts.none _
  hbody c := (body_obligation1 (atRef (X7 m)) c).loose
  hwaits := Pipeline.hwaits_of_owed_zero _ _ _ _ Lz lvz 1 fun _ _ => rfl
  pre c := iprop(StableHlo.held (c : Thread nD τ) (Pipeline.ucRefs τ sig) (X7 m c) ∗ Rz c)
  post c := iprop(StableHlo.held (c : Thread nD τ) (Pipeline.ucRefs τ sig) (X8 m c) ∗ Rz c)
  X c := iprop(∃ r, prngReg c r)
  Y c := iprop(∃ r, prngReg c r)
  Z c := Pipeline.unscopedRest (Ix := Unit) (Name := ℕ) (U := UR sig nD τ) (Lvl := ℕ) spec1 c ((atRef (X7 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) ((atRef (X7 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (atRef (X7 m)) c)
    unfold Pipeline.ΦA
    iintro ⟨Hp, -, Hr⟩
    isplitl [Hr]; · iexact Hr
    iexact Hp
  hout c := by
    rw [Pipeline.ownSems0_none]
    refine BIBase.Entails.trans (hout1 (atRef (X7 m)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      ((atRef (X7 m)) c) ((atRef (X8 m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

set_option maxHeartbeats 4000000 in
/-- After region 2 each of its arrays holds what the pipeline leaves: an input window's array what it held when the
    region was entered, an output window's array the folded write-backs. -/
theorem hF2 (c : Dev nD) (w : Fin cfg2.W) : (dat2 (atRef (X9 m)) c).arrAt w cfg2.N = atRef (X10 m) c (Pipeline.arrRef spec2 w) := by
  obtain ⟨n, hn⟩ := w
  have hn' : n < 7 := hn
  interval_cases n
  · exact ((dat2 (atRef (X9 m)) c).arrAt_in 0 rfl _).trans ((A_eq2 (atRef (X9 m)) c 0).trans (X10_of m c main_v48 (by decide)).symm)
  · exact ((dat2 (atRef (X9 m)) c).arrAt_in 1 rfl _).trans ((A_eq2 (atRef (X9 m)) c 1).trans (X10_of m c main_v51 (by decide)).symm)
  · exact ((dat2 (atRef (X9 m)) c).arrAt_in 2 rfl _).trans ((A_eq2 (atRef (X9 m)) c 2).trans (X10_of m c main_v50_0 (by decide)).symm)
  · exact ((dat2 (atRef (X9 m)) c).arrAt_in 3 rfl _).trans ((A_eq2 (atRef (X9 m)) c 3).trans (X10_of m c main_v50_1 (by decide)).symm)
  · exact ((dat2 (atRef (X9 m)) c).arrAt_in 4 rfl _).trans ((A_eq2 (atRef (X9 m)) c 4).trans (X10_of m c main_v52 (by decide)).symm)
  · exact ((dat2 (atRef (X9 m)) c).arrAt_in 5 rfl _).trans ((A_eq2 (atRef (X9 m)) c 5).trans (X10_of m c main_v53 (by decide)).symm)
  · exact (X10_out m c).symm

/-- Every buffer that is no array of region 2 holds after it what it held before. -/
theorem hrest2 (c : Dev nD) : ∀ b, b ∉ Finset.univ.image (Pipeline.arrRef spec2) → atRef (X10 m) c b = atRef (X9 m) c b :=
  fun b hb => X10_of m c b (fun e => hb (e ▸ Finset.mem_image.mpr ⟨6, Finset.mem_univ _, rfl⟩))

set_option backward.isDefEq.respectTransparency.types false in
/-- Region 2 as a segment: entered with every unscoped buffer at the contents before it, left with them at the
    contents after it. Its arrays are split out of the unscoped buffers and put back at what the pipeline leaves; the
    generator register goes into the region's invariant and comes back; nothing is owed; the kernel has no
    semaphore of its own. -/
def reg2 : RegionSeg (pcfgs (F := F)) adm (pdats m) () defs₀ vn Lz lvz 2 where
  win := launch2.win.to₀
  block_pos := launch2.block_pos
  stage_whole := launch2.stage_whole
  K := PEmpty
  osem k := k.elim
  ho := Pipeline.OwnSemFacts.none _
  hbody c := (body_obligation2 (atRef (X9 m)) c).loose
  hwaits := Pipeline.hwaits_of_owed_zero _ _ _ _ Lz lvz 2 fun _ _ => rfl
  pre c := iprop(StableHlo.held (c : Thread nD τ) (Pipeline.ucRefs τ sig) (X9 m c) ∗ Rz c)
  post c := iprop(StableHlo.held (c : Thread nD τ) (Pipeline.ucRefs τ sig) (X10 m c) ∗ Rz c)
  X c := iprop(∃ r, prngReg c r)
  Y c := iprop(∃ r, prngReg c r)
  Z c := Pipeline.unscopedRest (Ix := Unit) (Name := ℕ) (U := UR sig nD τ) (Lvl := ℕ) spec2 c ((atRef (X9 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) ((atRef (X9 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      ((atRef (X9 m)) c) ((atRef (X10 m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

/-- After region 3 each of its arrays holds what the pipeline leaves: an input window's array what it held when the
    region was entered, an output window's array the folded write-backs. -/
theorem hF3 (c : Dev nD) (w : Fin cfg3.W) : (dat3 (atRef (X10 m)) c).arrAt w cfg3.N = atRef (X11 m) c (Pipeline.arrRef spec3 w) := by
  obtain ⟨n, hn⟩ := w
  have hn' : n < 3 := hn
  interval_cases n
  · exact ((dat3 (atRef (X10 m)) c).arrAt_in 0 rfl _).trans ((A_eq3 (atRef (X10 m)) c 0).trans (X11_of m c main_v54 (by decide)).symm)
  · exact ((dat3 (atRef (X10 m)) c).arrAt_in 1 rfl _).trans ((A_eq3 (atRef (X10 m)) c 1).trans (X11_of m c main_arg7 (by decide)).symm)
  · exact (X11_out m c).symm

/-- Every buffer that is no array of region 3 holds after it what it held before. -/
theorem hrest3 (c : Dev nD) : ∀ b, b ∉ Finset.univ.image (Pipeline.arrRef spec3) → atRef (X11 m) c b = atRef (X10 m) c b :=
  fun b hb => X11_of m c b (fun e => hb (e ▸ Finset.mem_image.mpr ⟨2, Finset.mem_univ _, rfl⟩))

set_option backward.isDefEq.respectTransparency.types false in
/-- Region 3 as a segment: entered with every unscoped buffer at the contents before it, left with them at the
    contents after it. Its arrays are split out of the unscoped buffers and put back at what the pipeline leaves; the
    generator register goes into the region's invariant and comes back; nothing is owed; the kernel has no
    semaphore of its own. -/
def reg3 : RegionSeg (pcfgs (F := F)) adm (pdats m) () defs₀ vn Lz lvz 3 where
  win := launch3.win.to₀
  block_pos := launch3.block_pos
  stage_whole := launch3.stage_whole
  K := PEmpty
  osem k := k.elim
  ho := Pipeline.OwnSemFacts.none _
  hbody c := (body_obligation3 (atRef (X10 m)) c).loose
  hwaits := Pipeline.hwaits_of_owed_zero _ _ _ _ Lz lvz 3 fun _ _ => rfl
  pre c := iprop(StableHlo.held (c : Thread nD τ) (Pipeline.ucRefs τ sig) (X10 m c) ∗ Rz c)
  post c := iprop(StableHlo.held (c : Thread nD τ) (Pipeline.ucRefs τ sig) (X11 m c) ∗ Rz c)
  X c := iprop(∃ r, prngReg c r)
  Y c := iprop(∃ r, prngReg c r)
  Z c := Pipeline.unscopedRest (Ix := Unit) (Name := ℕ) (U := UR sig nD τ) (Lvl := ℕ) spec3 c ((atRef (X10 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) ((atRef (X10 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      ((atRef (X10 m)) c) ((atRef (X11 m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- After region 4 each of its arrays holds what the pipeline leaves: an input window's array what it held when the
    region was entered, an output window's array the folded write-backs. -/
theorem hF4 (c : Dev nD) (w : Fin cfg4.W) : (dat4 (atRef (X12 m)) c).arrAt w cfg4.N = atRef (X13 m) c (Pipeline.arrRef spec4 w) := by
  obtain ⟨n, hn⟩ := w
  have hn' : n < 3 := hn
  interval_cases n
  · exact ((dat4 (atRef (X12 m)) c).arrAt_in 0 rfl _).trans ((A_eq4 (atRef (X12 m)) c 0).trans (X13_of m c main_v68 (by decide)).symm)
  · exact ((dat4 (atRef (X12 m)) c).arrAt_in 1 rfl _).trans ((A_eq4 (atRef (X12 m)) c 1).trans (X13_of m c main_v69 (by decide)).symm)
  · exact (X13_out m c).symm

/-- Every buffer that is no array of region 4 holds after it what it held before. -/
theorem hrest4 (c : Dev nD) : ∀ b, b ∉ Finset.univ.image (Pipeline.arrRef spec4) → atRef (X13 m) c b = atRef (X12 m) c b :=
  fun b hb => X13_of m c b (fun e => hb (e ▸ Finset.mem_image.mpr ⟨2, Finset.mem_univ _, rfl⟩))

set_option backward.isDefEq.respectTransparency.types false in
/-- Region 4 as a segment: entered with every unscoped buffer at the contents before it, left with them at the
    contents after it. Its arrays are split out of the unscoped buffers and put back at what the pipeline leaves; the
    generator register goes into the region's invariant and comes back; nothing is owed; the kernel has no
    semaphore of its own. -/
def reg4 : RegionSeg (pcfgs (F := F)) adm (pdats m) () defs₀ vn Lz lvz 4 where
  win := launch4.win.to₀
  block_pos := launch4.block_pos
  stage_whole := launch4.stage_whole
  K := PEmpty
  osem k := k.elim
  ho := Pipeline.OwnSemFacts.none _
  hbody c := (body_obligation4 (atRef (X12 m)) c).loose
  hwaits := Pipeline.hwaits_of_owed_zero _ _ _ _ Lz lvz 4 fun _ _ => rfl
  pre c := iprop(StableHlo.held (c : Thread nD τ) (Pipeline.ucRefs τ sig) (X12 m c) ∗ Rz c)
  post c := iprop(StableHlo.held (c : Thread nD τ) (Pipeline.ucRefs τ sig) (X13 m c) ∗ Rz c)
  X c := iprop(∃ r, prngReg c r)
  Y c := iprop(∃ r, prngReg c r)
  Z c := Pipeline.unscopedRest (Ix := Unit) (Name := ℕ) (U := UR sig nD τ) (Lvl := ℕ) spec4 c ((atRef (X12 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) ((atRef (X12 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      ((atRef (X12 m)) c) ((atRef (X13 m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates; the result array ends at
    the fold of the last region's write-backs (`o13`) and every argument array at its launch contents. -/
theorem run_value (ρ : Dev nD → PrngReg) :
    θ_run defs (onTc (τ := τ) (main (F := F))) ⟨m, fun _ => 0, ρ⟩ (fun r => ∀ c : Dev nD,
      r.2.mem ((c.tc : Thread nD τ).loc main_v70) = o13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have key : ∀ c : Dev nD, iprop(unscopedSems0 c ∗ owes (c : Thread nD τ) (0 : CellTallies nD τ sig Unit) ∅ ∗ Pipeline.launchCred (fun _ : Dev nD => (0 : CellTallies nD τ sig Unit)) c ∗ prngReg c (ρ c) ∗ iprop(emp)) ⊢ (Rz c : sProp 𝕄) := fun c => by
    iintro ⟨-, HO, -, Hp, -⟩
    isplitl [Hp]; · iexists _; iexact Hp
    iexists ∅; iexact HO
  have hall : (bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ iprop(emp)))
      ⊢ (bigSep Finset.univ (fun c : Dev nD => Rz c) : sProp 𝕄) := bigSep_mono fun c _ => key c
  have h := value_cond m (Ix := Unit) (U := UR sig nD τ) (Lvl := ℕ) emb₁ () vn Lz lvz (fun _ _ => rfl) ρ (outs m) (pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rz c)
    (hE0 := by
      iintro ⟨H, -⟩
      imodintro
      iapply hall
      iexact H)
    (hE5 := fun c => by iintro ⟨-, HO⟩; iexact HO)
    (reg0 m) (fun c => .rfl) (fun c => by rw [V6_eq]; exact .rfl)
    (reg1 m) (fun c => by rw [V7_eq]; exact .rfl) (fun c => by rw [V8_eq]; exact .rfl)
    (reg2 m) (fun c => by rw [V9_eq]; exact .rfl) (fun c => by rw [V10_eq]; exact .rfl)
    (reg3 m) (fun c => .rfl) (fun c => by rw [V11_eq]; exact .rfl)
    (reg4 m) (fun c => by rw [V12_eq]; exact .rfl) (fun c => by rw [V13_eq]; exact .rfl)
  refine (θ_run defs _ _).mono (fun r hr c => ?_) h
  rw [← outs_result]; exact hr c

/-- The frame: every weakly fair execution terminates and every argument array ends at its launch contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => (hr c).2) (run_value m ρ)

end Cert.KernelIdeal.Hand

end
-- ==== Proof.Val.RefWindows.lean ====
import proofs.«108080_j74191265071850_1_alg».proof.Proof.Gen.ReferenceIdeal
import Idealize.ShloMosaic.Lib.StableHlo.Run

/-! The reference program's 176 host operations cut into eight consecutive stretches, each a literal list, at points
where few buffers are still to be read: a stretch is then read on its own, over the contents before it as a variable,
and the eight are chained. In order the stretches compute: the edge lists with their self loops, the edge weights and the first matrix product; the weighted in-degree, its two guarded forms and the reciprocal square root of the degree; the edge normalisation: the product of the two end points' degree factors and the edge weight; the first layer's messages gathered, scaled, summed per target node, and the first bias added; the batch normalisation over the nodes and the rectification; the second matrix product, and the degree, its reciprocal square root and the edge normalisation once more; the second layer's messages gathered, scaled, summed per target node, and the second bias added; the row-wise log-softmax. -/

noncomputable section

namespace Cert.Val

open Cert.ReferenceIdeal Cert.ReferenceIdeal.Gen Idealize.ShloMosaic Idealize.ShloMosaic.TcCoe Idealize.SL.Sem Idealize.ShloMosaic.StableHlo

variable {F : FTy → Type} [FloatOps F]

/-- Operations 1 to 11 of 176: the edge lists with their self loops, the edge weights and the first matrix product. -/
abbrev wA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    binary main_arg0 main_arg3 main_v9 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 12 to 30 of 176: the weighted in-degree, its two guarded forms and the reciprocal square root of the degree. -/
abbrev wB : List (HloOp τ sig (Elt F)) :=
  [ nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v6 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v8 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    binary main_v12 main_v15 main_v16 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v16) (TRef.of (T := ⟨S100000, .f32⟩) main_v12) (TRef.of (T := ⟨S100000, .f32⟩) main_call0_v1) (TRef.of (T := ⟨S100000, .f32⟩) main_v17) select,
    unary main_v17 main_v18 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v14) (TRef.of (T := ⟨S100000, .f32⟩) main_v18) (TRef.of (T := ⟨S100000, .f32⟩) main_call1_v1) (TRef.of (T := ⟨S100000, .f32⟩) main_v19) select ]

/-- Operations 31 to 50 of 176: the edge normalisation: the product of the two end points' degree factors and the edge weight. -/
abbrev wC : List (HloOp τ sig (Elt F)) :=
  [ nullary main_c (constantI S_ 32 0#32),
    unary main_c main_v20 (broadcastInDim S1700000 ![] bcast_S_S1700000 : (⟨S_, .i32⟩ : BufTy).Contents (Elt F) → (⟨S1700000, .i32⟩ : BufTy).Contents (Elt F)),
    binary main_v3 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v22 (broadcastInDim S1700000 ![] bcast_S_S1700000 : (⟨S_, .i32⟩ : BufTy).Contents (Elt F) → (⟨S1700000, .i32⟩ : BufTy).Contents (Elt F)),
    binary main_v3 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v3 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v8 main_v27 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v28 (broadcastInDim S1700000 ![] bcast_S_S1700000 : (⟨S_, .i32⟩ : BufTy).Contents (Elt F) → (⟨S1700000, .i32⟩ : BufTy).Contents (Elt F)),
    binary main_v6 main_v28 main_v29 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v30 (broadcastInDim S1700000 ![] bcast_S_S1700000 : (⟨S_, .i32⟩ : BufTy).Contents (Elt F) → (⟨S1700000, .i32⟩ : BufTy).Contents (Elt F)),
    binary main_v6 main_v30 main_v31 (addi : (⟨S1700000, .i32⟩ : BufTy).Contents (Elt F) → (⟨S1700000, .i32⟩ : BufTy).Contents (Elt F) → (⟨S1700000, .i32⟩ : BufTy).Contents (Elt F)),
    ternary main_v29 main_v31 main_v6 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v32 main_v33 (broadcastInDim S1700000x1 ![0] bcast_S1700000_S1700000x1_0 : (⟨S1700000, .i32⟩ : BufTy).Contents (Elt F) → (⟨S1700000x1, .i32⟩ : BufTy).Contents (Elt F)),
    binary main_v19 main_v33 main_v34 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v27 main_v34 main_v35 (mulf : (⟨S1700000, .f32⟩ : BufTy).Contents (Elt F) → (⟨S1700000, .f32⟩ : BufTy).Contents (Elt F) → (⟨S1700000, .f32⟩ : BufTy).Contents (Elt F)) ]

/-- Operations 51 to 69 of 176: the first layer's messages gathered, scaled, summed per target node, and the first bias added. -/
abbrev wD : List (HloOp τ sig (Elt F)) :=
  [ nullary main_c_8 (constantI S_ 32 0#32),
    unary main_c_8 main_v36 (broadcastInDim S1700000 ![] bcast_S_S1700000 : (⟨S_, .i32⟩ : BufTy).Contents (Elt F) → (⟨S1700000, .i32⟩ : BufTy).Contents (Elt F)),
    binary main_v3 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v38 (broadcastInDim S1700000 ![] bcast_S_S1700000 : (⟨S_, .i32⟩ : BufTy).Contents (Elt F) → (⟨S1700000, .i32⟩ : BufTy).Contents (Elt F)),
    binary main_v3 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v9 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v35 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    nullary main_cst_10 (constant S_ .f32 0x00000000#32),
    unary main_cst_10 main_v46 (broadcastInDim S100000x128 ![] bcast_S_S100000x128 : (⟨S_, .f32⟩ : BufTy).Contents (Elt F) → (⟨S100000x128, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)) ]

/-- Operations 70 to 102 of 176: the batch normalisation over the nodes and the rectification. -/
abbrev wE : List (HloOp τ sig (Elt F)) :=
  [ nullary main_cst_11 (constant S_ .f32 0x00000000#32),
    binary main_v51 main_cst_11 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v53 (broadcastInDim S128 ![] bcast_S_S128 : (⟨S_, .f32⟩ : BufTy).Contents (Elt F) → (⟨S128, .f32⟩ : BufTy).Contents (Elt F)),
    binary main_v52 main_v53 main_v54 (Host.divf : (⟨S128, .f32⟩ : BufTy).Contents (Elt F) → (⟨S128, .f32⟩ : BufTy).Contents (Elt F) → (⟨S128, .f32⟩ : BufTy).Contents (Elt F)),
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v51 main_v56 main_v57 (subf : (⟨S100000x128, .f32⟩ : BufTy).Contents (Elt F) → (⟨S100000x128, .f32⟩ : BufTy).Contents (Elt F) → (⟨S100000x128, .f32⟩ : BufTy).Contents (Elt F)),
    binary main_v57 main_v57 main_v58 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x00000000#32),
    binary main_v58 main_cst_13 main_v59 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_14 (constant S_ .f32 0x47C35000#32),
    unary main_cst_14 main_v60 (broadcastInDim S128 ![] bcast_S_S128 : (⟨S_, .f32⟩ : BufTy).Contents (Elt F) → (⟨S128, .f32⟩ : BufTy).Contents (Elt F)),
    binary main_v59 main_v60 main_v61 (Host.divf : (⟨S128, .f32⟩ : BufTy).Contents (Elt F) → (⟨S128, .f32⟩ : BufTy).Contents (Elt F) → (⟨S128, .f32⟩ : BufTy).Contents (Elt F)),
    unary main_v54 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v51 main_v63 main_v64 (subf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3727C5AC#32),
    unary main_cst_15 main_v65 (broadcastInDim S128 ![] bcast_S_S128 : (⟨S_, .f32⟩ : BufTy).Contents (Elt F) → (⟨S128, .f32⟩ : BufTy).Contents (Elt F)),
    binary main_v61 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (mulf : (⟨S100000x128, .f32⟩ : BufTy).Contents (Elt F) → (⟨S100000x128, .f32⟩ : BufTy).Contents (Elt F) → (⟨S100000x128, .f32⟩ : BufTy).Contents (Elt F)),
    unary main_arg5 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (mulf : (⟨S100000x128, .f32⟩ : BufTy).Contents (Elt F) → (⟨S100000x128, .f32⟩ : BufTy).Contents (Elt F) → (⟨S100000x128, .f32⟩ : BufTy).Contents (Elt F)),
    unary main_arg6 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v76) (TRef.of (T := ⟨S100000x128, .f32⟩) main_call2_v0) (TRef.of (T := ⟨S100000x128, .f32⟩) main_v77) maximumf ]

/-- Operations 103 to 142 of 176: the second matrix product, and the degree, its reciprocal square root and the edge normalisation once more. -/
abbrev wF : List (HloOp τ sig (Elt F)) :=
  [ binary main_v77 main_arg7 main_v78 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_16 (constant S_ .f32 0x00000000#32),
    unary main_cst_16 main_v79 (broadcastInDim S100000 ![] bcast_S_S100000 : (⟨S_, .f32⟩ : BufTy).Contents (Elt F) → (⟨S100000, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v8 main_v81 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_17 (constant S_ .f32 0x00000000#32),
    unary main_cst_17 main_v82 (broadcastInDim S100000 ![] bcast_S_S100000 : (⟨S_, .f32⟩ : BufTy).Contents (Elt F) → (⟨S100000, .f32⟩ : BufTy).Contents (Elt F)),
    binary main_v81 main_v82 main_v83 (cmpf .ogt : (⟨S100000, .f32⟩ : BufTy).Contents (Elt F) → (⟨S100000, .f32⟩ : BufTy).Contents (Elt F) → (⟨S100000, .i1⟩ : BufTy).Contents (Elt F)),
    nullary main_cst_18 (constant S_ .f32 0x00000000#32),
    unary main_cst_18 main_v84 (broadcastInDim S100000 ![] bcast_S_S100000 : (⟨S_, .f32⟩ : BufTy).Contents (Elt F) → (⟨S100000, .f32⟩ : BufTy).Contents (Elt F)),
    binary main_v81 main_v84 main_v85 (cmpf .ogt : (⟨S100000, .f32⟩ : BufTy).Contents (Elt F) → (⟨S100000, .f32⟩ : BufTy).Contents (Elt F) → (⟨S100000, .i1⟩ : BufTy).Contents (Elt F)),
    nullary main_cst_19 (constant S_ .f32 0x3F800000#32),
    TRef.unary (TRef.of (T := ⟨S_, .f32⟩) main_cst_19) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v85) (TRef.of (T := ⟨S100000, .f32⟩) main_v81) (TRef.of (T := ⟨S100000, .f32⟩) main_call3_v1) (TRef.of (T := ⟨S100000, .f32⟩) main_v86) select,
    unary main_v86 main_v87 (Host.rsqrt : (⟨S100000, .f32⟩ : BufTy).Contents (Elt F) → (⟨S100000, .f32⟩ : BufTy).Contents (Elt F)),
    nullary main_cst_20 (constant S_ .f32 0x00000000#32),
    TRef.unary (TRef.of (T := ⟨S_, .f32⟩) main_cst_20) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v83) (TRef.of (T := ⟨S100000, .f32⟩) main_v87) (TRef.of (T := ⟨S100000, .f32⟩) main_call4_v1) (TRef.of (T := ⟨S100000, .f32⟩) main_v88) select,
    nullary main_c_21 (constantI S_ 32 0#32),
    unary main_c_21 main_v89 (broadcastInDim S1700000 ![] bcast_S_S1700000 : (⟨S_, .i32⟩ : BufTy).Contents (Elt F) → (⟨S1700000, .i32⟩ : BufTy).Contents (Elt F)),
    binary main_v3 main_v89 main_v90 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v91 (broadcastInDim S1700000 ![] bcast_S_S1700000 : (⟨S_, .i32⟩ : BufTy).Contents (Elt F) → (⟨S1700000, .i32⟩ : BufTy).Contents (Elt F)),
    binary main_v3 main_v91 main_v92 (addi : (⟨S1700000, .i32⟩ : BufTy).Contents (Elt F) → (⟨S1700000, .i32⟩ : BufTy).Contents (Elt F) → (⟨S1700000, .i32⟩ : BufTy).Contents (Elt F)),
    ternary main_v90 main_v92 main_v3 main_v93 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v93 main_v94 (broadcastInDim S1700000x1 ![0] bcast_S1700000_S1700000x1_0 : (⟨S1700000, .i32⟩ : BufTy).Contents (Elt F) → (⟨S1700000x1, .i32⟩ : BufTy).Contents (Elt F)),
    binary main_v88 main_v94 main_v95 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v95 main_v8 main_v96 (mulf : (⟨S1700000, .f32⟩ : BufTy).Contents (Elt F) → (⟨S1700000, .f32⟩ : BufTy).Contents (Elt F) → (⟨S1700000, .f32⟩ : BufTy).Contents (Elt F)),
    nullary main_c_23 (constantI S_ 32 0#32),
    unary main_c_23 main_v97 (broadcastInDim S1700000 ![] bcast_S_S1700000 : (⟨S_, .i32⟩ : BufTy).Contents (Elt F) → (⟨S1700000, .i32⟩ : BufTy).Contents (Elt F)),
    binary main_v6 main_v97 main_v98 (cmpi .slt : (⟨S1700000, .i32⟩ : BufTy).Contents (Elt F) → (⟨S1700000, .i32⟩ : BufTy).Contents (Elt F) → (⟨S1700000, .i1⟩ : BufTy).Contents (Elt F)),
    nullary main_c_24 (constantI S_ 32 100000#32),
    unary main_c_24 main_v99 (broadcastInDim S1700000 ![] bcast_S_S1700000 : (⟨S_, .i32⟩ : BufTy).Contents (Elt F) → (⟨S1700000, .i32⟩ : BufTy).Contents (Elt F)),
    binary main_v6 main_v99 main_v100 (addi : (⟨S1700000, .i32⟩ : BufTy).Contents (Elt F) → (⟨S1700000, .i32⟩ : BufTy).Contents (Elt F) → (⟨S1700000, .i32⟩ : BufTy).Contents (Elt F)),
    ternary main_v98 main_v100 main_v6 main_v101 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v101 main_v102 (broadcastInDim S1700000x1 ![0] bcast_S1700000_S1700000x1_0 : (⟨S1700000, .i32⟩ : BufTy).Contents (Elt F) → (⟨S1700000x1, .i32⟩ : BufTy).Contents (Elt F)),
    binary main_v88 main_v102 main_v103 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v96 main_v103 main_v104 (mulf : (⟨S1700000, .f32⟩ : BufTy).Contents (Elt F) → (⟨S1700000, .f32⟩ : BufTy).Contents (Elt F) → (⟨S1700000, .f32⟩ : BufTy).Contents (Elt F)) ]

/-- Operations 143 to 161 of 176: the second layer's messages gathered, scaled, summed per target node, and the second bias added. -/
abbrev wG : List (HloOp τ sig (Elt F)) :=
  [ nullary main_c_25 (constantI S_ 32 0#32),
    unary main_c_25 main_v105 (broadcastInDim S1700000 ![] bcast_S_S1700000 : (⟨S_, .i32⟩ : BufTy).Contents (Elt F) → (⟨S1700000, .i32⟩ : BufTy).Contents (Elt F)),
    binary main_v3 main_v105 main_v106 (cmpi .slt : (⟨S1700000, .i32⟩ : BufTy).Contents (Elt F) → (⟨S1700000, .i32⟩ : BufTy).Contents (Elt F) → (⟨S1700000, .i1⟩ : BufTy).Contents (Elt F)),
    nullary main_c_26 (constantI S_ 32 100000#32),
    unary main_c_26 main_v107 (broadcastInDim S1700000 ![] bcast_S_S1700000 : (⟨S_, .i32⟩ : BufTy).Contents (Elt F) → (⟨S1700000, .i32⟩ : BufTy).Contents (Elt F)),
    binary main_v3 main_v107 main_v108 (addi : (⟨S1700000, .i32⟩ : BufTy).Contents (Elt F) → (⟨S1700000, .i32⟩ : BufTy).Contents (Elt F) → (⟨S1700000, .i32⟩ : BufTy).Contents (Elt F)),
    ternary main_v106 main_v108 main_v3 main_v109 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v109 main_v110 (broadcastInDim S1700000x1 ![0] bcast_S1700000_S1700000x1_0 : (⟨S1700000, .i32⟩ : BufTy).Contents (Elt F) → (⟨S1700000x1, .i32⟩ : BufTy).Contents (Elt F)),
    binary main_v78 main_v110 main_v111 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v104 main_v112 (broadcastInDim S1700000x1 ![0] bcast_S1700000_S1700000x1_0 : (⟨S1700000, .f32⟩ : BufTy).Contents (Elt F) → (⟨S1700000x1, .f32⟩ : BufTy).Contents (Elt F)),
    unary main_v112 main_v113 (broadcastInDim S1700000x64 ![0, 1] bcast_S1700000x1_S1700000x64_0_1 : (⟨S1700000x1, .f32⟩ : BufTy).Contents (Elt F) → (⟨S1700000x64, .f32⟩ : BufTy).Contents (Elt F)),
    binary main_v111 main_v113 main_v114 (mulf : (⟨S1700000x64, .f32⟩ : BufTy).Contents (Elt F) → (⟨S1700000x64, .f32⟩ : BufTy).Contents (Elt F) → (⟨S1700000x64, .f32⟩ : BufTy).Contents (Elt F)),
    nullary main_cst_27 (constant S_ .f32 0x00000000#32),
    unary main_cst_27 main_v115 (broadcastInDim S100000x64 ![] bcast_S_S100000x64 : (⟨S_, .f32⟩ : BufTy).Contents (Elt F) → (⟨S100000x64, .f32⟩ : BufTy).Contents (Elt F)),
    unary main_v6 main_v116 (broadcastInDim S1700000x1 ![0] bcast_S1700000_S1700000x1_0 : (⟨S1700000, .i32⟩ : BufTy).Contents (Elt F) → (⟨S1700000x1, .i32⟩ : BufTy).Contents (Elt F)),
    ternary main_v115 main_v116 main_v114 main_v117 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v117 main_v119 main_v120 (addf : (⟨S100000x64, .f32⟩ : BufTy).Contents (Elt F) → (⟨S100000x64, .f32⟩ : BufTy).Contents (Elt F) → (⟨S100000x64, .f32⟩ : BufTy).Contents (Elt F)) ]

/-- Operations 162 to 176 of 176: the row-wise log-softmax. -/
abbrev wH : List (HloOp τ sig (Elt F)) :=
  [ TRef.nullary (TRef.of (T := ⟨S_, .f32⟩) main_call5_cst) (constant S_ .f32 0xFF800000#32),
    TRef.binary (TRef.of (T := ⟨S100000x64, .f32⟩) main_v120) (TRef.of (T := ⟨S_, .f32⟩) main_call5_cst) (TRef.of (T := ⟨S100000, .f32⟩) main_call5_v0) (fun x v => Host.reduce FloatOps.maximumf x v reducesTo_S100000x64_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x64, .f32⟩) main_call5_v4) (broadcastInDim S100000x64 ![0, 1] bcast_S100000x1_S100000x64_0_1),
    TRef.binary (TRef.of (T := ⟨S100000x64, .f32⟩) main_v120) (TRef.of (T := ⟨S100000x64, .f32⟩) main_call5_v4) (TRef.of (T := ⟨S100000x64, .f32⟩) main_call5_v5) subf,
    TRef.unary (TRef.of (T := ⟨S100000x64, .f32⟩) main_call5_v5) (TRef.of (T := ⟨S100000x64, .f32⟩) main_call5_v6) Host.exp,
    TRef.nullary (TRef.of (T := ⟨S_, .f32⟩) main_call5_cst_1) (constant S_ .f32 0x00000000#32),
    TRef.binary (TRef.of (T := ⟨S100000x64, .f32⟩) main_call5_v6) (TRef.of (T := ⟨S_, .f32⟩) main_call5_cst_1) (TRef.of (T := ⟨S100000, .f32⟩) main_call5_v7) (fun x v => Host.reduceAdd x v reducesTo_S100000x64_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x64, .f32⟩) main_call5_v10) (broadcastInDim S100000x64 ![0, 1] bcast_S100000x1_S100000x64_0_1),
    TRef.binary (TRef.of (T := ⟨S100000x64, .f32⟩) main_call5_v5) (TRef.of (T := ⟨S100000x64, .f32⟩) main_call5_v10) (TRef.of (T := ⟨S100000x64, .f32⟩) main_v121) subf ]

end Cert.Val

end
-- ==== Proof.Val.RefCasts.lean ====
import proofs.«108080_j74191265071850_1_alg».proof.Proof.Gen.ReferenceIdeal
import Idealize.ShloMosaic.Lib.StableHlo.Run

/-! The operations of an inlined call move each operand from its buffer's own type to the tensor type the call states,
and each result back. At a literal reference both types are the same and the move is the identity. One equation per
typed reference of the reference program and direction, each by computation, and a tactic that rewrites with them
one at a time: a term read off a stretch of operations is cleared of these moves before it is compared with a stage. -/

noncomputable section

namespace Cert.Val

open Cert.ReferenceIdeal Cert.ReferenceIdeal.Gen Idealize.ShloMosaic Idealize.ShloMosaic.TcCoe Idealize.SL.Sem Idealize.ShloMosaic.StableHlo

variable {Val : EltTy → Type}

/-- Contents moved to a typed reference's own buffer type and back are the contents. -/
theorem TRef_ofBuf_toBuf {sig : RefSig} {T : BufTy} (x : TRef sig T) (v : T.Contents Val) :
    x.ofBuf (x.toBuf v) = v := by
  obtain ⟨r, rfl, h2, h3⟩ := x
  rfl

theorem ofBuf_cst_3 (v : (⟨S_, .f32⟩ : BufTy).Contents Val) :
    (TRef.of (sig := sig) (T := ⟨S_, .f32⟩) main_cst_3).ofBuf (Val := Val) v = v := rfl
theorem toBuf_cst_3 (v : (⟨S_, .f32⟩ : BufTy).Contents Val) :
    ((TRef.of (sig := sig) (T := ⟨S_, .f32⟩) main_cst_3).toBuf (Val := Val) v : (⟨S_, .f32⟩ : BufTy).Contents Val) = v := rfl
theorem ofBuf_call0_v0 (v : (⟨S_, .f32⟩ : BufTy).Contents Val) :
    (TRef.of (sig := sig) (T := ⟨S_, .f32⟩) main_call0_v0).ofBuf (Val := Val) v = v := rfl
theorem toBuf_call0_v0 (v : (⟨S_, .f32⟩ : BufTy).Contents Val) :
    ((TRef.of (sig := sig) (T := ⟨S_, .f32⟩) main_call0_v0).toBuf (Val := Val) v : (⟨S_, .f32⟩ : BufTy).Contents Val) = v := rfl
theorem ofBuf_call0_v1 (v : (⟨S100000, .f32⟩ : BufTy).Contents Val) :
    (TRef.of (sig := sig) (T := ⟨S100000, .f32⟩) main_call0_v1).ofBuf (Val := Val) v = v := rfl
theorem toBuf_call0_v1 (v : (⟨S100000, .f32⟩ : BufTy).Contents Val) :
    ((TRef.of (sig := sig) (T := ⟨S100000, .f32⟩) main_call0_v1).toBuf (Val := Val) v : (⟨S100000, .f32⟩ : BufTy).Contents Val) = v := rfl
theorem ofBuf_v16 (v : (⟨S100000, .i1⟩ : BufTy).Contents Val) :
    (TRef.of (sig := sig) (T := ⟨S100000, .i1⟩) main_v16).ofBuf (Val := Val) v = v := rfl
theorem toBuf_v16 (v : (⟨S100000, .i1⟩ : BufTy).Contents Val) :
    ((TRef.of (sig := sig) (T := ⟨S100000, .i1⟩) main_v16).toBuf (Val := Val) v : (⟨S100000, .i1⟩ : BufTy).Contents Val) = v := rfl
theorem ofBuf_v12 (v : (⟨S100000, .f32⟩ : BufTy).Contents Val) :
    (TRef.of (sig := sig) (T := ⟨S100000, .f32⟩) main_v12).ofBuf (Val := Val) v = v := rfl
theorem toBuf_v12 (v : (⟨S100000, .f32⟩ : BufTy).Contents Val) :
    ((TRef.of (sig := sig) (T := ⟨S100000, .f32⟩) main_v12).toBuf (Val := Val) v : (⟨S100000, .f32⟩ : BufTy).Contents Val) = v := rfl
theorem ofBuf_v17 (v : (⟨S100000, .f32⟩ : BufTy).Contents Val) :
    (TRef.of (sig := sig) (T := ⟨S100000, .f32⟩) main_v17).ofBuf (Val := Val) v = v := rfl
theorem toBuf_v17 (v : (⟨S100000, .f32⟩ : BufTy).Contents Val) :
    ((TRef.of (sig := sig) (T := ⟨S100000, .f32⟩) main_v17).toBuf (Val := Val) v : (⟨S100000, .f32⟩ : BufTy).Contents Val) = v := rfl
theorem ofBuf_cst_4 (v : (⟨S_, .f32⟩ : BufTy).Contents Val) :
    (TRef.of (sig := sig) (T := ⟨S_, .f32⟩) main_cst_4).ofBuf (Val := Val) v = v := rfl
theorem toBuf_cst_4 (v : (⟨S_, .f32⟩ : BufTy).Contents Val) :
    ((TRef.of (sig := sig) (T := ⟨S_, .f32⟩) main_cst_4).toBuf (Val := Val) v : (⟨S_, .f32⟩ : BufTy).Contents Val) = v := rfl
theorem ofBuf_call1_v0 (v : (⟨S_, .f32⟩ : BufTy).Contents Val) :
    (TRef.of (sig := sig) (T := ⟨S_, .f32⟩) main_call1_v0).ofBuf (Val := Val) v = v := rfl
theorem toBuf_call1_v0 (v : (⟨S_, .f32⟩ : BufTy).Contents Val) :
    ((TRef.of (sig := sig) (T := ⟨S_, .f32⟩) main_call1_v0).toBuf (Val := Val) v : (⟨S_, .f32⟩ : BufTy).Contents Val) = v := rfl
theorem ofBuf_call1_v1 (v : (⟨S100000, .f32⟩ : BufTy).Contents Val) :
    (TRef.of (sig := sig) (T := ⟨S100000, .f32⟩) main_call1_v1).ofBuf (Val := Val) v = v := rfl
theorem toBuf_call1_v1 (v : (⟨S100000, .f32⟩ : BufTy).Contents Val) :
    ((TRef.of (sig := sig) (T := ⟨S100000, .f32⟩) main_call1_v1).toBuf (Val := Val) v : (⟨S100000, .f32⟩ : BufTy).Contents Val) = v := rfl
theorem ofBuf_v14 (v : (⟨S100000, .i1⟩ : BufTy).Contents Val) :
    (TRef.of (sig := sig) (T := ⟨S100000, .i1⟩) main_v14).ofBuf (Val := Val) v = v := rfl
theorem toBuf_v14 (v : (⟨S100000, .i1⟩ : BufTy).Contents Val) :
    ((TRef.of (sig := sig) (T := ⟨S100000, .i1⟩) main_v14).toBuf (Val := Val) v : (⟨S100000, .i1⟩ : BufTy).Contents Val) = v := rfl
theorem ofBuf_v18 (v : (⟨S100000, .f32⟩ : BufTy).Contents Val) :
    (TRef.of (sig := sig) (T := ⟨S100000, .f32⟩) main_v18).ofBuf (Val := Val) v = v := rfl
theorem toBuf_v18 (v : (⟨S100000, .f32⟩ : BufTy).Contents Val) :
    ((TRef.of (sig := sig) (T := ⟨S100000, .f32⟩) main_v18).toBuf (Val := Val) v : (⟨S100000, .f32⟩ : BufTy).Contents Val) = v := rfl
theorem ofBuf_v19 (v : (⟨S100000, .f32⟩ : BufTy).Contents Val) :
    (TRef.of (sig := sig) (T := ⟨S100000, .f32⟩) main_v19).ofBuf (Val := Val) v = v := rfl
theorem toBuf_v19 (v : (⟨S100000, .f32⟩ : BufTy).Contents Val) :
    ((TRef.of (sig := sig) (T := ⟨S100000, .f32⟩) main_v19).toBuf (Val := Val) v : (⟨S100000, .f32⟩ : BufTy).Contents Val) = v := rfl
theorem ofBuf_call2_cst (v : (⟨S_, .f32⟩ : BufTy).Contents Val) :
    (TRef.of (sig := sig) (T := ⟨S_, .f32⟩) main_call2_cst).ofBuf (Val := Val) v = v := rfl
theorem toBuf_call2_cst (v : (⟨S_, .f32⟩ : BufTy).Contents Val) :
    ((TRef.of (sig := sig) (T := ⟨S_, .f32⟩) main_call2_cst).toBuf (Val := Val) v : (⟨S_, .f32⟩ : BufTy).Contents Val) = v := rfl
theorem ofBuf_call2_v0 (v : (⟨S100000x128, .f32⟩ : BufTy).Contents Val) :
    (TRef.of (sig := sig) (T := ⟨S100000x128, .f32⟩) main_call2_v0).ofBuf (Val := Val) v = v := rfl
theorem toBuf_call2_v0 (v : (⟨S100000x128, .f32⟩ : BufTy).Contents Val) :
    ((TRef.of (sig := sig) (T := ⟨S100000x128, .f32⟩) main_call2_v0).toBuf (Val := Val) v : (⟨S100000x128, .f32⟩ : BufTy).Contents Val) = v := rfl
theorem ofBuf_v76 (v : (⟨S100000x128, .f32⟩ : BufTy).Contents Val) :
    (TRef.of (sig := sig) (T := ⟨S100000x128, .f32⟩) main_v76).ofBuf (Val := Val) v = v := rfl
theorem toBuf_v76 (v : (⟨S100000x128, .f32⟩ : BufTy).Contents Val) :
    ((TRef.of (sig := sig) (T := ⟨S100000x128, .f32⟩) main_v76).toBuf (Val := Val) v : (⟨S100000x128, .f32⟩ : BufTy).Contents Val) = v := rfl
theorem ofBuf_v77 (v : (⟨S100000x128, .f32⟩ : BufTy).Contents Val) :
    (TRef.of (sig := sig) (T := ⟨S100000x128, .f32⟩) main_v77).ofBuf (Val := Val) v = v := rfl
theorem toBuf_v77 (v : (⟨S100000x128, .f32⟩ : BufTy).Contents Val) :
    ((TRef.of (sig := sig) (T := ⟨S100000x128, .f32⟩) main_v77).toBuf (Val := Val) v : (⟨S100000x128, .f32⟩ : BufTy).Contents Val) = v := rfl
theorem ofBuf_cst_19 (v : (⟨S_, .f32⟩ : BufTy).Contents Val) :
    (TRef.of (sig := sig) (T := ⟨S_, .f32⟩) main_cst_19).ofBuf (Val := Val) v = v := rfl
theorem toBuf_cst_19 (v : (⟨S_, .f32⟩ : BufTy).Contents Val) :
    ((TRef.of (sig := sig) (T := ⟨S_, .f32⟩) main_cst_19).toBuf (Val := Val) v : (⟨S_, .f32⟩ : BufTy).Contents Val) = v := rfl
theorem ofBuf_call3_v0 (v : (⟨S_, .f32⟩ : BufTy).Contents Val) :
    (TRef.of (sig := sig) (T := ⟨S_, .f32⟩) main_call3_v0).ofBuf (Val := Val) v = v := rfl
theorem toBuf_call3_v0 (v : (⟨S_, .f32⟩ : BufTy).Contents Val) :
    ((TRef.of (sig := sig) (T := ⟨S_, .f32⟩) main_call3_v0).toBuf (Val := Val) v : (⟨S_, .f32⟩ : BufTy).Contents Val) = v := rfl
theorem ofBuf_call3_v1 (v : (⟨S100000, .f32⟩ : BufTy).Contents Val) :
    (TRef.of (sig := sig) (T := ⟨S100000, .f32⟩) main_call3_v1).ofBuf (Val := Val) v = v := rfl
theorem toBuf_call3_v1 (v : (⟨S100000, .f32⟩ : BufTy).Contents Val) :
    ((TRef.of (sig := sig) (T := ⟨S100000, .f32⟩) main_call3_v1).toBuf (Val := Val) v : (⟨S100000, .f32⟩ : BufTy).Contents Val) = v := rfl
theorem ofBuf_v85 (v : (⟨S100000, .i1⟩ : BufTy).Contents Val) :
    (TRef.of (sig := sig) (T := ⟨S100000, .i1⟩) main_v85).ofBuf (Val := Val) v = v := rfl
theorem toBuf_v85 (v : (⟨S100000, .i1⟩ : BufTy).Contents Val) :
    ((TRef.of (sig := sig) (T := ⟨S100000, .i1⟩) main_v85).toBuf (Val := Val) v : (⟨S100000, .i1⟩ : BufTy).Contents Val) = v := rfl
theorem ofBuf_v81 (v : (⟨S100000, .f32⟩ : BufTy).Contents Val) :
    (TRef.of (sig := sig) (T := ⟨S100000, .f32⟩) main_v81).ofBuf (Val := Val) v = v := rfl
theorem toBuf_v81 (v : (⟨S100000, .f32⟩ : BufTy).Contents Val) :
    ((TRef.of (sig := sig) (T := ⟨S100000, .f32⟩) main_v81).toBuf (Val := Val) v : (⟨S100000, .f32⟩ : BufTy).Contents Val) = v := rfl
theorem ofBuf_v86 (v : (⟨S100000, .f32⟩ : BufTy).Contents Val) :
    (TRef.of (sig := sig) (T := ⟨S100000, .f32⟩) main_v86).ofBuf (Val := Val) v = v := rfl
theorem toBuf_v86 (v : (⟨S100000, .f32⟩ : BufTy).Contents Val) :
    ((TRef.of (sig := sig) (T := ⟨S100000, .f32⟩) main_v86).toBuf (Val := Val) v : (⟨S100000, .f32⟩ : BufTy).Contents Val) = v := rfl
theorem ofBuf_cst_20 (v : (⟨S_, .f32⟩ : BufTy).Contents Val) :
    (TRef.of (sig := sig) (T := ⟨S_, .f32⟩) main_cst_20).ofBuf (Val := Val) v = v := rfl
theorem toBuf_cst_20 (v : (⟨S_, .f32⟩ : BufTy).Contents Val) :
    ((TRef.of (sig := sig) (T := ⟨S_, .f32⟩) main_cst_20).toBuf (Val := Val) v : (⟨S_, .f32⟩ : BufTy).Contents Val) = v := rfl
theorem ofBuf_call4_v0 (v : (⟨S_, .f32⟩ : BufTy).Contents Val) :
    (TRef.of (sig := sig) (T := ⟨S_, .f32⟩) main_call4_v0).ofBuf (Val := Val) v = v := rfl
theorem toBuf_call4_v0 (v : (⟨S_, .f32⟩ : BufTy).Contents Val) :
    ((TRef.of (sig := sig) (T := ⟨S_, .f32⟩) main_call4_v0).toBuf (Val := Val) v : (⟨S_, .f32⟩ : BufTy).Contents Val) = v := rfl
theorem ofBuf_call4_v1 (v : (⟨S100000, .f32⟩ : BufTy).Contents Val) :
    (TRef.of (sig := sig) (T := ⟨S100000, .f32⟩) main_call4_v1).ofBuf (Val := Val) v = v := rfl
theorem toBuf_call4_v1 (v : (⟨S100000, .f32⟩ : BufTy).Contents Val) :
    ((TRef.of (sig := sig) (T := ⟨S100000, .f32⟩) main_call4_v1).toBuf (Val := Val) v : (⟨S100000, .f32⟩ : BufTy).Contents Val) = v := rfl
theorem ofBuf_v83 (v : (⟨S100000, .i1⟩ : BufTy).Contents Val) :
    (TRef.of (sig := sig) (T := ⟨S100000, .i1⟩) main_v83).ofBuf (Val := Val) v = v := rfl
theorem toBuf_v83 (v : (⟨S100000, .i1⟩ : BufTy).Contents Val) :
    ((TRef.of (sig := sig) (T := ⟨S100000, .i1⟩) main_v83).toBuf (Val := Val) v : (⟨S100000, .i1⟩ : BufTy).Contents Val) = v := rfl
theorem ofBuf_v87 (v : (⟨S100000, .f32⟩ : BufTy).Contents Val) :
    (TRef.of (sig := sig) (T := ⟨S100000, .f32⟩) main_v87).ofBuf (Val := Val) v = v := rfl
theorem toBuf_v87 (v : (⟨S100000, .f32⟩ : BufTy).Contents Val) :
    ((TRef.of (sig := sig) (T := ⟨S100000, .f32⟩) main_v87).toBuf (Val := Val) v : (⟨S100000, .f32⟩ : BufTy).Contents Val) = v := rfl
theorem ofBuf_v88 (v : (⟨S100000, .f32⟩ : BufTy).Contents Val) :
    (TRef.of (sig := sig) (T := ⟨S100000, .f32⟩) main_v88).ofBuf (Val := Val) v = v := rfl
theorem toBuf_v88 (v : (⟨S100000, .f32⟩ : BufTy).Contents Val) :
    ((TRef.of (sig := sig) (T := ⟨S100000, .f32⟩) main_v88).toBuf (Val := Val) v : (⟨S100000, .f32⟩ : BufTy).Contents Val) = v := rfl
theorem ofBuf_call5_cst (v : (⟨S_, .f32⟩ : BufTy).Contents Val) :
    (TRef.of (sig := sig) (T := ⟨S_, .f32⟩) main_call5_cst).ofBuf (Val := Val) v = v := rfl
theorem toBuf_call5_cst (v : (⟨S_, .f32⟩ : BufTy).Contents Val) :
    ((TRef.of (sig := sig) (T := ⟨S_, .f32⟩) main_call5_cst).toBuf (Val := Val) v : (⟨S_, .f32⟩ : BufTy).Contents Val) = v := rfl
theorem ofBuf_v120 (v : (⟨S100000x64, .f32⟩ : BufTy).Contents Val) :
    (TRef.of (sig := sig) (T := ⟨S100000x64, .f32⟩) main_v120).ofBuf (Val := Val) v = v := rfl
theorem toBuf_v120 (v : (⟨S100000x64, .f32⟩ : BufTy).Contents Val) :
    ((TRef.of (sig := sig) (T := ⟨S100000x64, .f32⟩) main_v120).toBuf (Val := Val) v : (⟨S100000x64, .f32⟩ : BufTy).Contents Val) = v := rfl
theorem ofBuf_call5_v0 (v : (⟨S100000, .f32⟩ : BufTy).Contents Val) :
    (TRef.of (sig := sig) (T := ⟨S100000, .f32⟩) main_call5_v0).ofBuf (Val := Val) v = v := rfl
theorem toBuf_call5_v0 (v : (⟨S100000, .f32⟩ : BufTy).Contents Val) :
    ((TRef.of (sig := sig) (T := ⟨S100000, .f32⟩) main_call5_v0).toBuf (Val := Val) v : (⟨S100000, .f32⟩ : BufTy).Contents Val) = v := rfl
theorem ofBuf_call5_cst_0 (v : (⟨S_, .f32⟩ : BufTy).Contents Val) :
    (TRef.of (sig := sig) (T := ⟨S_, .f32⟩) main_call5_cst_0).ofBuf (Val := Val) v = v := rfl
theorem toBuf_call5_cst_0 (v : (⟨S_, .f32⟩ : BufTy).Contents Val) :
    ((TRef.of (sig := sig) (T := ⟨S_, .f32⟩) main_call5_cst_0).toBuf (Val := Val) v : (⟨S_, .f32⟩ : BufTy).Contents Val) = v := rfl
theorem ofBuf_call5_v1 (v : (⟨S100000, .f32⟩ : BufTy).Contents Val) :
    (TRef.of (sig := sig) (T := ⟨S100000, .f32⟩) main_call5_v1).ofBuf (Val := Val) v = v := rfl
theorem toBuf_call5_v1 (v : (⟨S100000, .f32⟩ : BufTy).Contents Val) :
    ((TRef.of (sig := sig) (T := ⟨S100000, .f32⟩) main_call5_v1).toBuf (Val := Val) v : (⟨S100000, .f32⟩ : BufTy).Contents Val) = v := rfl
theorem ofBuf_call5_v2 (v : (⟨S100000, .f32⟩ : BufTy).Contents Val) :
    (TRef.of (sig := sig) (T := ⟨S100000, .f32⟩) main_call5_v2).ofBuf (Val := Val) v = v := rfl
theorem toBuf_call5_v2 (v : (⟨S100000, .f32⟩ : BufTy).Contents Val) :
    ((TRef.of (sig := sig) (T := ⟨S100000, .f32⟩) main_call5_v2).toBuf (Val := Val) v : (⟨S100000, .f32⟩ : BufTy).Contents Val) = v := rfl
theorem ofBuf_call5_v3 (v : (⟨S100000x1, .f32⟩ : BufTy).Contents Val) :
    (TRef.of (sig := sig) (T := ⟨S100000x1, .f32⟩) main_call5_v3).ofBuf (Val := Val) v = v := rfl
theorem toBuf_call5_v3 (v : (⟨S100000x1, .f32⟩ : BufTy).Contents Val) :
    ((TRef.of (sig := sig) (T := ⟨S100000x1, .f32⟩) main_call5_v3).toBuf (Val := Val) v : (⟨S100000x1, .f32⟩ : BufTy).Contents Val) = v := rfl
theorem ofBuf_call5_v4 (v : (⟨S100000x64, .f32⟩ : BufTy).Contents Val) :
    (TRef.of (sig := sig) (T := ⟨S100000x64, .f32⟩) main_call5_v4).ofBuf (Val := Val) v = v := rfl
theorem toBuf_call5_v4 (v : (⟨S100000x64, .f32⟩ : BufTy).Contents Val) :
    ((TRef.of (sig := sig) (T := ⟨S100000x64, .f32⟩) main_call5_v4).toBuf (Val := Val) v : (⟨S100000x64, .f32⟩ : BufTy).Contents Val) = v := rfl
theorem ofBuf_call5_v5 (v : (⟨S100000x64, .f32⟩ : BufTy).Contents Val) :
    (TRef.of (sig := sig) (T := ⟨S100000x64, .f32⟩) main_call5_v5).ofBuf (Val := Val) v = v := rfl
theorem toBuf_call5_v5 (v : (⟨S100000x64, .f32⟩ : BufTy).Contents Val) :
    ((TRef.of (sig := sig) (T := ⟨S100000x64, .f32⟩) main_call5_v5).toBuf (Val := Val) v : (⟨S100000x64, .f32⟩ : BufTy).Contents Val) = v := rfl
theorem ofBuf_call5_v6 (v : (⟨S100000x64, .f32⟩ : BufTy).Contents Val) :
    (TRef.of (sig := sig) (T := ⟨S100000x64, .f32⟩) main_call5_v6).ofBuf (Val := Val) v = v := rfl
theorem toBuf_call5_v6 (v : (⟨S100000x64, .f32⟩ : BufTy).Contents Val) :
    ((TRef.of (sig := sig) (T := ⟨S100000x64, .f32⟩) main_call5_v6).toBuf (Val := Val) v : (⟨S100000x64, .f32⟩ : BufTy).Contents Val) = v := rfl
theorem ofBuf_call5_cst_1 (v : (⟨S_, .f32⟩ : BufTy).Contents Val) :
    (TRef.of (sig := sig) (T := ⟨S_, .f32⟩) main_call5_cst_1).ofBuf (Val := Val) v = v := rfl
theorem toBuf_call5_cst_1 (v : (⟨S_, .f32⟩ : BufTy).Contents Val) :
    ((TRef.of (sig := sig) (T := ⟨S_, .f32⟩) main_call5_cst_1).toBuf (Val := Val) v : (⟨S_, .f32⟩ : BufTy).Contents Val) = v := rfl
theorem ofBuf_call5_v7 (v : (⟨S100000, .f32⟩ : BufTy).Contents Val) :
    (TRef.of (sig := sig) (T := ⟨S100000, .f32⟩) main_call5_v7).ofBuf (Val := Val) v = v := rfl
theorem toBuf_call5_v7 (v : (⟨S100000, .f32⟩ : BufTy).Contents Val) :
    ((TRef.of (sig := sig) (T := ⟨S100000, .f32⟩) main_call5_v7).toBuf (Val := Val) v : (⟨S100000, .f32⟩ : BufTy).Contents Val) = v := rfl
theorem ofBuf_call5_v8 (v : (⟨S100000x1, .f32⟩ : BufTy).Contents Val) :
    (TRef.of (sig := sig) (T := ⟨S100000x1, .f32⟩) main_call5_v8).ofBuf (Val := Val) v = v := rfl
theorem toBuf_call5_v8 (v : (⟨S100000x1, .f32⟩ : BufTy).Contents Val) :
    ((TRef.of (sig := sig) (T := ⟨S100000x1, .f32⟩) main_call5_v8).toBuf (Val := Val) v : (⟨S100000x1, .f32⟩ : BufTy).Contents Val) = v := rfl
theorem ofBuf_call5_v9 (v : (⟨S100000x1, .f32⟩ : BufTy).Contents Val) :
    (TRef.of (sig := sig) (T := ⟨S100000x1, .f32⟩) main_call5_v9).ofBuf (Val := Val) v = v := rfl
theorem toBuf_call5_v9 (v : (⟨S100000x1, .f32⟩ : BufTy).Contents Val) :
    ((TRef.of (sig := sig) (T := ⟨S100000x1, .f32⟩) main_call5_v9).toBuf (Val := Val) v : (⟨S100000x1, .f32⟩ : BufTy).Contents Val) = v := rfl
theorem ofBuf_call5_v10 (v : (⟨S100000x64, .f32⟩ : BufTy).Contents Val) :
    (TRef.of (sig := sig) (T := ⟨S100000x64, .f32⟩) main_call5_v10).ofBuf (Val := Val) v = v := rfl
theorem toBuf_call5_v10 (v : (⟨S100000x64, .f32⟩ : BufTy).Contents Val) :
    ((TRef.of (sig := sig) (T := ⟨S100000x64, .f32⟩) main_call5_v10).toBuf (Val := Val) v : (⟨S100000x64, .f32⟩ : BufTy).Contents Val) = v := rfl
theorem ofBuf_v121 (v : (⟨S100000x64, .f32⟩ : BufTy).Contents Val) :
    (TRef.of (sig := sig) (T := ⟨S100000x64, .f32⟩) main_v121).ofBuf (Val := Val) v = v := rfl
theorem toBuf_v121 (v : (⟨S100000x64, .f32⟩ : BufTy).Contents Val) :
    ((TRef.of (sig := sig) (T := ⟨S100000x64, .f32⟩) main_v121).toBuf (Val := Val) v : (⟨S100000x64, .f32⟩ : BufTy).Contents Val) = v := rfl

/-- Clears a goal of the moves between a typed reference's buffer type and its tensor type: first every move out and
    straight back at one reference, then the remaining ones, one equation at a time until none applies. -/
macro "strip_tref_casts" : tactic =>
  `(tactic| (try simp only [TRef_ofBuf_toBuf]
             repeat (first
               | rw [ofBuf_cst_3]
               | rw [toBuf_cst_3]
               | rw [ofBuf_call0_v0]
               | rw [toBuf_call0_v0]
               | rw [ofBuf_call0_v1]
               | rw [toBuf_call0_v1]
               | rw [ofBuf_v16]
               | rw [toBuf_v16]
               | rw [ofBuf_v12]
               | rw [toBuf_v12]
               | rw [ofBuf_v17]
               | rw [toBuf_v17]
               | rw [ofBuf_cst_4]
               | rw [toBuf_cst_4]
               | rw [ofBuf_call1_v0]
               | rw [toBuf_call1_v0]
               | rw [ofBuf_call1_v1]
               | rw [toBuf_call1_v1]
               | rw [ofBuf_v14]
               | rw [toBuf_v14]
               | rw [ofBuf_v18]
               | rw [toBuf_v18]
               | rw [ofBuf_v19]
               | rw [toBuf_v19]
               | rw [ofBuf_call2_cst]
               | rw [toBuf_call2_cst]
               | rw [ofBuf_call2_v0]
               | rw [toBuf_call2_v0]
               | rw [ofBuf_v76]
               | rw [toBuf_v76]
               | rw [ofBuf_v77]
               | rw [toBuf_v77]
               | rw [ofBuf_cst_19]
               | rw [toBuf_cst_19]
               | rw [ofBuf_call3_v0]
               | rw [toBuf_call3_v0]
               | rw [ofBuf_call3_v1]
               | rw [toBuf_call3_v1]
               | rw [ofBuf_v85]
               | rw [toBuf_v85]
               | rw [ofBuf_v81]
               | rw [toBuf_v81]
               | rw [ofBuf_v86]
               | rw [toBuf_v86]
               | rw [ofBuf_cst_20]
               | rw [toBuf_cst_20]
               | rw [ofBuf_call4_v0]
               | rw [toBuf_call4_v0]
               | rw [ofBuf_call4_v1]
               | rw [toBuf_call4_v1]
               | rw [ofBuf_v83]
               | rw [toBuf_v83]
               | rw [ofBuf_v87]
               | rw [toBuf_v87]
               | rw [ofBuf_v88]
               | rw [toBuf_v88]
               | rw [ofBuf_call5_cst]
               | rw [toBuf_call5_cst]
               | rw [ofBuf_v120]
               | rw [toBuf_v120]
               | rw [ofBuf_call5_v0]
               | rw [toBuf_call5_v0]
               | rw [ofBuf_call5_cst_0]
               | rw [toBuf_call5_cst_0]
               | rw [ofBuf_call5_v1]
               | rw [toBuf_call5_v1]
               | rw [ofBuf_call5_v2]
               | rw [toBuf_call5_v2]
               | rw [ofBuf_call5_v3]
               | rw [toBuf_call5_v3]
               | rw [ofBuf_call5_v4]
               | rw [toBuf_call5_v4]
               | rw [ofBuf_call5_v5]
               | rw [toBuf_call5_v5]
               | rw [ofBuf_call5_v6]
               | rw [toBuf_call5_v6]
               | rw [ofBuf_call5_cst_1]
               | rw [toBuf_call5_cst_1]
               | rw [ofBuf_call5_v7]
               | rw [toBuf_call5_v7]
               | rw [ofBuf_call5_v8]
               | rw [toBuf_call5_v8]
               | rw [ofBuf_call5_v9]
               | rw [toBuf_call5_v9]
               | rw [ofBuf_call5_v10]
               | rw [toBuf_call5_v10]
               | rw [ofBuf_v121]
               | rw [toBuf_v121])))

end Cert.Val

end
-- ==== Proof.Val.RefAfter1.lean ====
import proofs.«108080_j74191265071850_1_alg».proof.Proof.Val.RefWindows
import proofs.«108080_j74191265071850_1_alg».proof.Proof.Val.RefReadP
import proofs.«108080_j74191265071850_1_alg».proof.Proof.Val.RefCasts
import Idealize.ShloMosaic.Lib.StableHlo.Run

/-! The first four stretches of the reference program read on their own: over ANY contents `W` before the stretch, with
one hypothesis per buffer the stretch reads from outside itself (that buffer holds its stage, a function of the
argument arrays), each buffer the later stretches read holds its stage after it; and a stretch leaves alone every
buffer it does not write. -/

noncomputable section

namespace Cert.Val

open Cert.ReferenceIdeal Cert.ReferenceIdeal.Gen Cert.ReferenceIdeal.ReadP Idealize.ShloMosaic Idealize.ShloMosaic.TcCoe Idealize.SL.Sem Idealize.ShloMosaic.StableHlo

variable (W : Valuation τ sig (Elt Ideal))
variable (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S128x128, .f32⟩ : BufTy).Contents (Elt Ideal)) (x4 : (⟨S128, .f32⟩ : BufTy).Contents (Elt Ideal))

/-! ## Stretch A: the edge lists with their self loops, the edge weights, the first matrix product -/

theorem wA_v3 (h1 : (W (Proc.devRef .tc main_arg1) : (⟨S2x1600000, .i32⟩ : BufTy).Contents (Elt Ideal)) = x1) : (after wA W (Proc.devRef .tc main_v3) : (⟨S1700000, .i32⟩ : BufTy).Contents (Elt Ideal)) = val_main_v3 (F := Ideal) x1 := by
  dsimp only [wA]; after_results; rw [h1]; rfl
theorem wA_v6 (h1 : (W (Proc.devRef .tc main_arg1) : (⟨S2x1600000, .i32⟩ : BufTy).Contents (Elt Ideal)) = x1) : (after wA W (Proc.devRef .tc main_v6) : (⟨S1700000, .i32⟩ : BufTy).Contents (Elt Ideal)) = val_main_v6 (F := Ideal) x1 := by
  dsimp only [wA]; after_results; rw [h1]; rfl
theorem wA_v8 (h2 : (W (Proc.devRef .tc main_arg2) : (⟨S1600000, .f32⟩ : BufTy).Contents (Elt Ideal)) = x2) : (after wA W (Proc.devRef .tc main_v8) : (⟨S1700000, .f32⟩ : BufTy).Contents (Elt Ideal)) = val_main_v8 (F := Ideal) x2 := by
  dsimp only [wA]; after_results; rw [h2]; rfl
theorem wA_v9 (h0 : (W (Proc.devRef .tc main_arg0) : (⟨S100000x128, .f32⟩ : BufTy).Contents (Elt Ideal)) = x0) (h3 : (W (Proc.devRef .tc main_arg3) : (⟨S128x128, .f32⟩ : BufTy).Contents (Elt Ideal)) = x3) :
    (after wA W (Proc.devRef .tc main_v9) : (⟨S100000x128, .f32⟩ : BufTy).Contents (Elt Ideal)) = val_main_v9 (F := Ideal) x0 x3 := by
  dsimp only [wA]; after_results; rw [h0, h3]; rfl
theorem wA_keep_arg4 : (after wA W (Proc.devRef .tc main_arg4) : (⟨S128, .f32⟩ : BufTy).Contents (Elt Ideal)) = W (Proc.devRef .tc main_arg4) := by
  dsimp only [wA]; after_results_simp
theorem wA_keep_arg5 : (after wA W (Proc.devRef .tc main_arg5) : (⟨S128, .f32⟩ : BufTy).Contents (Elt Ideal)) = W (Proc.devRef .tc main_arg5) := by
  dsimp only [wA]; after_results_simp
theorem wA_keep_arg6 : (after wA W (Proc.devRef .tc main_arg6) : (⟨S128, .f32⟩ : BufTy).Contents (Elt Ideal)) = W (Proc.devRef .tc main_arg6) := by
  dsimp only [wA]; after_results_simp
theorem wA_keep_arg7 : (after wA W (Proc.devRef .tc main_arg7) : (⟨S128x64, .f32⟩ : BufTy).Contents (Elt Ideal)) = W (Proc.devRef .tc main_arg7) := by
  dsimp only [wA]; after_results_simp
theorem wA_keep_arg8 : (after wA W (Proc.devRef .tc main_arg8) : (⟨S64, .f32⟩ : BufTy).Contents (Elt Ideal)) = W (Proc.devRef .tc main_arg8) := by
  dsimp only [wA]; after_results_simp

/-! ## Stretch B: the weighted in-degree, its two guarded forms, the reciprocal square root of the degree -/

set_option maxRecDepth 8192 in
theorem wB_v19 (h6 : (W (Proc.devRef .tc main_v6) : (⟨S1700000, .i32⟩ : BufTy).Contents (Elt Ideal)) = val_main_v6 (F := Ideal) x1) (h8 : (W (Proc.devRef .tc main_v8) : (⟨S1700000, .f32⟩ : BufTy).Contents (Elt Ideal)) = val_main_v8 (F := Ideal) x2) :
    (after wB W (Proc.devRef .tc main_v19) : (⟨S100000, .f32⟩ : BufTy).Contents (Elt Ideal)) = val_main_v19 (F := Ideal) x1 x2 := by
  dsimp only [wB]; after_results_simp; rw [h6, h8]; strip_tref_casts; rfl
theorem wB_keep_v3 : (after wB W (Proc.devRef .tc main_v3) : (⟨S1700000, .i32⟩ : BufTy).Contents (Elt Ideal)) = W (Proc.devRef .tc main_v3) := by
  dsimp only [wB]; after_results_simp
theorem wB_keep_v6 : (after wB W (Proc.devRef .tc main_v6) : (⟨S1700000, .i32⟩ : BufTy).Contents (Elt Ideal)) = W (Proc.devRef .tc main_v6) := by
  dsimp only [wB]; after_results_simp
theorem wB_keep_v8 : (after wB W (Proc.devRef .tc main_v8) : (⟨S1700000, .f32⟩ : BufTy).Contents (Elt Ideal)) = W (Proc.devRef .tc main_v8) := by
  dsimp only [wB]; after_results_simp
theorem wB_keep_v9 : (after wB W (Proc.devRef .tc main_v9) : (⟨S100000x128, .f32⟩ : BufTy).Contents (Elt Ideal)) = W (Proc.devRef .tc main_v9) := by
  dsimp only [wB]; after_results_simp
theorem wB_keep_arg4 : (after wB W (Proc.devRef .tc main_arg4) : (⟨S128, .f32⟩ : BufTy).Contents (Elt Ideal)) = W (Proc.devRef .tc main_arg4) := by
  dsimp only [wB]; after_results_simp
theorem wB_keep_arg5 : (after wB W (Proc.devRef .tc main_arg5) : (⟨S128, .f32⟩ : BufTy).Contents (Elt Ideal)) = W (Proc.devRef .tc main_arg5) := by
  dsimp only [wB]; after_results_simp
theorem wB_keep_arg6 : (after wB W (Proc.devRef .tc main_arg6) : (⟨S128, .f32⟩ : BufTy).Contents (Elt Ideal)) = W (Proc.devRef .tc main_arg6) := by
  dsimp only [wB]; after_results_simp
theorem wB_keep_arg7 : (after wB W (Proc.devRef .tc main_arg7) : (⟨S128x64, .f32⟩ : BufTy).Contents (Elt Ideal)) = W (Proc.devRef .tc main_arg7) := by
  dsimp only [wB]; after_results_simp
theorem wB_keep_arg8 : (after wB W (Proc.devRef .tc main_arg8) : (⟨S64, .f32⟩ : BufTy).Contents (Elt Ideal)) = W (Proc.devRef .tc main_arg8) := by
  dsimp only [wB]; after_results_simp

/-! ## Stretch C: the edge normalisation -/

theorem wC_v35 (h3 : (W (Proc.devRef .tc main_v3) : (⟨S1700000, .i32⟩ : BufTy).Contents (Elt Ideal)) = val_main_v3 (F := Ideal) x1) (h6 : (W (Proc.devRef .tc main_v6) : (⟨S1700000, .i32⟩ : BufTy).Contents (Elt Ideal)) = val_main_v6 (F := Ideal) x1) (h8 : (W (Proc.devRef .tc main_v8) : (⟨S1700000, .f32⟩ : BufTy).Contents (Elt Ideal)) = val_main_v8 (F := Ideal) x2) (h19 : (W (Proc.devRef .tc main_v19) : (⟨S100000, .f32⟩ : BufTy).Contents (Elt Ideal)) = val_main_v19 (F := Ideal) x1 x2) :
    (after wC W (Proc.devRef .tc main_v35) : (⟨S1700000, .f32⟩ : BufTy).Contents (Elt Ideal)) = val_main_v35 (F := Ideal) x1 x2 := by
  dsimp only [wC]; after_results_simp; rw [h3, h6, h8, h19]; rfl
theorem wC_keep_v3 : (after wC W (Proc.devRef .tc main_v3) : (⟨S1700000, .i32⟩ : BufTy).Contents (Elt Ideal)) = W (Proc.devRef .tc main_v3) := by
  dsimp only [wC]; after_results_simp
theorem wC_keep_v6 : (after wC W (Proc.devRef .tc main_v6) : (⟨S1700000, .i32⟩ : BufTy).Contents (Elt Ideal)) = W (Proc.devRef .tc main_v6) := by
  dsimp only [wC]; after_results_simp
theorem wC_keep_v8 : (after wC W (Proc.devRef .tc main_v8) : (⟨S1700000, .f32⟩ : BufTy).Contents (Elt Ideal)) = W (Proc.devRef .tc main_v8) := by
  dsimp only [wC]; after_results_simp
theorem wC_keep_v9 : (after wC W (Proc.devRef .tc main_v9) : (⟨S100000x128, .f32⟩ : BufTy).Contents (Elt Ideal)) = W (Proc.devRef .tc main_v9) := by
  dsimp only [wC]; after_results_simp
theorem wC_keep_arg4 : (after wC W (Proc.devRef .tc main_arg4) : (⟨S128, .f32⟩ : BufTy).Contents (Elt Ideal)) = W (Proc.devRef .tc main_arg4) := by
  dsimp only [wC]; after_results_simp
theorem wC_keep_arg5 : (after wC W (Proc.devRef .tc main_arg5) : (⟨S128, .f32⟩ : BufTy).Contents (Elt Ideal)) = W (Proc.devRef .tc main_arg5) := by
  dsimp only [wC]; after_results_simp
theorem wC_keep_arg6 : (after wC W (Proc.devRef .tc main_arg6) : (⟨S128, .f32⟩ : BufTy).Contents (Elt Ideal)) = W (Proc.devRef .tc main_arg6) := by
  dsimp only [wC]; after_results_simp
theorem wC_keep_arg7 : (after wC W (Proc.devRef .tc main_arg7) : (⟨S128x64, .f32⟩ : BufTy).Contents (Elt Ideal)) = W (Proc.devRef .tc main_arg7) := by
  dsimp only [wC]; after_results_simp
theorem wC_keep_arg8 : (after wC W (Proc.devRef .tc main_arg8) : (⟨S64, .f32⟩ : BufTy).Contents (Elt Ideal)) = W (Proc.devRef .tc main_arg8) := by
  dsimp only [wC]; after_results_simp

/-! ## Stretch D: the first layer's messages gathered, scaled, summed per target node, and the first bias added -/

theorem wD_v51 (h3 : (W (Proc.devRef .tc main_v3) : (⟨S1700000, .i32⟩ : BufTy).Contents (Elt Ideal)) = val_main_v3 (F := Ideal) x1) (h6 : (W (Proc.devRef .tc main_v6) : (⟨S1700000, .i32⟩ : BufTy).Contents (Elt Ideal)) = val_main_v6 (F := Ideal) x1) (h9 : (W (Proc.devRef .tc main_v9) : (⟨S100000x128, .f32⟩ : BufTy).Contents (Elt Ideal)) = val_main_v9 (F := Ideal) x0 x3) (h35 : (W (Proc.devRef .tc main_v35) : (⟨S1700000, .f32⟩ : BufTy).Contents (Elt Ideal)) = val_main_v35 (F := Ideal) x1 x2) (h4 : (W (Proc.devRef .tc main_arg4) : (⟨S128, .f32⟩ : BufTy).Contents (Elt Ideal)) = x4) :
    (after wD W (Proc.devRef .tc main_v51) : (⟨S100000x128, .f32⟩ : BufTy).Contents (Elt Ideal)) = val_main_v51 (F := Ideal) x0 x1 x2 x3 x4 := by
  dsimp only [wD]; after_results_simp; rw [h3, h6, h9, h35, h4]; rfl
theorem wD_keep_v3 : (after wD W (Proc.devRef .tc main_v3) : (⟨S1700000, .i32⟩ : BufTy).Contents (Elt Ideal)) = W (Proc.devRef .tc main_v3) := by
  dsimp only [wD]; after_results_simp
theorem wD_keep_v6 : (after wD W (Proc.devRef .tc main_v6) : (⟨S1700000, .i32⟩ : BufTy).Contents (Elt Ideal)) = W (Proc.devRef .tc main_v6) := by
  dsimp only [wD]; after_results_simp
theorem wD_keep_v8 : (after wD W (Proc.devRef .tc main_v8) : (⟨S1700000, .f32⟩ : BufTy).Contents (Elt Ideal)) = W (Proc.devRef .tc main_v8) := by
  dsimp only [wD]; after_results_simp
theorem wD_keep_arg5 : (after wD W (Proc.devRef .tc main_arg5) : (⟨S128, .f32⟩ : BufTy).Contents (Elt Ideal)) = W (Proc.devRef .tc main_arg5) := by
  dsimp only [wD]; after_results_simp
theorem wD_keep_arg6 : (after wD W (Proc.devRef .tc main_arg6) : (⟨S128, .f32⟩ : BufTy).Contents (Elt Ideal)) = W (Proc.devRef .tc main_arg6) := by
  dsimp only [wD]; after_results_simp
theorem wD_keep_arg7 : (after wD W (Proc.devRef .tc main_arg7) : (⟨S128x64, .f32⟩ : BufTy).Contents (Elt Ideal)) = W (Proc.devRef .tc main_arg7) := by
  dsimp only [wD]; after_results_simp
theorem wD_keep_arg8 : (after wD W (Proc.devRef .tc main_arg8) : (⟨S64, .f32⟩ : BufTy).Contents (Elt Ideal)) = W (Proc.devRef .tc main_arg8) := by
  dsimp only [wD]; after_results_simp

end Cert.Val

end
-- ==== Proof.Val.RefAfter2.lean ====
/-
  The second half of the reference's host operations, stretch by stretch. Each lemma is over the buffer contents before
  the stretch as a variable: given what the buffers it reads hold (earlier stages of the reference, or an argument
  array), the buffer it is read for holds the corresponding later stage; and a stretch leaves alone every buffer it
  does not write. The stretches: the batch normalisation and rectification; the second matrix product with the edge
  normalisation computed once more; the second aggregation with its bias; the row-wise log-softmax.

  An operation of an inlined function moves contents to its buffer's type and back; these moves are identities and
  are removed before the two sides are compared. Where a stretch is long its stages are opened on the stage's side
  too, and the stage it starts from is made a variable, so that the comparison is of two equal trees of operations.
-/
import proofs.«108080_j74191265071850_1_alg».proof.Proof.Val.RefWindows
import proofs.«108080_j74191265071850_1_alg».proof.Proof.Val.RefReadP
import proofs.«108080_j74191265071850_1_alg».proof.Proof.Val.RefCasts
import Idealize.ShloMosaic.Lib.StableHlo.Run

noncomputable section

namespace Cert.Val

open Cert.ReferenceIdeal Cert.ReferenceIdeal.Gen Cert.ReferenceIdeal.ReadP Idealize.ShloMosaic Idealize.ShloMosaic.TcCoe
  Idealize.SL.Sem Idealize.ShloMosaic.StableHlo

variable (W : Valuation τ sig (Elt Ideal))
  (x0 : (⟨S100000x128, .f32⟩ : BufTy).Contents (Elt Ideal))
  (x1 : (⟨S2x1600000, .i32⟩ : BufTy).Contents (Elt Ideal))
  (x2 : (⟨S1600000, .f32⟩ : BufTy).Contents (Elt Ideal))
  (x3 : (⟨S128x128, .f32⟩ : BufTy).Contents (Elt Ideal))
  (x4 x5 x6 : (⟨S128, .f32⟩ : BufTy).Contents (Elt Ideal))
  (x7 : (⟨S128x64, .f32⟩ : BufTy).Contents (Elt Ideal))
  (x8 : (⟨S64, .f32⟩ : BufTy).Contents (Elt Ideal))

/-! ## The batch normalisation and the rectification -/

theorem wE_v77
    (h51 : (W (Proc.devRef .tc main_v51) : (⟨S100000x128, .f32⟩ : BufTy).Contents (Elt Ideal)) = val_main_v51 (F := Ideal) x0 x1 x2 x3 x4)
    (h5 : (W (Proc.devRef .tc main_arg5) : (⟨S128, .f32⟩ : BufTy).Contents (Elt Ideal)) = x5)
    (h6 : (W (Proc.devRef .tc main_arg6) : (⟨S128, .f32⟩ : BufTy).Contents (Elt Ideal)) = x6) :
    (StableHlo.after (wE (F := Ideal)) W (Proc.devRef .tc main_v77) : (⟨S100000x128, .f32⟩ : BufTy).Contents (Elt Ideal)) = val_main_v77 (F := Ideal) x0 x1 x2 x3 x4 x5 x6 := by
  dsimp only [wE]
  after_results_simp
  rw [h51, h5, h6]
  strip_tref_casts
  unfold val_main_v77 val_main_call2_v0 val_main_call2_cst val_main_v76 val_main_v75 val_main_v74 val_main_v73 val_main_v72 val_main_v71 val_main_v70 val_main_v69 val_main_v68 val_main_v67 val_main_v66 val_main_v65 val_main_cst_15 val_main_v64 val_main_v63 val_main_v62 val_main_v61 val_main_v60 val_main_cst_14 val_main_v59 val_main_cst_13 val_main_v58 val_main_v57 val_main_v56 val_main_v55 val_main_v54 val_main_v53 val_main_cst_12 val_main_v52 val_main_cst_11
  generalize val_main_v51 (F := Ideal) x0 x1 x2 x3 x4 = y
  rfl

theorem wE_keep_v3 :
    (StableHlo.after (wE (F := Ideal)) W (Proc.devRef .tc main_v3) : (⟨S1700000, .i32⟩ : BufTy).Contents (Elt Ideal)) = W (Proc.devRef .tc main_v3) := by
  dsimp only [wE]
  after_results_simp

theorem wE_keep_v6 :
    (StableHlo.after (wE (F := Ideal)) W (Proc.devRef .tc main_v6) : (⟨S1700000, .i32⟩ : BufTy).Contents (Elt Ideal)) = W (Proc.devRef .tc main_v6) := by
  dsimp only [wE]
  after_results_simp

theorem wE_keep_v8 :
    (StableHlo.after (wE (F := Ideal)) W (Proc.devRef .tc main_v8) : (⟨S1700000, .f32⟩ : BufTy).Contents (Elt Ideal)) = W (Proc.devRef .tc main_v8) := by
  dsimp only [wE]
  after_results_simp

theorem wE_keep_arg7 :
    (StableHlo.after (wE (F := Ideal)) W (Proc.devRef .tc main_arg7) : (⟨S128x64, .f32⟩ : BufTy).Contents (Elt Ideal)) = W (Proc.devRef .tc main_arg7) := by
  dsimp only [wE]
  after_results_simp

theorem wE_keep_arg8 :
    (StableHlo.after (wE (F := Ideal)) W (Proc.devRef .tc main_arg8) : (⟨S64, .f32⟩ : BufTy).Contents (Elt Ideal)) = W (Proc.devRef .tc main_arg8) := by
  dsimp only [wE]
  after_results_simp

/-! ## The second matrix product, and the edge normalisation once more -/

theorem wF_v78
    (h77 : (W (Proc.devRef .tc main_v77) : (⟨S100000x128, .f32⟩ : BufTy).Contents (Elt Ideal)) = val_main_v77 (F := Ideal) x0 x1 x2 x3 x4 x5 x6)
    (h7 : (W (Proc.devRef .tc main_arg7) : (⟨S128x64, .f32⟩ : BufTy).Contents (Elt Ideal)) = x7) :
    (StableHlo.after (wF (F := Ideal)) W (Proc.devRef .tc main_v78) : (⟨S100000x64, .f32⟩ : BufTy).Contents (Elt Ideal)) = val_main_v78 (F := Ideal) x0 x1 x2 x3 x4 x5 x6 x7 := by
  dsimp only [wF]
  after_results_simp
  rw [h77, h7]
  rfl

theorem wF_v104
    (h3 : (W (Proc.devRef .tc main_v3) : (⟨S1700000, .i32⟩ : BufTy).Contents (Elt Ideal)) = val_main_v3 (F := Ideal) x1)
    (h6 : (W (Proc.devRef .tc main_v6) : (⟨S1700000, .i32⟩ : BufTy).Contents (Elt Ideal)) = val_main_v6 (F := Ideal) x1)
    (h8 : (W (Proc.devRef .tc main_v8) : (⟨S1700000, .f32⟩ : BufTy).Contents (Elt Ideal)) = val_main_v8 (F := Ideal) x2) :
    (StableHlo.after (wF (F := Ideal)) W (Proc.devRef .tc main_v104) : (⟨S1700000, .f32⟩ : BufTy).Contents (Elt Ideal)) = val_main_v104 (F := Ideal) x1 x2 := by
  dsimp only [wF]
  after_results_simp
  rw [h3, h6, h8]
  strip_tref_casts
  unfold val_main_v104 val_main_v103 val_main_v102 val_main_v101 val_main_v100 val_main_v99 val_main_c_24 val_main_v98 val_main_v97 val_main_c_23 val_main_v96 val_main_v95 val_main_v94 val_main_v93 val_main_v92 val_main_v91 val_main_c_22 val_main_v90 val_main_v89 val_main_c_21 val_main_v88 val_main_call4_v1 val_main_call4_v0 val_main_cst_20 val_main_v87 val_main_v86 val_main_call3_v1 val_main_call3_v0 val_main_cst_19 val_main_v85 val_main_v84 val_main_cst_18 val_main_v83 val_main_v82 val_main_cst_17 val_main_v81 val_main_v80 val_main_v79 val_main_cst_16
  generalize val_main_v3 (F := Ideal) x1 = y3
  generalize val_main_v6 (F := Ideal) x1 = y6
  generalize val_main_v8 (F := Ideal) x2 = y8
  rfl

theorem wF_keep_v3 :
    (StableHlo.after (wF (F := Ideal)) W (Proc.devRef .tc main_v3) : (⟨S1700000, .i32⟩ : BufTy).Contents (Elt Ideal)) = W (Proc.devRef .tc main_v3) := by
  dsimp only [wF]
  after_results_simp

theorem wF_keep_v6 :
    (StableHlo.after (wF (F := Ideal)) W (Proc.devRef .tc main_v6) : (⟨S1700000, .i32⟩ : BufTy).Contents (Elt Ideal)) = W (Proc.devRef .tc main_v6) := by
  dsimp only [wF]
  after_results_simp

theorem wF_keep_arg8 :
    (StableHlo.after (wF (F := Ideal)) W (Proc.devRef .tc main_arg8) : (⟨S64, .f32⟩ : BufTy).Contents (Elt Ideal)) = W (Proc.devRef .tc main_arg8) := by
  dsimp only [wF]
  after_results_simp

/-! ## The second aggregation and its bias -/

theorem wG_v120
    (h3 : (W (Proc.devRef .tc main_v3) : (⟨S1700000, .i32⟩ : BufTy).Contents (Elt Ideal)) = val_main_v3 (F := Ideal) x1)
    (h6 : (W (Proc.devRef .tc main_v6) : (⟨S1700000, .i32⟩ : BufTy).Contents (Elt Ideal)) = val_main_v6 (F := Ideal) x1)
    (h78 : (W (Proc.devRef .tc main_v78) : (⟨S100000x64, .f32⟩ : BufTy).Contents (Elt Ideal)) = val_main_v78 (F := Ideal) x0 x1 x2 x3 x4 x5 x6 x7)
    (h104 : (W (Proc.devRef .tc main_v104) : (⟨S1700000, .f32⟩ : BufTy).Contents (Elt Ideal)) = val_main_v104 (F := Ideal) x1 x2)
    (h8 : (W (Proc.devRef .tc main_arg8) : (⟨S64, .f32⟩ : BufTy).Contents (Elt Ideal)) = x8) :
    (StableHlo.after (wG (F := Ideal)) W (Proc.devRef .tc main_v120) : (⟨S100000x64, .f32⟩ : BufTy).Contents (Elt Ideal)) = val_main_v120 (F := Ideal) x0 x1 x2 x3 x4 x5 x6 x7 x8 := by
  dsimp only [wG]
  after_results_simp
  rw [h3, h6, h78, h104, h8]
  rfl

/-! ## The row-wise log-softmax -/

theorem wH_v121
    (h120 : (W (Proc.devRef .tc main_v120) : (⟨S100000x64, .f32⟩ : BufTy).Contents (Elt Ideal)) = val_main_v120 (F := Ideal) x0 x1 x2 x3 x4 x5 x6 x7 x8) :
    (StableHlo.after (wH (F := Ideal)) W (Proc.devRef .tc main_v121) : (⟨S100000x64, .f32⟩ : BufTy).Contents (Elt Ideal)) = val_main_v121 (F := Ideal) x0 x1 x2 x3 x4 x5 x6 x7 x8 := by
  dsimp only [wH]
  after_results_simp
  rw [h120]
  strip_tref_casts
  rfl

end Cert.Val

end
-- ==== Proof.Val.RefAfter.lean ====
import proofs.«108080_j74191265071850_1_alg».proof.Proof.Val.RefRunP
import proofs.«108080_j74191265071850_1_alg».proof.Proof.Val.RefWindows
import proofs.«108080_j74191265071850_1_alg».proof.Proof.Val.RefAfter1
import proofs.«108080_j74191265071850_1_alg».proof.Proof.Val.RefAfter2
import proofs.«108080_j74191265071850_1_alg».proof.Proof.Val.RefReadP

/-! The reference program's 176 operations, folded over the launch contents, leave in the result buffer the last stage
of the program read operation by operation. The list is the eight stretches joined; the fold over a joined list is
the fold over the second part of the fold over the first; and each stretch, read on its own over the contents before
it, hands the next one the buffers it reads, each at its stage. -/

noncomputable section

namespace Cert.Val

open Cert.ReferenceIdeal Cert.ReferenceIdeal.Gen Cert.ReferenceIdeal.ReadP Idealize.ShloMosaic Idealize.ShloMosaic.TcCoe Idealize.SL.Sem Idealize.ShloMosaic.StableHlo

/-- The contents after two lists of operations run one after the other are those after the second, from those after
    the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 8192 in
/-- The program's list of operations is its eight stretches, joined in order. -/
theorem ops_eq_windows : (Cert.ReferenceIdeal.ValueP.ops (F := Ideal)) = wA ++ wB ++ wC ++ wD ++ wE ++ wF ++ wG ++ wH := rfl

/-- The fold of the reference program's operations over the launch contents holds, in the result buffer, the program's
    last stage as a function of the nine argument arrays. -/
theorem after_ops (m : (ℓ : Loc nD τ sig) → Buf (Elt Ideal) ℓ) (c : Dev nD) :
    (after (Cert.ReferenceIdeal.ValueP.ops (F := Ideal)) (fun b => m ((c.tc : Thread nD τ).1, b)) (Proc.devRef .tc main_v121) : (⟨S100000x64, .f32⟩ : BufTy).Contents (Elt Ideal))
      = val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_eq_windows]
  simp only [after_append]
  generalize hW0 : (fun b => m ((c.tc : Thread nD τ).1, b) : Valuation τ sig (Elt Ideal)) = W0
  have a0 : W0 (Proc.devRef .tc main_arg0) = (m ((c.tc : Thread nD τ).loc main_arg0)) := by subst hW0; rfl
  have a1 : W0 (Proc.devRef .tc main_arg1) = (m ((c.tc : Thread nD τ).loc main_arg1)) := by subst hW0; rfl
  have a2 : W0 (Proc.devRef .tc main_arg2) = (m ((c.tc : Thread nD τ).loc main_arg2)) := by subst hW0; rfl
  have a3 : W0 (Proc.devRef .tc main_arg3) = (m ((c.tc : Thread nD τ).loc main_arg3)) := by subst hW0; rfl
  have a4 : W0 (Proc.devRef .tc main_arg4) = (m ((c.tc : Thread nD τ).loc main_arg4)) := by subst hW0; rfl
  have a5 : W0 (Proc.devRef .tc main_arg5) = (m ((c.tc : Thread nD τ).loc main_arg5)) := by subst hW0; rfl
  have a6 : W0 (Proc.devRef .tc main_arg6) = (m ((c.tc : Thread nD τ).loc main_arg6)) := by subst hW0; rfl
  have a7 : W0 (Proc.devRef .tc main_arg7) = (m ((c.tc : Thread nD τ).loc main_arg7)) := by subst hW0; rfl
  have a8 : W0 (Proc.devRef .tc main_arg8) = (m ((c.tc : Thread nD τ).loc main_arg8)) := by subst hW0; rfl
  -- after stretch A
  have A3 := wA_v3 W0 _ a1
  have A6 := wA_v6 W0 _ a1
  have A8 := wA_v8 W0 _ a2
  have A9 := wA_v9 W0 _ _ a0 a3
  have A4a := (wA_keep_arg4 W0).trans a4
  have A5a := (wA_keep_arg5 W0).trans a5
  have A6a := (wA_keep_arg6 W0).trans a6
  have A7a := (wA_keep_arg7 W0).trans a7
  have A8a := (wA_keep_arg8 W0).trans a8
  generalize after wA W0 = W1 at *
  -- after stretch B
  have B19 := wB_v19 W1 _ _ A6 A8
  have B3 := (wB_keep_v3 W1).trans A3
  have B6 := (wB_keep_v6 W1).trans A6
  have B8 := (wB_keep_v8 W1).trans A8
  have B9 := (wB_keep_v9 W1).trans A9
  have B4a := (wB_keep_arg4 W1).trans A4a
  have B5a := (wB_keep_arg5 W1).trans A5a
  have B6a := (wB_keep_arg6 W1).trans A6a
  have B7a := (wB_keep_arg7 W1).trans A7a
  have B8a := (wB_keep_arg8 W1).trans A8a
  generalize after wB W1 = W2 at *
  -- after stretch C
  have C35 := wC_v35 W2 _ _ B3 B6 B8 B19
  have C3 := (wC_keep_v3 W2).trans B3
  have C6 := (wC_keep_v6 W2).trans B6
  have C8 := (wC_keep_v8 W2).trans B8
  have C9 := (wC_keep_v9 W2).trans B9
  have C4a := (wC_keep_arg4 W2).trans B4a
  have C5a := (wC_keep_arg5 W2).trans B5a
  have C6a := (wC_keep_arg6 W2).trans B6a
  have C7a := (wC_keep_arg7 W2).trans B7a
  have C8a := (wC_keep_arg8 W2).trans B8a
  generalize after wC W2 = W3 at *
  -- after stretch D
  have D51 := wD_v51 W3 _ _ _ _ _ C3 C6 C9 C35 C4a
  have D3 := (wD_keep_v3 W3).trans C3
  have D6 := (wD_keep_v6 W3).trans C6
  have D8 := (wD_keep_v8 W3).trans C8
  have D5a := (wD_keep_arg5 W3).trans C5a
  have D6a := (wD_keep_arg6 W3).trans C6a
  have D7a := (wD_keep_arg7 W3).trans C7a
  have D8a := (wD_keep_arg8 W3).trans C8a
  generalize after wD W3 = W4 at *
  -- after stretch E
  have E77 := wE_v77 W4 _ _ _ _ _ _ _ D51 D5a D6a
  have E3 := (wE_keep_v3 W4).trans D3
  have E6 := (wE_keep_v6 W4).trans D6
  have E8 := (wE_keep_v8 W4).trans D8
  have E7a := (wE_keep_arg7 W4).trans D7a
  have E8a := (wE_keep_arg8 W4).trans D8a
  generalize after wE W4 = W5 at *
  -- after stretch F
  have F78 := wF_v78 W5 _ _ _ _ _ _ _ _ E77 E7a
  have F104 := wF_v104 W5 _ _ E3 E6 E8
  have F3 := (wF_keep_v3 W5).trans E3
  have F6 := (wF_keep_v6 W5).trans E6
  have F8a := (wF_keep_arg8 W5).trans E8a
  generalize after wF W5 = W6 at *
  -- after stretch G
  have G120 := wG_v120 W6 _ _ _ _ _ _ _ _ _ F3 F6 F78 F104 F8a
  generalize after wG W6 = W7 at *
  -- after stretch H
  exact wH_v121 W7 _ _ _ _ _ _ _ _ _ G120

end Cert.Val

end
-- ==== Proof.Val.Keep.lean ====
/- Which buffers reach a later item of the program unchanged: a stretch of host operations leaves alone every buffer
   it does not write, a region changes its output arrays only; composed along the program for the buffers the
   regions' value statements read. -/
import proofs.«108080_j74191265071850_1_alg».proof.Proof.KI.Run

set_option maxRecDepth 16384

noncomputable section

namespace Cert.Val

open Cert.KernelIdeal Cert.KernelIdeal.Gen Cert.KernelIdeal.Hand
open Idealize.ShloMosaic Idealize.ShloMosaic.TcCoe
open Idealize.SL Idealize.SL.Sem

variable {F : FTy → Type} [FloatOps F]
variable (m : (ℓ : Loc nD τ sig) → Buf (Elt F) ℓ) (c : Dev nD)

/-! ## A host stretch leaves alone what it does not write -/

theorem X7_keep (r : Ref sig .tc) (h : r ∉ hostOps1_W) : X7 m c r = X6 m c r :=
  StableHlo.after_of_writes_sub hostOps1 _ hostOps1_writes h
theorem X9_keep (r : Ref sig .tc) (h : r ∉ hostOps2_W) : X9 m c r = X8 m c r :=
  StableHlo.after_of_writes_sub hostOps2 _ hostOps2_writes h
theorem X12_keep (r : Ref sig .tc) (h : r ∉ hostOps4_W) : X12 m c r = X11 m c r :=
  StableHlo.after_of_writes_sub hostOps4 _ hostOps4_writes h

/-! ## Buffers that reach a later item as an earlier one left them -/

theorem X6_v3 : X6 m c main_v3 = V5 m c main_v3 := X6_of m c main_v3 (by decide)
theorem X11_v3 : X11 m c main_v3 = V5 m c main_v3 :=
  (X11_of m c main_v3 (by decide)).trans <| (X10_of m c main_v3 (by decide)).trans <| (X9_keep m c main_v3 (by decide)).trans <| (X8_of m c main_v3 (by decide)).trans <| (X7_keep m c main_v3 (by decide)).trans <| X6_of m c main_v3 (by decide)
theorem X6_v6 : X6 m c main_v6 = V5 m c main_v6 := X6_of m c main_v6 (by decide)
theorem X11_v6 : X11 m c main_v6 = V5 m c main_v6 :=
  (X11_of m c main_v6 (by decide)).trans <| (X10_of m c main_v6 (by decide)).trans <| (X9_keep m c main_v6 (by decide)).trans <| (X8_of m c main_v6 (by decide)).trans <| (X7_keep m c main_v6 (by decide)).trans <| X6_of m c main_v6 (by decide)
theorem X6_v34 : X6 m c main_v34 = V5 m c main_v34 := X6_of m c main_v34 (by decide)
theorem X11_v34 : X11 m c main_v34 = V5 m c main_v34 :=
  (X11_of m c main_v34 (by decide)).trans <| (X10_of m c main_v34 (by decide)).trans <| (X9_keep m c main_v34 (by decide)).trans <| (X8_of m c main_v34 (by decide)).trans <| (X7_keep m c main_v34 (by decide)).trans <| X6_of m c main_v34 (by decide)

/-! ## Arguments no item before has written -/

theorem X6_arg4 : X6 m c main_arg4 = m ((c : Thread nD τ).loc main_arg4) :=
  (X6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem X8_arg4 : X8 m c main_arg4 = m ((c : Thread nD τ).loc main_arg4) :=
  (X8_of m c main_arg4 (by decide)).trans <| (X7_keep m c main_arg4 (by decide)).trans <| (X6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem X6_arg5 : X6 m c main_arg5 = m ((c : Thread nD τ).loc main_arg5) :=
  (X6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem X8_arg5 : X8 m c main_arg5 = m ((c : Thread nD τ).loc main_arg5) :=
  (X8_of m c main_arg5 (by decide)).trans <| (X7_keep m c main_arg5 (by decide)).trans <| (X6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem X6_arg6 : X6 m c main_arg6 = m ((c : Thread nD τ).loc main_arg6) :=
  (X6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
theorem X8_arg6 : X8 m c main_arg6 = m ((c : Thread nD τ).loc main_arg6) :=
  (X8_of m c main_arg6 (by decide)).trans <| (X7_keep m c main_arg6 (by decide)).trans <| (X6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
theorem X10_arg7 : X10 m c main_arg7 = m ((c : Thread nD τ).loc main_arg7) :=
  (X10_of m c main_arg7 (by decide)).trans <| (X9_keep m c main_arg7 (by decide)).trans <| (X8_of m c main_arg7 (by decide)).trans <| (X7_keep m c main_arg7 (by decide)).trans <| (X6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl
theorem X11_arg8 : X11 m c main_arg8 = m ((c : Thread nD τ).loc main_arg8) :=
  (X11_of m c main_arg8 (by decide)).trans <| (X10_of m c main_arg8 (by decide)).trans <| (X9_keep m c main_arg8 (by decide)).trans <| (X8_of m c main_arg8 (by decide)).trans <| (X7_keep m c main_arg8 (by decide)).trans <| (X6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl
theorem V5_arg0 : V5 m c main_arg0 = m ((c : Thread nD τ).loc main_arg0) :=
  (V5_of m c main_arg0 (by decide)).trans <| (V4_of m c main_arg0 (by decide)).trans <| (V3_of m c main_arg0 (by decide)).trans <| (V2_of m c main_arg0 (by decide)).trans <| (V1_of m c main_arg0 (by decide)).trans <| rfl
theorem V5_arg3 : V5 m c main_arg3 = m ((c : Thread nD τ).loc main_arg3) :=
  (V5_of m c main_arg3 (by decide)).trans <| (V4_of m c main_arg3 (by decide)).trans <| (V3_of m c main_arg3 (by decide)).trans <| (V2_of m c main_arg3 (by decide)).trans <| (V1_of m c main_arg3 (by decide)).trans <| rfl

/-! ## What region 2 reads of regions 0 and 1 -/

theorem X9_v48 : X9 m c main_v48 = X7 m c main_v48 := (X9_keep m c main_v48 (by decide)).trans <| X8_of m c main_v48 (by decide)
theorem X9_v50_0 : X9 m c main_v50_0 = o8_0 m c := (X9_keep m c main_v50_0 (by decide)).trans (X8_out_0 m c)
theorem X9_v50_1 : X9 m c main_v50_1 = o8_1 m c := (X9_keep m c main_v50_1 (by decide)).trans (X8_out_1 m c)

end Cert.Val

end
-- ==== Proof.Val.Spec.lean ====
/-
  The five kernel regions as whole-array functions on the extended reals, index by index.

  Each region of the program is a 50-point pipeline over blocks of 2000 rows; what it leaves in its output array is a
  function of the arrays it reads that does not mention blocks at all. These are those functions: a matrix product
  (regions 0 and 3); the column means and variances of the rows shifted by a bias row (region 1: the mean of h and the
  mean of h·h minus the squared mean, h = a + b); the normalised, scaled, shifted and rectified rows (region 2); and
  the row-wise log-softmax of the rows shifted by a bias row (region 4).
-/
import Idealize.ShloMosaic.PureOps.Ideal
import Idealize.ShloMosaic.Lib.ValueIdx

noncomputable section

namespace Cert.Val

open Idealize.ShloMosaic Idealize.ShloMosaic.ValueIdx

/-- An r x c array of extended reals. -/
abbrev Mat (r c : ℕ) : Type := (⟨2, ![r, c]⟩ : Shape).Idx → EReal

/-- A length-c vector as a 1 x c row. -/
def rowOf {c : ℕ} (x : (⟨1, ![c]⟩ : Shape).Idx → EReal) : Mat 1 c := fun i => x (ix1 (i 1))

/-- An extended real that is a real number. -/
def IsFin (x : EReal) : Prop := ∃ r : ℝ, x = (r : EReal)

/-- The matrix product: entry (p, q) is the sum over j of x(p, j) · w(j, q). -/
def lin {r k c : ℕ} (x : Mat r k) (w : Mat k c) : Mat r c :=
  fun i => ∑ j : Fin k, x (ix2 (n0 := r) (n1 := k) (i 0) j) * w (ix2 (n0 := k) (n1 := c) j (i 1))

/-- The divisor of the batch statistics: the number of rows, 100000, as the 32-bit float that denotes it. -/
def nRows : EReal := Ideal.ofBits .f32 0x47C35000#32

/-- The shifted entry h(p, q) = a(p, q) + b(0, q). -/
def shifted {r c : ℕ} (a : Mat r c) (b : Mat 1 c) (p : Fin r) (q : Fin c) : EReal :=
  a (ix2 p q) + b (ix2 (0 : Fin 1) q)

/-- Column means of the shifted rows: (sum over p of h(p, q)) / 100000, as a 1 x c row. -/
def colMean {r c : ℕ} (a : Mat r c) (b : Mat 1 c) : Mat 1 c :=
  fun i => Ideal.div (∑ p : Fin r, shifted a b p (i 1)) nRows

/-- Column variances of the shifted rows in the one-pass form: mean of squares minus squared mean. -/
def colVar {r c : ℕ} (a : Mat r c) (b : Mat 1 c) : Mat 1 c :=
  fun i => Ideal.div (∑ p : Fin r, shifted a b p (i 1) * shifted a b p (i 1)) nRows - colMean a b i * colMean a b i

/-- The small constant added to the variance, as the 32-bit float the program spells. -/
def bnEps : EReal := Ideal.ofBits .f32 0x3727C5AC#32

/-- Normalise, scale, shift, rectify: max(((h(p,q) − μ(q)) · rsqrt(σ(q) + ε)) · γ(q) + β(q), 0). -/
def bnApply {r c : ℕ} (a : Mat r c) (b μ σ γ β : Mat 1 c) : Mat r c :=
  fun i => max ((((shifted a b (i 0) (i 1) - μ (ix2 (0 : Fin 1) (i 1))) * Ideal.rsqrt (σ (ix2 (0 : Fin 1) (i 1)) + bnEps))
      * γ (ix2 (0 : Fin 1) (i 1))) + β (ix2 (0 : Fin 1) (i 1))) (Ideal.ofBits .f32 0x00000000#32)

/-- The largest shifted entry of row p, folded from −∞ (the float word 0xFF800000). -/
def rowMax {r c : ℕ} (a : Mat r c) (b : Mat 1 c) (p : Fin r) : EReal :=
  Finset.univ.fold max (Ideal.ofBits .f32 0xFF800000#32) (fun q : Fin c => shifted a b p q)

/-- Row-wise log-softmax of the shifted rows: (h(p,q) − M(p)) − log(sum over j of exp(h(p,j) − M(p))). -/
def logSoftmax {r c : ℕ} (a : Mat r c) (b : Mat 1 c) : Mat r c :=
  fun i => (shifted a b (i 0) (i 1) - rowMax a b (i 0))
    - Ideal.log (∑ j : Fin c, Ideal.exp (shifted a b (i 0) j - rowMax a b (i 0)))

end Cert.Val

end
-- ==== Proof.Val.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.Val.Final0.lean ====
import proofs.«108080_j74191265071850_1_alg».proof.Proof.KI.Region0
import proofs.«108080_j74191265071850_1_alg».proof.Proof.Val.Spec
import proofs.«108080_j74191265071850_1_alg».proof.Proof.Val.LibMatmulAt
import Idealize.ShloMosaic.Lib.Pipeline.Value
import Idealize.ShloMosaic.Lib.ValueLayout

/-! Region 0 as a whole-array function: after its 50 points the output array is the matrix product of the
128-column input array and the 128 x 128 weight array, entry by entry over the extended reals. The payload of one point read
at an entry is the sum over the contracted axis of the products (rounding to bfloat16 is the identity on extended
reals); point `t` reads rows `2000 t .. 2000 t + 1999` of the input and the whole weight array and writes the same rows
of the output; row `r` is written by point `r / 2000`. -/

set_option maxRecDepth 16384

noncomputable section

namespace Cert.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

-- the buffer contents when the region is entered, at the extended reals
variable (V : (c : Dev nD) → (b : Ref sig .tc) → Buf (Elt Ideal) ((c : Thread nD τ).loc b))

theorem hz0 : (![0, 0] : Fin 2 → Nat) = fun _ => 0 := funext fun a => by fin_cases a <;> rfl

/-! ## The payload at an entry -/

/-- One point's payload at row `p`, column `q` of the block: the sum over `k` of input `(p, k)` times weight `(k, q)`. -/
theorem pay0_at (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  exact Cert.LibMatmulAt.matmul_zero_apply dot_S2000x128_S128x128_S2000x128_1_0_0_1_n_n rfl rfl rfl rfl rfl rfl none _ _ p q

/-- The payload at a block entry `j` is the whole-array product at an array entry `i`, when the input block's row
    `j 0` is the array's row `i 0` and the weight block's column `j 1` is the weight array's column `i 1`. -/
theorem blk0_at (x0 : Vec Ideal S2000x128 .f32) (x1 : Vec Ideal S128x128 .f32) (A : Mat 100000 128) (W : Mat 128 128)
    (j : S2000x128.Idx) (i : S100000x128.Idx)
    (h0 : ∀ k : Fin 128, x0 (ix2 (j 0) k) = A (ix2 (i 0) k))
    (h1 : ∀ k : Fin 128, x1 (ix2 k (j 1)) = W (ix2 k (i 1))) :
    k0_pay1 (F := Ideal) x0 x1 j = lin A W i := by
  obtain ⟨p, q, rfl⟩ : ∃ (p : Fin 2000) (q : Fin 128), j = ix2 p q := ⟨j 0, j 1, eq_ix2 j⟩
  refine (pay0_at x0 x1 p q).trans ?_
  unfold lin
  exact Finset.sum_congr rfl fun k _ => congrArg₂ (· * ·) (h0 k) (h1 k)

/-! ## The index maps, decided over the 50 points -/

/-- The input and output windows sit at block row `t`, block column 0; the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What point `t` writes back -/

/-- Point `t` writes back block `t` of the product of the arrays as the region finds them. -/
theorem flushed0_eq (c : Dev nD) (t : Fin cfg0.N) :
    (dat0 (F := Ideal) V c).flushed 2 t = ((cfg0.win 2).blk t).view.read (Elt Ideal) (lin (V c main_arg0) (V c main_arg3)) := by
  show (cfg0.win 2).cut (grid0.coords t) ((dat0 (F := Ideal) V c).after 2 t) = _
  rw [after0_2]
  unfold out0_2
  rw [View.canon_unit_zero hz0]
  simp only [View.ld_unit_zero (S := S2000x128) hz0, View.ld_unit_zero (S := S128x128) hz0]
  obtain ⟨e0, e1, e2, e3, e4, e5⟩ := idx_facts0 t
  funext j
  refine blk0_at (iblk0 V c 0 t) (iblk0 V c 1 t) (V c main_arg0) (V c main_arg3) j (((cfg0.win 2).blk t).view.emb j) ?_ ?_
  · intro k
    show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · intro k
    show V c main_arg3 (((cfg0.win 1).blk t).view.emb (ix2 k (j 1))) = V c main_arg3 (ix2 k ((((cfg0.win 2).blk t).view.emb j) 1))
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-! ## The output's blocks cover its array -/

/-- An entry of the output array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v35).slice (win0_2.rect t)).set ↔ _
  rw [View.set_slice_whole, Rect.mem_set_unit]
  exact Iff.rfl

/-- Row `r` of the output array is written by point `r / 2000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-! ## The array after the region -/

/-- After the region's 50 points the output array is the matrix product of the two arrays it read, as the region
    found them. -/
theorem final0 (c : Dev nD) : ((dat0 (F := Ideal) V c).arrAt 2 cfg0.N : Mat 100000 128) = lin (V c main_arg0) (V c main_arg3) :=
  (dat0 (F := Ideal) V c).arrAt_eq_of_cover 2 (lin (V c main_arg0) (V c main_arg3)) (fun t _ => flushed0_eq V c t) (cover0)

end Cert.Val

end
-- ==== Proof.KI.Region1Value.lean ====
/- Region 1, the VALUES the case runs leave: the pieces each run writes, read back, are the kernel's payloads of
   the point's input blocks and of what the accumulators held — the running column sums after the first point, a
   middle point and the last point, and at the last point the mean and the variance stored into the output windows. -/
import proofs.«108080_j74191265071850_1_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-! ## A middle point: each accumulator receives its payload of the blocks and of what it held -/

theorem sval1_B_0 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 xs1 : Vec F S1x128 .f32) :
    rdS0 (kernelRun1_B c i arg1 harg1 arg2 harg2 arg3 harg3 arg4 harg4 arg5 harg5 arg6 harg6 hc0 hc1 x0 x1 xs0 xs1).1 = k1_pay4 x0 x1 xs0 := by
  show VS1_0.read (Elt F) (VS1_0.writes (Elt F) VS1_0.junk (kernelRun1_B c i arg1 harg1 arg2 harg2 arg3 harg3 arg4 harg4 arg5 harg5 arg6 harg6 hc0 hc1 x0 x1 xs0 xs1).1) = _
  rw [View.read_writes_eq_canon _ _ _ (scover1_B_0 c i arg1 harg1 arg2 harg2 arg3 harg3 arg4 harg4 arg5 harg5 arg6 harg6 hc0 hc1 x0 x1 xs0 xs1)]
  unfold kernelRun1_B
  dsimp only
  sl_unfold_words
  rw [View.canon_cons_unit_zero (S := S1x128) hz2]
  simp only [View.readAt_eq_ld, harg1.read_unread, harg2.read_unread, harg5.read_unread, harg6.read_unread,
    View.ld_unit_zero (S := S1x128) hz2, View.ld_unit_zero (S := S2000x128) hz2]
theorem sval1_B_1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S2000x128 .f32) (x1 : Vec F S1x128 .f32) (xs0 xs1 : Vec F S1x128 .f32) :
    rdS1 (kernelRun1_B c i arg1 harg1 arg2 harg2 arg3 harg3 arg4 harg4 arg5 harg5 arg6 harg6 hc0 hc1 x0 x1 xs0 xs1).2.1 = k1_pay5 x0 x1 xs1 := by
  show VS1_1.read (Elt F) (VS1_1.writes (Elt F) VS1_1.junk (kernelRun1_B c i arg1 harg1 arg2 harg2 arg3 harg3 arg4 harg4 arg5 harg5 arg6 harg6 hc0 hc1 x0 x1 xs0 xs1).2.1) = _
  rw [View.read_writes_eq_canon _ _ _ (scover1_B_1 c i arg1 harg1 arg2 harg2 arg3 harg3 arg4 harg4 arg5 harg5 arg6 harg6 hc0 hc1 x0 x1 xs0 xs1)]
  unfold kernelRun1_B
  dsimp only
  sl_unfold_words
  rw [View.canon_cons_unit_zero (S := S1x128) hz2]
  simp only [View.readAt_eq_ld, harg1.read_unread, harg2.read_unread, harg5.read_unread, harg6.read_unread,
    View.ld_unit_zero (S := S1x128) hz2, View.ld_unit_zero (S := S2000x128) hz2]

/-! ## The first point: the accumulators are reset, then receive their payloads over the reset value -/

theorem sval1_A_0 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) :
    rdS0 (kernelRun1_A c i arg1 harg1 arg2 harg2 arg3 harg3 arg4 harg4 arg5 harg5 arg6 harg6 hc0 hc1 x0 x1).1 = k1_pay4 x0 x1 k1_pay1 := by
  show VS1_0.read (Elt F) (VS1_0.writes (Elt F) VS1_0.junk (kernelRun1_A c i arg1 harg1 arg2 harg2 arg3 harg3 arg4 harg4 arg5 harg5 arg6 harg6 hc0 hc1 x0 x1).1) = _
  rw [View.read_writes_eq_canon _ _ _ (scover1_A_0 c i arg1 harg1 arg2 harg2 arg3 harg3 arg4 harg4 arg5 harg5 arg6 harg6 hc0 hc1 x0 x1)]
  unfold kernelRun1_A
  dsimp only
  sl_unfold_words
  rw [View.canon_cons_unit_zero (S := S1x128) hz2]
  simp only [View.readCov_unit_zero (S := S1x128) _ hz2, View.readAt_eq_ld, harg1.read_unread, harg2.read_unread, harg5.read_unread, harg6.read_unread,
    View.ld_unit_zero (S := S1x128) hz2, View.ld_unit_zero (S := S2000x128) hz2]
theorem sval1_A_1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S2000x128 .f32) (x1 : Vec F S1x128 .f32) :
    rdS1 (kernelRun1_A c i arg1 harg1 arg2 harg2 arg3 harg3 arg4 harg4 arg5 harg5 arg6 harg6 hc0 hc1 x0 x1).2.1 = k1_pay5 x0 x1 k1_pay2 := by
  show VS1_1.read (Elt F) (VS1_1.writes (Elt F) VS1_1.junk (kernelRun1_A c i arg1 harg1 arg2 harg2 arg3 harg3 arg4 harg4 arg5 harg5 arg6 harg6 hc0 hc1 x0 x1).2.1) = _
  rw [View.read_writes_eq_canon _ _ _ (scover1_A_1 c i arg1 harg1 arg2 harg2 arg3 harg3 arg4 harg4 arg5 harg5 arg6 harg6 hc0 hc1 x0 x1)]
  unfold kernelRun1_A
  dsimp only
  sl_unfold_words
  rw [View.canon_cons_unit_zero (S := S1x128) hz2]
  simp only [View.readCov_unit_zero (S := S1x128) _ hz2, View.readAt_eq_ld, harg1.read_unread, harg2.read_unread, harg5.read_unread, harg6.read_unread,
    View.ld_unit_zero (S := S1x128) hz2, View.ld_unit_zero (S := S2000x128) hz2]

/-! ## The last point: the accumulators as at a middle point; the outputs receive mean and variance of the sums -/

theorem sval1_C_0 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) :
    rdS0 (kernelRun1_C c i arg1 harg1 arg2 harg2 arg3 harg3 arg4 harg4 arg5 harg5 arg6 harg6 hc0 hc1 x0 x1 xs0 xs1).2.2.1 = k1_pay4 x0 x1 xs0 := by
  show VS1_0.read (Elt F) (VS1_0.writes (Elt F) VS1_0.junk (kernelRun1_C c i arg1 harg1 arg2 harg2 arg3 harg3 arg4 harg4 arg5 harg5 arg6 harg6 hc0 hc1 x0 x1 xs0 xs1).2.2.1) = _
  rw [View.read_writes_eq_canon _ _ _ (scover1_C_0 c i arg1 harg1 arg2 harg2 arg3 harg3 arg4 harg4 arg5 harg5 arg6 harg6 hc0 hc1 x0 x1 xs0 xs1)]
  unfold kernelRun1_C
  dsimp only
  sl_unfold_words
  rw [View.canon_cons_unit_zero (S := S1x128) hz2]
  simp only [View.readAt_eq_ld, harg1.read_unread, harg2.read_unread, harg5.read_unread, harg6.read_unread,
    View.ld_unit_zero (S := S1x128) hz2, View.ld_unit_zero (S := S2000x128) hz2]
theorem sval1_C_1 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) :
    rdS1 (kernelRun1_C c i arg1 harg1 arg2 harg2 arg3 harg3 arg4 harg4 arg5 harg5 arg6 harg6 hc0 hc1 x0 x1 xs0 xs1).2.2.2.1 = k1_pay5 x0 x1 xs1 := by
  show VS1_1.read (Elt F) (VS1_1.writes (Elt F) VS1_1.junk (kernelRun1_C c i arg1 harg1 arg2 harg2 arg3 harg3 arg4 harg4 arg5 harg5 arg6 harg6 hc0 hc1 x0 x1 xs0 xs1).2.2.2.1) = _
  rw [View.read_writes_eq_canon _ _ _ (scover1_C_1 c i arg1 harg1 arg2 harg2 arg3 harg3 arg4 harg4 arg5 harg5 arg6 harg6 hc0 hc1 x0 x1 xs0 xs1)]
  unfold kernelRun1_C
  dsimp only
  sl_unfold_words
  rw [View.canon_cons_unit_zero (S := S1x128) hz2]
  simp only [View.readAt_eq_ld, harg1.read_unread, harg2.read_unread, harg5.read_unread, harg6.read_unread,
    View.ld_unit_zero (S := S1x128) hz2, View.ld_unit_zero (S := S2000x128) hz2]
theorem oval1_C_2 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) :
    rdO2 (kernelRun1_C c i arg1 harg1 arg2 harg2 arg3 harg3 arg4 harg4 arg5 harg5 arg6 harg6 hc0 hc1 x0 x1 xs0 xs1).1 = k1_pay6 (k1_pay4 x0 x1 xs0) := by
  show VO1_2.read (Elt F) (VO1_2.writes (Elt F) VO1_2.junk (kernelRun1_C c i arg1 harg1 arg2 harg2 arg3 harg3 arg4 harg4 arg5 harg5 arg6 harg6 hc0 hc1 x0 x1 xs0 xs1).1) = _
  rw [View.read_writes_eq_canon _ _ _ (cover1_C_2 c i arg1 harg1 arg2 harg2 arg3 harg3 arg4 harg4 arg5 harg5 arg6 harg6 hc0 hc1 x0 x1 xs0 xs1)]
  unfold kernelRun1_C
  dsimp only
  sl_unfold_words
  rw [View.canon_cons_unit_zero (S := S1x128) hz2]
  simp only [View.readCov_unit_zero (S := S1x128) _ hz2, View.readAt_eq_ld, harg1.read_unread, harg2.read_unread, harg5.read_unread, harg6.read_unread,
    View.ld_unit_zero (S := S1x128) hz2, View.ld_unit_zero (S := S2000x128) hz2]
theorem oval1_C_3 (c : Dev nD) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S2000x128 .f32) (x1 : Vec F S1x128 .f32) (xs0 xs1 : Vec F S1x128 .f32) :
    rdO3 (kernelRun1_C c i arg1 harg1 arg2 harg2 arg3 harg3 arg4 harg4 arg5 harg5 arg6 harg6 hc0 hc1 x0 x1 xs0 xs1).2.1 = k1_pay7 (k1_pay4 x0 x1 xs0) (k1_pay5 x0 x1 xs1) := by
  show VO1_3.read (Elt F) (VO1_3.writes (Elt F) VO1_3.junk (kernelRun1_C c i arg1 harg1 arg2 harg2 arg3 harg3 arg4 harg4 arg5 harg5 arg6 harg6 hc0 hc1 x0 x1 xs0 xs1).2.1) = _
  rw [View.read_writes_eq_canon _ _ _ (cover1_C_3 c i arg1 harg1 arg2 harg2 arg3 harg3 arg4 harg4 arg5 harg5 arg6 harg6 hc0 hc1 x0 x1 xs0 xs1)]
  unfold kernelRun1_C
  dsimp only
  sl_unfold_words
  rw [View.canon_cons_unit_zero (S := S1x128) hz2]
  simp only [View.readCov_unit_zero (S := S1x128) _ hz2, View.readAt_eq_ld, harg1.read_unread, harg2.read_unread, harg5.read_unread, harg6.read_unread,
    View.ld_unit_zero (S := S1x128) hz2, View.ld_unit_zero (S := S2000x128) hz2]

/-! ## The accumulation, point by point, in the payloads -/

/-- After the first point. -/
theorem outsAt1_A_val (c : Dev nD) (t : Fin cfg1.N) (h0 : t.val = 0) (h1 : ¬t.val = 49) :
    outsAt1 V c t.val t.isLt = (rdO2 [], rdO3 [],
      k1_pay4 (iblk1 V c 0 t) (iblk1 V c 1 t) k1_pay1, k1_pay5 (iblk1 V c 0 t) (iblk1 V c 1 t) k1_pay2) := by
  rw [outsAt1_A V c t h0 h1]
  dsimp only [runA1]
  rw [sval1_A_0, sval1_A_1]

/-- After a middle point: over what the point before left in the accumulators. -/
theorem outsAt1_B_val (c : Dev nD) (t : Fin cfg1.N) (h0 : ¬t.val = 0) (h1 : ¬t.val = 49) :
    outsAt1 V c t.val t.isLt = (rdO2 [], rdO3 [],
      k1_pay4 (iblk1 V c 0 t) (iblk1 V c 1 t) (outsAt1 V c (t.val - 1) (Nat.lt_of_le_of_lt (Nat.sub_le _ _) t.isLt)).2.2.1,
      k1_pay5 (iblk1 V c 0 t) (iblk1 V c 1 t) (outsAt1 V c (t.val - 1) (Nat.lt_of_le_of_lt (Nat.sub_le _ _) t.isLt)).2.2.2) := by
  rw [outsAt1_B V c t h0 h1]
  dsimp only [runB1]
  rw [sval1_B_0, sval1_B_1]

/-- After the last point: the accumulators as at a middle point, the outputs at mean and variance of the sums. -/
theorem outsAt1_C_val (c : Dev nD) (t : Fin cfg1.N) (h0 : ¬t.val = 0) (h1 : t.val = 49) :
    outsAt1 V c t.val t.isLt =
     (k1_pay6 (k1_pay4 (iblk1 V c 0 t) (iblk1 V c 1 t) (outsAt1 V c (t.val - 1) (Nat.lt_of_le_of_lt (Nat.sub_le _ _) t.isLt)).2.2.1),
      k1_pay7 (k1_pay4 (iblk1 V c 0 t) (iblk1 V c 1 t) (outsAt1 V c (t.val - 1) (Nat.lt_of_le_of_lt (Nat.sub_le _ _) t.isLt)).2.2.1)
        (k1_pay5 (iblk1 V c 0 t) (iblk1 V c 1 t) (outsAt1 V c (t.val - 1) (Nat.lt_of_le_of_lt (Nat.sub_le _ _) t.isLt)).2.2.2),
      k1_pay4 (iblk1 V c 0 t) (iblk1 V c 1 t) (outsAt1 V c (t.val - 1) (Nat.lt_of_le_of_lt (Nat.sub_le _ _) t.isLt)).2.2.1,
      k1_pay5 (iblk1 V c 0 t) (iblk1 V c 1 t) (outsAt1 V c (t.val - 1) (Nat.lt_of_le_of_lt (Nat.sub_le _ _) t.isLt)).2.2.2) := by
  rw [outsAt1_C V c t h0 h1]
  dsimp only [runC1]
  rw [sval1_C_0, sval1_C_1, oval1_C_2, oval1_C_3]

end Cert.KernelIdeal.Hand

end
-- ==== Proof.Val.LibColReduce.lean ====
/-
  Reductions of a two-axis array along its FIRST axis, read at an index over the extended reals: the sum down column q is
  the plain sum over the rows of the entries of that column, the minimum down column q is min folded over the rows from
  the initial word. The companions, for the first axis, of the row reductions along the second. For any extents and
  element type. Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibColReduce

open Idealize.ShloMosaic Idealize.ShloMosaic.ValueIdx

variable {a b : ℕ}

/-- Result index q of a reduction along the first axis, with the dropped coordinate k put back, is (k, q). -/
theorem lift_col (h : (⟨2, ![a, b]⟩ : Shape).Reduces [(0 : Fin 2)] ⟨1, ![b]⟩) (q : Fin b) (k : Fin a) :
    h.lift (ix1 q) k = ix2 k q := by
  funext c
  apply Fin.ext
  match c with
  | ⟨0, _⟩ => rfl
  | ⟨1, _⟩ => rfl

/-- The sum down column q: the plain sum over the rows. -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- The minimum down column q: min folded over the rows from the initial word. -/
theorem colMin_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.minimumf.neutral φ hφ) (q : Fin b) :
    multiReduction .minimumf [(0 : Fin 2)] ⟨1, ![b]⟩ src acc h hφ hacc (ix1 q)
      = (Finset.univ : Finset (Fin a)).fold min (FloatOps.ofBits (F := Ideal) φ acc) (fun k => src (ix2 k q)) := by
  rw [multiReduction_minimumf_eq_fold]
  refine (h.fold_filter_drop_single _ _ src (ix1 q)).trans ?_
  exact congrArg (fun f => (Finset.univ : Finset (Fin a)).fold min (FloatOps.ofBits (F := Ideal) φ acc) f)
    (funext fun k => congrArg src (lift_col h q k))

/-- The sum down column q of an f32 array from the zero word, with the side condition on the initial word spelt as an
    equation between the two literal words (the form a printed reduction carries). -/
theorem colSum_f32 (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = 0x00000000#32) (q : Fin b) :
    multiReduction .add [(0 : Fin 2)] ⟨1, ![b]⟩ src 0x00000000#32 h hφ hacc (ix1 q) = ∑ k : Fin a, src (ix2 k q) :=
  colSum_apply src 0x00000000#32 h hφ hacc q

/-- The minimum down column q of an f32 array from the word of +∞, the side condition spelt the same way. -/
theorem colMin_f32 (src : FVec Ideal ⟨2, ![a, b]⟩ .f32)
    (h : (⟨2, ![a, b]⟩ : Shape).Reduces [(0 : Fin 2)] ⟨1, ![b]⟩) (hφ : FKind.Formats .f32)
    (hacc : (0x7F800000#32 : BitVec 32) = 0x7F800000#32) (q : Fin b) :
    multiReduction .minimumf [(0 : Fin 2)] ⟨1, ![b]⟩ src 0x7F800000#32 h hφ hacc (ix1 q)
      = (Finset.univ : Finset (Fin a)).fold min (Ideal.ofBits .f32 0x7F800000#32) (fun k => src (ix2 k q)) :=
  colMin_apply src 0x7F800000#32 h hφ hacc q

end Cert.LibColReduce

end
-- ==== Proof.Val.Pay1.lean ====
/- Region 1's payloads read at an index over the extended reals: the shifted block, the running column sums of
   it and of its square, and the mean and variance stored at the last point. -/
import proofs.«108080_j74191265071850_1_alg».proof.Proof.KI.Region1Value
import proofs.«108080_j74191265071850_1_alg».proof.Proof.Val.Spec
import proofs.«108080_j74191265071850_1_alg».proof.Proof.Val.LibColReduce
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

namespace R1

/-- The shifted block at (p, q): the data entry plus the bias row's entry of that column. -/
theorem pay3_at (v3 : Vec Ideal S2000x128 .f32) (v5 : Vec Ideal S1x128 .f32) (p : Fin 2000) (q : Fin 128) :
    k1_pay3 v3 v5 (ix2 p q) = v3 (ix2 p q) + v5 (ix2 (0 : Fin 1) q) := by
  unfold k1_pay3
  show (shapeCast S2000x128 v3 shapeCasts_S2000x128_S2000x128) (ix2 p q)
      + (broadcastTo S2000x128 (shapeCast S1x128 v5 shapeCasts_S1x128_S1x128) broadcasts_S1x128_S2000x128) (ix2 p q) = _
  rw [shapeCast_self, shapeCast_self, broadcastTo_1b_ab_apply]

/-- The first accumulator after a point, at column q: what it held plus the block's column sum of the shifted entries. -/
theorem pay4_at (v3 : Vec Ideal S2000x128 .f32) (v5 : Vec Ideal S1x128 .f32) (v9 : Vec Ideal S1x128 .f32) (q : Fin 128) :
    k1_pay4 v3 v5 v9 (ix2 (0 : Fin 1) q) = v9 (ix2 (0 : Fin 1) q) + ∑ k : Fin 2000, (v3 (ix2 k q) + v5 (ix2 (0 : Fin 1) q)) := by
  unfold k1_pay4
  show (shapeCast S1x128 (addf v9 (shapeCast S1x128 (multiReduction .add [0] S128 (k1_pay3 v3 v5) 0x00000000#32 reduces_S2000x128_S128 (.inl rfl) rfl) shapeCasts_S128_S1x128)) shapeCasts_S1x128_S1x128) (ix2 (0 : Fin 1) q) = _
  rw [shapeCast_self]
  show v9 (ix2 (0 : Fin 1) q) + (shapeCast S1x128 (multiReduction .add [0] S128 (k1_pay3 v3 v5) 0x00000000#32 reduces_S2000x128_S128 (.inl rfl) rfl) shapeCasts_S128_S1x128) (ix2 (0 : Fin 1) q) = _
  rw [shapeCast_a_1a_apply, LibColReduce.colSum_f32]
  exact congrArg _ (Finset.sum_congr rfl fun k _ => pay3_at v3 v5 k q)

/-- The second accumulator after a point, at column q: what it held plus the block's column sum of the squares. -/
theorem pay5_at (v3 : Vec Ideal S2000x128 .f32) (v5 : Vec Ideal S1x128 .f32) (v16 : Vec Ideal S1x128 .f32) (q : Fin 128) :
    k1_pay5 v3 v5 v16 (ix2 (0 : Fin 1) q)
      = v16 (ix2 (0 : Fin 1) q) + ∑ k : Fin 2000, (v3 (ix2 k q) + v5 (ix2 (0 : Fin 1) q)) * (v3 (ix2 k q) + v5 (ix2 (0 : Fin 1) q)) := by
  unfold k1_pay5
  show (shapeCast S1x128 (addf v16 (shapeCast S1x128 (multiReduction .add [0] S128 (mulf (k1_pay3 v3 v5) (k1_pay3 v3 v5)) 0x00000000#32 reduces_S2000x128_S128 (.inl rfl) rfl) shapeCasts_S128_S1x128)) shapeCasts_S1x128_S1x128) (ix2 (0 : Fin 1) q) = _
  rw [shapeCast_self]
  show v16 (ix2 (0 : Fin 1) q) + (shapeCast S1x128 (multiReduction .add [0] S128 (mulf (k1_pay3 v3 v5) (k1_pay3 v3 v5)) 0x00000000#32 reduces_S2000x128_S128 (.inl rfl) rfl) shapeCasts_S128_S1x128) (ix2 (0 : Fin 1) q) = _
  rw [shapeCast_a_1a_apply, LibColReduce.colSum_f32]
  refine congrArg _ (Finset.sum_congr rfl fun k _ => ?_)
  show k1_pay3 v3 v5 (ix2 k q) * k1_pay3 v3 v5 (ix2 k q) = _
  rw [pay3_at]

/-- The reset value of either accumulator is zero. -/
theorem pay1_at (i : S1x128.Idx) : k1_pay1 (F := Ideal) i = 0 := by
  unfold k1_pay1
  show (shapeCast S1x128 (broadcast S1x128 (Scalar.ofBits (F := Ideal) .f32 0x00000000#32)) shapeCasts_S1x128_S1x128) i = _
  rw [shapeCast_self]
  exact Ideal.ofBits_zero_f32
theorem pay2_at (i : S1x128.Idx) : k1_pay2 (F := Ideal) i = 0 := by
  unfold k1_pay2
  show (shapeCast S1x128 (broadcast S1x128 (Scalar.ofBits (F := Ideal) .f32 0x00000000#32)) shapeCasts_S1x128_S1x128) i = _
  rw [shapeCast_self]
  exact Ideal.ofBits_zero_f32

/-- The stored mean: the first accumulator divided by the row count. -/
theorem pay6_at (v27 : Vec Ideal S1x128 .f32) (i : S1x128.Idx) : k1_pay6 v27 i = Ideal.div (v27 i) nRows := rfl

/-- The stored variance: the second accumulator divided by the row count, less the squared mean. -/
theorem pay7_at (v27 v30 : Vec Ideal S1x128 .f32) (i : S1x128.Idx) :
    k1_pay7 v27 v30 i = Ideal.div (v30 i) nRows - Ideal.div (v27 i) nRows * Ideal.div (v27 i) nRows := rfl

end R1

end Cert.Val

end
-- ==== Proof.Val.Final1.lean ====
/- Region 1 as a whole-array function: by induction on the grid point the two accumulators hold the column sums,
   over the rows of the blocks so far, of the shifted entries and of their squares; after the last point these are
   the sums over all rows, and the one block written back into each output array is the column means, respectively
   the column variances in the one-pass form. -/
import proofs.«108080_j74191265071850_1_alg».proof.Proof.Val.Pay1

set_option maxRecDepth 16384

noncomputable section

open scoped BigOperators

namespace Cert.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

namespace R1

/-! ## The index maps, and the blocks read at an index -/

/-- The printed index maps of the four windows, decided over the grid: the data window's block row is the point,
    every other block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The shifted entry of array row `d` at column `q`; zero past the last row. -/
def hS (c : Dev nD) (q : Fin 128) (d : ℕ) : EReal :=
  if h : d < 100000 then shifted (V c main_v48 : Mat 100000 128) (V c main_v49 : Mat 1 128) ⟨d, h⟩ q else 0

/-- The two input windows' blocks at point `t`, at their literal vector types. -/
abbrev xb0 (c : Dev nD) (t : Fin cfg1.N) : Vec Ideal S2000x128 .f32 := iblk1 V c 0 t
abbrev xb1 (c : Dev nD) (t : Fin cfg1.N) : Vec Ideal S1x128 .f32 := iblk1 V c 1 t

/-- Local row `k` of the data block at point `t` is array row `2000 t + k`. -/
theorem blk0_at (c : Dev nD) (t : Fin cfg1.N) (k : Fin 2000) (q : Fin 128) (hd : 2000 * t.val + k.val < 100000) :
    xb0 V c t (ix2 k q) = (V c main_v48 : Mat 100000 128) (ix2 ⟨2000 * t.val + k.val, hd⟩ q) := by
  obtain ⟨e0, e1, -⟩ := idx1 t
  show (V c main_v48 : Mat 100000 128) (((cfg1.win 0).blk t).view.emb (ix2 k q)) = _
  refine congrArg _ (funext fun a => Fin.ext ?_)
  match a with
  | ⟨0, _⟩ => show win1_0.index t (0 : Fin 2) * 2000 + 1 * k.val = 2000 * t.val + k.val; omega
  | ⟨1, _⟩ => show win1_0.index t (1 : Fin 2) * 128 + 1 * q.val = q.val; omega

/-- The bias window's block is the bias row. -/
theorem blk1_at (c : Dev nD) (t : Fin cfg1.N) (q : Fin 128) :
    xb1 V c t (ix2 (0 : Fin 1) q) = (V c main_v49 : Mat 1 128) (ix2 (0 : Fin 1) q) := by
  obtain ⟨-, -, e2, e3, -⟩ := idx1 t
  show (V c main_v49 : Mat 1 128) (((cfg1.win 1).blk t).view.emb (ix2 (0 : Fin 1) q)) = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The shifted entry of the blocks at point `t`, local row `k`. -/
theorem blk_shift (c : Dev nD) (t : Fin cfg1.N) (k : Fin 2000) (q : Fin 128) :
    xb0 V c t (ix2 k q) + xb1 V c t (ix2 (0 : Fin 1) q) = hS V c q (2000 * t.val + k.val) := by
  have hN : t.val < 50 := lt_of_lt_of_eq t.isLt (show cfg1.N = 50 from N_1)
  have hk : k.val < 2000 := k.isLt
  have hd : 2000 * t.val + k.val < 100000 := by omega
  unfold hS
  rw [dif_pos hd, blk0_at V c t k q hd, blk1_at V c t q]
  rfl

/-! ## One point's step, over variables -/

/-- From what the accumulators hold at column `q`, a point whose shifted entries are `f (m + k)` leaves them
    increased by the sums of those entries and of their squares. -/
theorem step_sum (x0 : Vec Ideal S2000x128 .f32) (x1 xs0 xs1 : Vec Ideal S1x128 .f32) (q : Fin 128) (f : ℕ → EReal) (m : ℕ) (S0 S1 : EReal)
    (hx : ∀ k : Fin 2000, x0 (ix2 k q) + x1 (ix2 (0 : Fin 1) q) = f (m + k.val))
    (h0 : xs0 (ix2 (0 : Fin 1) q) = S0) (h1 : xs1 (ix2 (0 : Fin 1) q) = S1) :
    k1_pay4 x0 x1 xs0 (ix2 (0 : Fin 1) q) = S0 + ∑ k ∈ Finset.range 2000, f (m + k)
    ∧ k1_pay5 x0 x1 xs1 (ix2 (0 : Fin 1) q) = S1 + ∑ k ∈ Finset.range 2000, f (m + k) * f (m + k) := by
  constructor
  · rw [pay4_at, h0, ← Fin.sum_univ_eq_sum_range (fun k => f (m + k)) 2000]
    exact congrArg _ (Finset.sum_congr rfl fun k _ => hx k)
  · rw [pay5_at, h1, ← Fin.sum_univ_eq_sum_range (fun k => f (m + k) * f (m + k)) 2000]
    exact congrArg _ (Finset.sum_congr rfl fun k _ => by rw [hx k])

theorem range_zero (f : ℕ → EReal) :
    (0 : EReal) + ∑ k ∈ Finset.range 2000, f (2000 * 0 + k) = ∑ d ∈ Finset.range (2000 * (0 + 1)), f d := by
  simp

theorem range_step (f : ℕ → EReal) (n : ℕ) :
    ∑ d ∈ Finset.range (2000 * (n + 1)), f d + ∑ k ∈ Finset.range 2000, f (2000 * (n + 1) + k)
      = ∑ d ∈ Finset.range (2000 * (n + 1 + 1)), f d := by
  rw [show 2000 * (n + 1 + 1) = 2000 * (n + 1) + 2000 by ring, Finset.sum_range_add]

/-! ## The accumulation -/

/-- After point `n` the accumulators hold, at column `q`, the sums over the rows below `2000 (n + 1)` of the
    shifted entries and of their squares: by induction on the point. -/
theorem acc1 (c : Dev nD) (q : Fin 128) : ∀ (n : ℕ) (hn : n < cfg1.N),
    (outsAt1 V c n hn).2.2.1 (ix2 (0 : Fin 1) q) = ∑ d ∈ Finset.range (2000 * (n + 1)), hS V c q d
    ∧ (outsAt1 V c n hn).2.2.2 (ix2 (0 : Fin 1) q) = ∑ d ∈ Finset.range (2000 * (n + 1)), hS V c q d * hS V c q d
  | 0, hn => by
    have hs := step_sum (xb0 V c ⟨0, hn⟩) (xb1 V c ⟨0, hn⟩) (k1_pay1 (F := Ideal)) (k1_pay2 (F := Ideal)) q (hS V c q) (2000 * 0) 0 0
      (fun k => blk_shift V c ⟨0, hn⟩ k q) (pay1_at _) (pay2_at _)
    rw [outsAt1_A_val V c ⟨0, hn⟩ rfl (fun h => absurd h (by decide : ¬(0 : ℕ) = 49))]
    dsimp only
    exact ⟨hs.1.trans (range_zero _), hs.2.trans (range_zero (fun d => hS V c q d * hS V c q d))⟩
  | n + 1, hn => by
    obtain ⟨ih0, ih1⟩ := acc1 c q n (Nat.lt_of_succ_lt hn)
    have hs := step_sum (xb0 V c ⟨n + 1, hn⟩) (xb1 V c ⟨n + 1, hn⟩)
      (outsAt1 V c n (Nat.lt_of_succ_lt hn)).2.2.1 (outsAt1 V c n (Nat.lt_of_succ_lt hn)).2.2.2 q (hS V c q) (2000 * (n + 1)) _ _
      (fun k => blk_shift V c ⟨n + 1, hn⟩ k q) ih0 ih1
    by_cases h49 : n + 1 = 49
    · rw [outsAt1_C_val V c ⟨n + 1, hn⟩ (Nat.succ_ne_zero n) h49]
      dsimp only
      exact ⟨hs.1.trans (range_step _ n), hs.2.trans (range_step (fun d => hS V c q d * hS V c q d) n)⟩
    · rw [outsAt1_B_val V c ⟨n + 1, hn⟩ (Nat.succ_ne_zero n) h49]
      dsimp only
      exact ⟨hs.1.trans (range_step _ n), hs.2.trans (range_step (fun d => hS V c q d * hS V c q d) n)⟩

/-- Over all fifty blocks the rows are all the rows of the array. -/
theorem sum_all (c : Dev nD) (q : Fin 128) :
    ∑ d ∈ Finset.range (2000 * (49 + 1)), hS V c q d = ∑ p : Fin 100000, shifted (V c main_v48 : Mat 100000 128) (V c main_v49 : Mat 1 128) p q := by
  rw [show 2000 * (49 + 1) = 100000 by norm_num, ← Fin.sum_univ_eq_sum_range (fun d => hS V c q d) 100000]
  exact Finset.sum_congr rfl fun p _ => by unfold hS; rw [dif_pos p.isLt]
theorem sum_all_sq (c : Dev nD) (q : Fin 128) :
    ∑ d ∈ Finset.range (2000 * (49 + 1)), hS V c q d * hS V c q d
      = ∑ p : Fin 100000, shifted (V c main_v48 : Mat 100000 128) (V c main_v49 : Mat 1 128) p q * shifted (V c main_v48 : Mat 100000 128) (V c main_v49 : Mat 1 128) p q := by
  rw [show 2000 * (49 + 1) = 100000 by norm_num, ← Fin.sum_univ_eq_sum_range (fun d => hS V c q d * hS V c q d) 100000]
  exact Finset.sum_congr rfl fun p _ => by unfold hS; rw [dif_pos p.isLt]

/-- After the last point the accumulators hold the sums over all rows. -/
theorem acc1_last (c : Dev nD) (t : Fin cfg1.N) (h49 : t.val = 49) (q : Fin 128) :
    (outsAt1 V c t.val t.isLt).2.2.1 (ix2 (0 : Fin 1) q) = ∑ p : Fin 100000, shifted (V c main_v48 : Mat 100000 128) (V c main_v49 : Mat 1 128) p q
    ∧ (outsAt1 V c t.val t.isLt).2.2.2 (ix2 (0 : Fin 1) q) = ∑ p : Fin 100000, shifted (V c main_v48 : Mat 100000 128) (V c main_v49 : Mat 1 128) p q * shifted (V c main_v48 : Mat 100000 128) (V c main_v49 : Mat 1 128) p q := by
  obtain ⟨h0, h1⟩ := acc1 V c q t.val t.isLt
  have e : 2000 * (t.val + 1) = 2000 * (49 + 1) := by omega
  rw [e] at h0 h1
  exact ⟨h0.trans (sum_all V c q), h1.trans (sum_all_sq V c q)⟩

/-! ## The outputs at the last point -/

theorem out2_eq (c : Dev nD) (t : Fin cfg1.N) (h0 : ¬t.val = 0) (h49 : t.val = 49) :
    (outsAt1 V c t.val t.isLt).1 = k1_pay6 (outsAt1 V c t.val t.isLt).2.2.1 := by
  rw [outsAt1_C_val V c t h0 h49]
theorem out3_eq (c : Dev nD) (t : Fin cfg1.N) (h0 : ¬t.val = 0) (h49 : t.val = 49) :
    (outsAt1 V c t.val t.isLt).2.1 = k1_pay7 (outsAt1 V c t.val t.isLt).2.2.1 (outsAt1 V c t.val t.isLt).2.2.2 := by
  rw [outsAt1_C_val V c t h0 h49]

/-- The stored mean at block index `j`, array index `i` of the same column. -/
theorem mean_at (S0 : Vec Ideal S1x128 .f32) (a : Mat 100000 128) (b : Mat 1 128) (j i : S1x128.Idx) (hi : (i 1).val = (j 1).val)
    (hacc : ∀ q : Fin 128, S0 (ix2 (0 : Fin 1) q) = ∑ p : Fin 100000, shifted a b p q) :
    k1_pay6 S0 j = colMean a b i := by
  have hj : j = ix2 (0 : Fin 1) (j 1) := by
    funext d
    match d with
    | ⟨0, _⟩ => exact Fin.ext (by have := idx2_lt0 j; show (j 0).val = 0; omega)
    | ⟨1, _⟩ => rfl
  have hq : i 1 = j 1 := Fin.ext hi
  have e0 : S0 j = ∑ p : Fin 100000, shifted a b p (i 1) := by
    rw [hq]; exact (congrArg S0 hj).trans (hacc (j 1))
  show Ideal.div (S0 j) nRows = Ideal.div (∑ p : Fin 100000, shifted a b p (i 1)) nRows
  rw [e0]

/-- The stored variance at block index `j`, array index `i` of the same column. -/
theorem var_at (S0 S1 : Vec Ideal S1x128 .f32) (a : Mat 100000 128) (b : Mat 1 128) (j i : S1x128.Idx) (hi : (i 1).val = (j 1).val)
    (hacc0 : ∀ q : Fin 128, S0 (ix2 (0 : Fin 1) q) = ∑ p : Fin 100000, shifted a b p q)
    (hacc1 : ∀ q : Fin 128, S1 (ix2 (0 : Fin 1) q) = ∑ p : Fin 100000, shifted a b p q * shifted a b p q) :
    k1_pay7 S0 S1 j = colVar a b i := by
  have hj : j = ix2 (0 : Fin 1) (j 1) := by
    funext d
    match d with
    | ⟨0, _⟩ => exact Fin.ext (by have := idx2_lt0 j; show (j 0).val = 0; omega)
    | ⟨1, _⟩ => rfl
  have hq : i 1 = j 1 := Fin.ext hi
  have e0 : S0 j = ∑ p : Fin 100000, shifted a b p (i 1) := by
    rw [hq]; exact (congrArg S0 hj).trans (hacc0 (j 1))
  have e1 : S1 j = ∑ p : Fin 100000, shifted a b p (i 1) * shifted a b p (i 1) := by
    rw [hq]; exact (congrArg S1 hj).trans (hacc1 (j 1))
  show Ideal.div (S1 j) nRows - Ideal.div (S0 j) nRows * Ideal.div (S0 j) nRows
    = Ideal.div (∑ p : Fin 100000, shifted a b p (i 1) * shifted a b p (i 1)) nRows
      - Ideal.div (∑ p : Fin 100000, shifted a b p (i 1)) nRows * Ideal.div (∑ p : Fin 100000, shifted a b p (i 1)) nRows
  rw [e0, e1]

/-! ## What the last point writes back, and the arrays after the region -/

/-- What the one writing-back point writes into the first output array is the block of the column means. -/
theorem flushed1_2_eq (c : Dev nD) (t : Fin cfg1.N) (hf : (cfg1.win 2).flush t = true) :
    (dat1 V c).flushed 2 t = ((cfg1.win 2).blk t).view.read (Elt Ideal) (colMean (V c main_v48 : Mat 100000 128) (V c main_v49 : Mat 1 128) : Mat 1 128) := by
  have hN : t.val < 50 := lt_of_lt_of_eq t.isLt (show cfg1.N = 50 from N_1)
  have h49 : t.val = 49 := by have := (flush1_2 t).mp hf; omega
  have h0 : ¬t.val = 0 := by omega
  obtain ⟨-, -, -, -, e4, e5, -⟩ := idx1 t
  show (cfg1.win 2).cut (grid1.coords t) ((dat1 V c).after 2 t) = _
  rw [after1_2, out2_eq V c t h0 h49]
  funext j
  exact mean_at (outsAt1 V c t.val t.isLt).2.2.1 (V c main_v48 : Mat 100000 128) (V c main_v49 : Mat 1 128) j (((cfg1.win 2).blk t).view.emb j)
    (by show win1_2.index t (1 : Fin 2) * 128 + 1 * (j 1).val = (j 1).val; omega)
    (fun q => (acc1_last V c t h49 q).1)

/-- What it writes into the second output array is the block of the column variances. -/
theorem flushed1_3_eq (c : Dev nD) (t : Fin cfg1.N) (hf : (cfg1.win 3).flush t = true) :
    (dat1 V c).flushed 3 t = ((cfg1.win 3).blk t).view.read (Elt Ideal) (colVar (V c main_v48 : Mat 100000 128) (V c main_v49 : Mat 1 128) : Mat 1 128) := by
  have hN : t.val < 50 := lt_of_lt_of_eq t.isLt (show cfg1.N = 50 from N_1)
  have h49 : t.val = 49 := by have := (flush1_3 t).mp hf; omega
  have h0 : ¬t.val = 0 := by omega
  obtain ⟨-, -, -, -, -, -, e6, e7⟩ := idx1 t
  show (cfg1.win 3).cut (grid1.coords t) ((dat1 V c).after 3 t) = _
  rw [after1_3, out3_eq V c t h0 h49]
  funext j
  exact var_at (outsAt1 V c t.val t.isLt).2.2.1 (outsAt1 V c t.val t.isLt).2.2.2 (V c main_v48 : Mat 100000 128) (V c main_v49 : Mat 1 128) j (((cfg1.win 3).blk t).view.emb j)
    (by show win1_3.index t (1 : Fin 2) * 128 + 1 * (j 1).val = (j 1).val; omega)
    (fun q => (acc1_last V c t h49 q).1) (fun q => (acc1_last V c t h49 q).2)

/-- An index of an output array is in point `t`'s block iff each coordinate is in the block's range on its axis. -/
theorem mem_blk1_2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v50_0).slice (win1_2.rect t)).set ↔ _
  rw [View.set_slice_whole, Rect.mem_set_unit]
  exact Iff.rfl
theorem mem_blk1_3 (t : Fin cfg1.N) (i : S1x128.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v50_1).slice (win1_3.rect t)).set ↔ _
  rw [View.set_slice_whole, Rect.mem_set_unit]
  exact Iff.rfl

/-- The last point. -/
abbrev tLast : Fin cfg1.N := ⟨49, by rw [show cfg1.N = 50 from N_1]; decide⟩

/-- The one block the last point writes back is the whole of each output array. -/
theorem cover1_2 (i : S1x128.Idx) : ∃ t : Fin cfg1.N, (cfg1.win 2).flush t = true ∧ i ∈ ((cfg1.win 2).blk t).view.set := by
  refine ⟨tLast, (flush1_2 tLast).mpr rfl, ?_⟩
  obtain ⟨-, -, -, -, e4, e5, -⟩ := idx1 tLast
  rw [mem_blk1_2]
  intro a
  match a with
  | ⟨0, _⟩ => show win1_2.index tLast (0 : Fin 2) * 1 ≤ (i 0).val ∧ (i 0).val < win1_2.index tLast (0 : Fin 2) * 1 + 1; have := idx2_lt0 i; omega
  | ⟨1, _⟩ => show win1_2.index tLast (1 : Fin 2) * 128 ≤ (i 1).val ∧ (i 1).val < win1_2.index tLast (1 : Fin 2) * 128 + 128; have := idx2_lt1 i; omega
theorem cover1_3 (i : S1x128.Idx) : ∃ t : Fin cfg1.N, (cfg1.win 3).flush t = true ∧ i ∈ ((cfg1.win 3).blk t).view.set := by
  refine ⟨tLast, (flush1_3 tLast).mpr rfl, ?_⟩
  obtain ⟨-, -, -, -, -, -, e6, e7⟩ := idx1 tLast
  rw [mem_blk1_3]
  intro a
  match a with
  | ⟨0, _⟩ => show win1_3.index tLast (0 : Fin 2) * 1 ≤ (i 0).val ∧ (i 0).val < win1_3.index tLast (0 : Fin 2) * 1 + 1; have := idx2_lt0 i; omega
  | ⟨1, _⟩ => show win1_3.index tLast (1 : Fin 2) * 128 ≤ (i 1).val ∧ (i 1).val < win1_3.index tLast (1 : Fin 2) * 128 + 128; have := idx2_lt1 i; omega

end R1

/-- THE FIRST OUTPUT ARRAY after the region: the column means of the shifted rows. -/
theorem final1_mean (c : Dev nD) : ((dat1 (F := Ideal) V c).arrAt 2 cfg1.N : Mat 1 128) = colMean (V c main_v48 : Mat 100000 128) (V c main_v49 : Mat 1 128) :=
  (dat1 V c).arrAt_eq_of_cover 2 (colMean (V c main_v48 : Mat 100000 128) (V c main_v49 : Mat 1 128) : Mat 1 128) (fun t hf => R1.flushed1_2_eq V c t hf) R1.cover1_2

/-- THE SECOND OUTPUT ARRAY after the region: the column variances of the shifted rows, in the one-pass form. -/
theorem final1_var (c : Dev nD) : ((dat1 (F := Ideal) V c).arrAt 3 cfg1.N : Mat 1 128) = colVar (V c main_v48 : Mat 100000 128) (V c main_v49 : Mat 1 128) :=
  (dat1 V c).arrAt_eq_of_cover 3 (colVar (V c main_v48 : Mat 100000 128) (V c main_v49 : Mat 1 128) : Mat 1 128) (fun t hf => R1.flushed1_3_eq V c t hf) R1.cover1_3

end Cert.Val

end
-- ==== Proof.Val.Final2.lean ====
import proofs.«108080_j74191265071850_1_alg».proof.Proof.KI.Region2
import proofs.«108080_j74191265071850_1_alg».proof.Proof.Val.Spec

import Idealize.ShloMosaic.Lib.Pipeline.Value
import Idealize.ShloMosaic.Lib.ValueLayout

/-! Region 2 as a whole-array function: after its 50 points the output array is the input array shifted by the bias
row, centred by the mean row, scaled by the reciprocal square root of the variance row plus a small constant, scaled by
the fourth row, shifted by the fifth and clamped below at zero, entry by entry over the extended reals. Every operation
of the payload is entrywise once each one-row window is read at its column, so the payload at an entry is that
expression of the entries; point `t` reads rows `2000 t .. 2000 t + 1999` of the input and the five whole rows and
writes the same rows of the output; row `r` is written by point `r / 2000`. -/

set_option maxRecDepth 16384

noncomputable section

namespace Cert.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

-- the buffer contents when the region is entered, at the extended reals
variable (V : (c : Dev nD) → (b : Ref sig .tc) → Buf (Elt Ideal) ((c : Thread nD τ).loc b))

theorem hz2 : (![0, 0] : Fin 2 → Nat) = fun _ => 0 := funext fun a => by fin_cases a <;> rfl

/-! ## The payload at an entry -/

/-- The reciprocal square root at an entry is the reciprocal square root of the entry. -/
theorem rsqrt_at {s : Shape} {φ : FTy} (a : FVec Ideal s φ) (i : s.Idx) : rsqrt a i = Ideal.rsqrt (a i) := rfl

/-- One point's payload at row `p`, column `q` of the block. The arguments are the blocks of windows 0, 1, 3, 2, 4, 5
    in that order (the order the body reads them in): `y2` is the mean row, `y3` the variance row. -/
theorem pay2_at (y0 : Vec Ideal S2000x128 .f32) (y1 y3 y2 y4 y5 : Vec Ideal S1x128 .f32) (p : Fin 2000) (q : Fin 128) :
    k2_pay1 (F := Ideal) y0 y1 y3 y2 y4 y5 (ix2 p q)
      = max (((((y0 (ix2 p q) + y1 (ix2 (0 : Fin 1) q)) - y2 (ix2 (0 : Fin 1) q)) * Ideal.rsqrt (y3 (ix2 (0 : Fin 1) q) + bnEps))
          * y4 (ix2 (0 : Fin 1) q)) + y5 (ix2 (0 : Fin 1) q)) (Ideal.ofBits .f32 0x00000000#32) := by
  unfold k2_pay1
  simp only [shapeCast_self, maximumf_apply, addf_apply, mulf_apply, subf_apply, broadcastTo_1b_ab_apply, rsqrt_at,
    broadcast_apply]
  rfl

/-- The payload at a block entry `j` is the whole-array function at an array entry `i` in the same column, when the
    input block's entry `j` is the array's entry `i` and each one-row block is its one-row array. -/
theorem blk2_at (x0 : Vec Ideal S2000x128 .f32) (x1 x2 x3 x4 x5 : Vec Ideal S1x128 .f32)
    (A : Mat 100000 128) (B M S G Bt : Mat 1 128) (j : S2000x128.Idx) (i : S100000x128.Idx)
    (h0 : x0 j = A i)
    (h1 : ∀ q : Fin 128, x1 (ix2 (0 : Fin 1) q) = B (ix2 (0 : Fin 1) q))
    (h2 : ∀ q : Fin 128, x2 (ix2 (0 : Fin 1) q) = M (ix2 (0 : Fin 1) q))
    (h3 : ∀ q : Fin 128, x3 (ix2 (0 : Fin 1) q) = S (ix2 (0 : Fin 1) q))
    (h4 : ∀ q : Fin 128, x4 (ix2 (0 : Fin 1) q) = G (ix2 (0 : Fin 1) q))
    (h5 : ∀ q : Fin 128, x5 (ix2 (0 : Fin 1) q) = Bt (ix2 (0 : Fin 1) q))
    (hq : (i 1).val = (j 1).val) :
    k2_pay1 (F := Ideal) x0 x1 x3 x2 x4 x5 j = bnApply A B M S G Bt i := by
  obtain ⟨p, q, rfl⟩ : ∃ (p : Fin 2000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hq
  refine (pay2_at x0 x1 x3 x2 x4 x5 p q').trans ?_
  show _ = max (((((A (ix2 r q') + B (ix2 (0 : Fin 1) q')) - M (ix2 (0 : Fin 1) q')) * Ideal.rsqrt (S (ix2 (0 : Fin 1) q') + bnEps))
      * G (ix2 (0 : Fin 1) q')) + Bt (ix2 (0 : Fin 1) q')) (Ideal.ofBits .f32 0x00000000#32)
  rw [h0, h1 q', h2 q', h3 q', h4 q', h5 q']

/-! ## The index maps, decided over the 50 points -/

/-- The input and output windows sit at block row `t`, block column 0; the five one-row windows at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! ## What point `t` writes back -/

/-- Point `t` writes back block `t` of the whole-array function of the arrays as the region finds them. -/
theorem flushed2_eq (c : Dev nD) (t : Fin cfg2.N) :
    (dat2 (F := Ideal) V c).flushed 6 t = ((cfg2.win 6).blk t).view.read (Elt Ideal)
      (bnApply (V c main_v48) (V c main_v51) (V c main_v50_0) (V c main_v50_1) (V c main_v52) (V c main_v53)) := by
  show (cfg2.win 6).cut (grid2.coords t) ((dat2 (F := Ideal) V c).after 6 t) = _
  rw [after2_6]
  unfold out2_6
  rw [View.canon_unit_zero hz2]
  simp only [View.ld_unit_zero (S := S2000x128) hz2, View.ld_unit_zero (S := S1x128) hz2]
  obtain ⟨e0, e1, e2, e3, e4, e5, e6, e7, e8, e9, e10, e11, e12, e13⟩ := idx_facts2 t
  funext j
  refine blk2_at (iblk2 V c 0 t) (iblk2 V c 1 t) (iblk2 V c 2 t) (iblk2 V c 3 t) (iblk2 V c 4 t) (iblk2 V c 5 t)
    (V c main_v48) (V c main_v51) (V c main_v50_0) (V c main_v50_1) (V c main_v52) (V c main_v53)
    j (((cfg2.win 6).blk t).view.emb j) ?_ ?_ ?_ ?_ ?_ ?_ ?_
  · show V c main_v48 (((cfg2.win 0).blk t).view.emb j) = V c main_v48 (((cfg2.win 6).blk t).view.emb j)
    refine congrArg (V c main_v48) ?_
    funext a; apply Fin.ext
    match a with
    | ⟨0, _⟩ => show win2_0.index t (0 : Fin 2) * 2000 + 1 * (j 0).val = win2_6.index t (0 : Fin 2) * 2000 + 1 * (j 0).val; omega
    | ⟨1, _⟩ => show win2_0.index t (1 : Fin 2) * 128 + 1 * (j 1).val = win2_6.index t (1 : Fin 2) * 128 + 1 * (j 1).val; omega
  · intro q
    show V c main_v51 (((cfg2.win 1).blk t).view.emb (ix2 (0 : Fin 1) q)) = V c main_v51 (ix2 (0 : Fin 1) q)
    refine congrArg (V c main_v51) ?_
    funext a; apply Fin.ext
    match a with
    | ⟨0, _⟩ => show win2_1.index t (0 : Fin 2) * 1 + 1 * 0 = 0; omega
    | ⟨1, _⟩ => show win2_1.index t (1 : Fin 2) * 128 + 1 * q.val = q.val; omega
  · intro q
    show V c main_v50_0 (((cfg2.win 2).blk t).view.emb (ix2 (0 : Fin 1) q)) = V c main_v50_0 (ix2 (0 : Fin 1) q)
    refine congrArg (V c main_v50_0) ?_
    funext a; apply Fin.ext
    match a with
    | ⟨0, _⟩ => show win2_2.index t (0 : Fin 2) * 1 + 1 * 0 = 0; omega
    | ⟨1, _⟩ => show win2_2.index t (1 : Fin 2) * 128 + 1 * q.val = q.val; omega
  · intro q
    show V c main_v50_1 (((cfg2.win 3).blk t).view.emb (ix2 (0 : Fin 1) q)) = V c main_v50_1 (ix2 (0 : Fin 1) q)
    refine congrArg (V c main_v50_1) ?_
    funext a; apply Fin.ext
    match a with
    | ⟨0, _⟩ => show win2_3.index t (0 : Fin 2) * 1 + 1 * 0 = 0; omega
    | ⟨1, _⟩ => show win2_3.index t (1 : Fin 2) * 128 + 1 * q.val = q.val; omega
  · intro q
    show V c main_v52 (((cfg2.win 4).blk t).view.emb (ix2 (0 : Fin 1) q)) = V c main_v52 (ix2 (0 : Fin 1) q)
    refine congrArg (V c main_v52) ?_
    funext a; apply Fin.ext
    match a with
    | ⟨0, _⟩ => show win2_4.index t (0 : Fin 2) * 1 + 1 * 0 = 0; omega
    | ⟨1, _⟩ => show win2_4.index t (1 : Fin 2) * 128 + 1 * q.val = q.val; omega
  · intro q
    show V c main_v53 (((cfg2.win 5).blk t).view.emb (ix2 (0 : Fin 1) q)) = V c main_v53 (ix2 (0 : Fin 1) q)
    refine congrArg (V c main_v53) ?_
    funext a; apply Fin.ext
    match a with
    | ⟨0, _⟩ => show win2_5.index t (0 : Fin 2) * 1 + 1 * 0 = 0; omega
    | ⟨1, _⟩ => show win2_5.index t (1 : Fin 2) * 128 + 1 * q.val = q.val; omega
  · show win2_6.index t (1 : Fin 2) * 128 + 1 * (j 1).val = (j 1).val
    omega

/-! ## The output's blocks cover its array -/

/-- An entry of the output array is in point `t`'s block iff each coordinate is in the block's range on its axis. -/
theorem mem_blk2 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v54).slice (win2_6.rect t)).set ↔ _
  rw [View.set_slice_whole, Rect.mem_set_unit]
  exact Iff.rfl

/-- Row `r` of the output array is written by point `r / 2000`. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 50) N_2.symm⟩, rfl⟩
  obtain ⟨e0, e1, e2, e3, e4, e5, e6, e7, e8, e9, e10, e11, e12, e13⟩ := idx_facts2 t
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-! ## The array after the region -/

/-- After the region's 50 points the output array is the normalised, scaled, shifted and rectified input array, as
    the region found the six arrays it read. -/
theorem final2 (c : Dev nD) : ((dat2 (F := Ideal) V c).arrAt 6 cfg2.N : Mat 100000 128)
    = bnApply (V c main_v48) (V c main_v51) (V c main_v50_0) (V c main_v50_1) (V c main_v52) (V c main_v53) :=
  (dat2 (F := Ideal) V c).arrAt_eq_of_cover 6
    (bnApply (V c main_v48) (V c main_v51) (V c main_v50_0) (V c main_v50_1) (V c main_v52) (V c main_v53))
    (fun t _ => flushed2_eq V c t) (cover2)

end Cert.Val

end
-- ==== Proof.Val.Final3.lean ====
import proofs.«108080_j74191265071850_1_alg».proof.Proof.KI.Region3
import proofs.«108080_j74191265071850_1_alg».proof.Proof.Val.Spec
import proofs.«108080_j74191265071850_1_alg».proof.Proof.Val.LibMatmulAt
import Idealize.ShloMosaic.Lib.Pipeline.Value
import Idealize.ShloMosaic.Lib.ValueLayout

/-! Region 3 as a whole-array function: after its 50 points the output array is the matrix product of the
128-column input array and the 128 x 64 weight array, entry by entry over the extended reals. The payload of one point read
at an entry is the sum over the contracted axis of the products (rounding to bfloat16 is the identity on extended
reals); point `t` reads rows `2000 t .. 2000 t + 1999` of the input and the whole weight array and writes the same rows
of the output; row `r` is written by point `r / 2000`. -/

set_option maxRecDepth 16384

noncomputable section

namespace Cert.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

-- the buffer contents when the region is entered, at the extended reals
variable (V : (c : Dev nD) → (b : Ref sig .tc) → Buf (Elt Ideal) ((c : Thread nD τ).loc b))

theorem hz3 : (![0, 0] : Fin 2 → Nat) = fun _ => 0 := funext fun a => by fin_cases a <;> rfl

/-! ## The payload at an entry -/

/-- One point's payload at row `p`, column `q` of the block: the sum over `k` of input `(p, k)` times weight `(k, q)`. -/
theorem pay3_at (x0 : Vec Ideal S2000x128 .f32) (x1 : Vec Ideal S128x64 .f32) (p : Fin 2000) (q : Fin 64) :
    k3_pay1 (F := Ideal) x0 x1 (ix2 p q) = ∑ k : Fin 128, x0 (ix2 p k) * x1 (ix2 k q) := by
  unfold k3_pay1
  refine (Cert.LibMatmulAt.matmul_zero_apply dot_S2000x128_S128x64_S2000x64_1_0_0_1_n_n rfl rfl rfl rfl rfl rfl none _ _ p q).trans ?_
  refine Finset.sum_congr rfl fun k _ => ?_
  -- the input is first cast to its own shape, which changes nothing
  show (shapeCast S2000x128 x0 shapeCasts_S2000x128_S2000x128) (ix2 p k) * x1 (ix2 k q) = x0 (ix2 p k) * x1 (ix2 k q)
  rw [shapeCast_self]

/-- The payload at a block entry `j` is the whole-array product at an array entry `i`, when the input block's row
    `j 0` is the array's row `i 0` and the weight block's column `j 1` is the weight array's column `i 1`. -/
theorem blk3_at (x0 : Vec Ideal S2000x128 .f32) (x1 : Vec Ideal S128x64 .f32) (A : Mat 100000 128) (W : Mat 128 64)
    (j : S2000x64.Idx) (i : S100000x64.Idx)
    (h0 : ∀ k : Fin 128, x0 (ix2 (j 0) k) = A (ix2 (i 0) k))
    (h1 : ∀ k : Fin 128, x1 (ix2 k (j 1)) = W (ix2 k (i 1))) :
    k3_pay1 (F := Ideal) x0 x1 j = lin A W i := by
  obtain ⟨p, q, rfl⟩ : ∃ (p : Fin 2000) (q : Fin 64), j = ix2 p q := ⟨j 0, j 1, eq_ix2 j⟩
  refine (pay3_at x0 x1 p q).trans ?_
  unfold lin
  exact Finset.sum_congr rfl fun k _ => congrArg₂ (· * ·) (h0 k) (h1 k)

/-! ## The index maps, decided over the 50 points -/

/-- The input and output windows sit at block row `t`, block column 0; the weight window at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-! ## What point `t` writes back -/

/-- Point `t` writes back block `t` of the product of the arrays as the region finds them. -/
theorem flushed3_eq (c : Dev nD) (t : Fin cfg3.N) :
    (dat3 (F := Ideal) V c).flushed 2 t = ((cfg3.win 2).blk t).view.read (Elt Ideal) (lin (V c main_v54) (V c main_arg7)) := by
  show (cfg3.win 2).cut (grid3.coords t) ((dat3 (F := Ideal) V c).after 2 t) = _
  rw [after3_2]
  unfold out3_2
  rw [View.canon_unit_zero hz3]
  simp only [View.ld_unit_zero (S := S2000x128) hz3, View.ld_unit_zero (S := S128x64) hz3]
  obtain ⟨e0, e1, e2, e3, e4, e5⟩ := idx_facts3 t
  funext j
  refine blk3_at (iblk3 V c 0 t) (iblk3 V c 1 t) (V c main_v54) (V c main_arg7) j (((cfg3.win 2).blk t).view.emb j) ?_ ?_
  · intro k
    show V c main_v54 (((cfg3.win 0).blk t).view.emb (ix2 (j 0) k)) = V c main_v54 (ix2 ((((cfg3.win 2).blk t).view.emb j) 0) k)
    refine congrArg (V c main_v54) ?_
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * k.val = k.val; omega
  · intro k
    show V c main_arg7 (((cfg3.win 1).blk t).view.emb (ix2 k (j 1))) = V c main_arg7 (ix2 k ((((cfg3.win 2).blk t).view.emb j) 1))
    refine congrArg (V c main_arg7) ?_
    funext a; apply Fin.ext
    match a with
    | ⟨0, _⟩ => show win3_1.index t (0 : Fin 2) * 128 + 1 * k.val = k.val; omega
    | ⟨1, _⟩ => show win3_1.index t (1 : Fin 2) * 64 + 1 * (j 1).val = win3_2.index t (1 : Fin 2) * 64 + 1 * (j 1).val; omega

/-! ## The output's blocks cover its array -/

/-- An entry of the output array is in point `t`'s block iff each coordinate is in the block's range on its axis. -/
theorem mem_blk3 (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v55).slice (win3_2.rect t)).set ↔ _
  rw [View.set_slice_whole, Rect.mem_set_unit]
  exact Iff.rfl

/-- Row `r` of the output array is written by point `r / 2000`. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 2000 :=
    ⟨⟨(i 0).val / 2000, lt_of_lt_of_eq (by omega : (i 0).val / 2000 < 50) N_3.symm⟩, rfl⟩
  obtain ⟨e0, e1, e2, e3, e4, e5⟩ := idx_facts3 t
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-! ## The array after the region -/

/-- After the region's 50 points the output array is the matrix product of the two arrays it read, as the region
    found them. -/
theorem final3 (c : Dev nD) : ((dat3 (F := Ideal) V c).arrAt 2 cfg3.N : Mat 100000 64) = lin (V c main_v54) (V c main_arg7) :=
  (dat3 (F := Ideal) V c).arrAt_eq_of_cover 2 (lin (V c main_v54) (V c main_arg7)) (fun t _ => flushed3_eq V c t) (cover3)

end Cert.Val

end
-- ==== Proof.Val.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Val.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«108080_j74191265071850_1_alg».proof.Proof.Val.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.Val.LibRowF32.lean ====
/-
  The vector unit's single-precision lane sum and lane maximum along the second axis, read at a row, with the side
  condition on the initial word spelt as the literal equation a printed reduction carries (`0#32 = 0#32`,
  `0xFF800000#32 = 0xFF800000#32`), so that a rewrite matches the printed term as it stands. For any extents.
-/
import proofs.«108080_j74191265071850_1_alg».proof.Proof.Val.LibRowReduce
import Idealize.ShloMosaic.PureOps.Ideal
import Idealize.ShloMosaic.PureOps.Ideal.Laws
import Idealize.ShloMosaic.Lib.ValueIdx

noncomputable section

namespace Cert.LibRowF32

open Idealize.ShloMosaic Idealize.ShloMosaic.ValueIdx Cert.LibRowReduce

variable {a b : ℕ}

/-- A single-precision lane sum along the second axis, started from the zero word, at row `p`: the plain sum of the row. -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  rowSum_apply src _ h hφ hacc p

/-- A single-precision lane maximum along the second axis, started from the word of minus infinity, at row `p`: the
    fold of `max` over the row from that word's value. -/
theorem rowMax_f32 (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = 0xFF800000#32) (p : Fin a) :
    multiReduction .maximumf [(1 : Fin 2)] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

end Cert.LibRowF32

end
-- ==== Proof.Val.Final4.lean ====
import proofs.«108080_j74191265071850_1_alg».proof.Proof.KI.Region4
import proofs.«108080_j74191265071850_1_alg».proof.Proof.Val.Spec
import proofs.«108080_j74191265071850_1_alg».proof.Proof.Val.LibColumn
import proofs.«108080_j74191265071850_1_alg».proof.Proof.Val.LibRowReduce
import proofs.«108080_j74191265071850_1_alg».proof.Proof.Val.LibRowF32
import Idealize.ShloMosaic.Lib.Pipeline.Value
import Idealize.ShloMosaic.Lib.ValueLayout

/-! Region 4 as a whole-array function: after its 50 points the output array is the row-wise log-softmax of the input
array with the one-row bias added to every row, entry by entry over the extended reals. One point's payload is read
at an entry in four steps — the shifted block, its row maximum (folded from minus infinity), the difference, and the
row sum of the exponentials of the difference —; point `t` reads rows `2000 t .. 2000 t + 1999` of the input and the
whole bias row and writes the same rows of the output; row `r` is written by point `r / 2000`. -/

set_option maxRecDepth 16384

noncomputable section

namespace Cert.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

-- the buffer contents when the region is entered, at the extended reals
variable (V : (c : Dev nD) → (b : Ref sig .tc) → Buf (Elt Ideal) ((c : Thread nD τ).loc b))

theorem hz4 : (![0, 0] : Fin 2 → Nat) = fun _ => 0 := funext fun a => by fin_cases a <;> rfl

/-! ## The payload, in four named steps -/

/-- The shifted block: the input block plus the bias row repeated down the rows. -/
def h4 (x0 : Vec Ideal S2000x64 .f32) (x1 : Vec Ideal S1x64 .f32) : FVec Ideal S2000x64 .f32 :=
  addf (shapeCast S2000x64 x0 shapeCasts_S2000x64_S2000x64)
    (broadcastTo S2000x64 (shapeCast S1x64 x1 shapeCasts_S1x64_S1x64) broadcasts_S1x64_S2000x64)

/-- The row maxima of a block, folded from the word of minus infinity. -/
def m4 (h : FVec Ideal S2000x64 .f32) : FVec Ideal S2000 .f32 :=
  multiReduction .maximumf [1] S2000 h 0xFF800000#32 reduces_S2000x64_S2000 (.inl rfl) rfl

/-- A block minus its row maxima, each repeated along its row. -/
def d4 (h : FVec Ideal S2000x64 .f32) : FVec Ideal S2000x64 .f32 :=
  subf h (broadcastTo S2000x64 (shapeCast S2000x1 (m4 h) shapeCasts_S2000_S2000x1) broadcasts_S2000x1_S2000x64)

/-- The row sums of the exponentials of that difference. -/
def s4 (h : FVec Ideal S2000x64 .f32) : FVec Ideal S2000 .f32 :=
  multiReduction .add [1] S2000 (exp (d4 h)) 0x00000000#32 reduces_S2000x64_S2000 (.inl rfl) rfl

/-- The payload is the difference minus the logarithm of the row sums, each repeated along its row. -/
theorem pay4_eq (x0 : Vec Ideal S2000x64 .f32) (x1 : Vec Ideal S1x64 .f32) :
    k4_pay1 (F := Ideal) x0 x1
      = subf (d4 (h4 x0 x1)) (broadcastTo S2000x64 (log (shapeCast S2000x1 (s4 (h4 x0 x1)) shapeCasts_S2000_S2000x1)) broadcasts_S2000x1_S2000x64) := rfl

theorem h4_at (x0 : Vec Ideal S2000x64 .f32) (x1 : Vec Ideal S1x64 .f32) (p : Fin 2000) (q : Fin 64) :
    h4 x0 x1 (ix2 p q) = x0 (ix2 p q) + x1 (ix2 (0 : Fin 1) q) := by
  unfold h4
  rw [addf_apply, shapeCast_self, shapeCast_self, broadcastTo_1b_ab_apply]

theorem m4_at (h : FVec Ideal S2000x64 .f32) (p : Fin 2000) :
    m4 h (ix1 p) = (Finset.univ : Finset (Fin 64)).fold max (Ideal.ofBits .f32 0xFF800000#32) (fun k => h (ix2 p k)) :=
  Cert.LibRowF32.rowMax_f32 h reduces_S2000x64_S2000 (.inl rfl) rfl p

theorem d4_at (h : FVec Ideal S2000x64 .f32) (p : Fin 2000) (q : Fin 64) :
    d4 h (ix2 p q) = h (ix2 p q) - m4 h (ix1 p) := by
  unfold d4
  rw [subf_apply, Cert.LibRowReduce.column_repeat_apply]

theorem s4_at (h : FVec Ideal S2000x64 .f32) (p : Fin 2000) :
    s4 h (ix1 p) = ∑ k : Fin 64, Ideal.exp (d4 h (ix2 p k)) :=
  Cert.LibRowF32.rowSum_f32 (exp (d4 h)) reduces_S2000x64_S2000 (.inl rfl) rfl p

/-- One point's payload at row `p`, column `q` of the block. -/
theorem pay4_at (x0 : Vec Ideal S2000x64 .f32) (x1 : Vec Ideal S1x64 .f32) (p : Fin 2000) (q : Fin 64) :
    k4_pay1 (F := Ideal) x0 x1 (ix2 p q)
      = (h4 x0 x1 (ix2 p q) - m4 (h4 x0 x1) (ix1 p))
        - Ideal.log (∑ k : Fin 64, Ideal.exp (h4 x0 x1 (ix2 p k) - m4 (h4 x0 x1) (ix1 p))) := by
  rw [pay4_eq, subf_apply, Cert.LibColumn.broadcastTo_a1_ab_apply, d4_at]
  show _ - Ideal.log (shapeCast S2000x1 (s4 (h4 x0 x1)) shapeCasts_S2000_S2000x1 (ix2 p (0 : Fin 1))) = _
  rw [Cert.LibColumn.shapeCast_a_a1_apply, s4_at]
  simp only [d4_at]

/-- The payload at a block entry `j` is the whole-array log-softmax at an array entry `i` in the same column, when
    the input block's row `j 0` is the array's row `i 0` and the bias block is the bias array. -/
theorem blk4_at (x0 : Vec Ideal S2000x64 .f32) (x1 : Vec Ideal S1x64 .f32) (A : Mat 100000 64) (B : Mat 1 64)
    (j : S2000x64.Idx) (i : S100000x64.Idx)
    (h0 : ∀ k : Fin 64, x0 (ix2 (j 0) k) = A (ix2 (i 0) k))
    (h1 : ∀ k : Fin 64, x1 (ix2 (0 : Fin 1) k) = B (ix2 (0 : Fin 1) k))
    (hq : (i 1).val = (j 1).val) :
    k4_pay1 (F := Ideal) x0 x1 j = logSoftmax A B i := by
  obtain ⟨p, q, rfl⟩ : ∃ (p : Fin 2000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hq
  have hs : ∀ k : Fin 64, h4 x0 x1 (ix2 p k) = shifted A B r k := fun k =>
    (h4_at x0 x1 p k).trans (congrArg₂ (· + ·) (h0 k) (h1 k))
  have hM : m4 (h4 x0 x1) (ix1 p) = rowMax A B r :=
    (m4_at (h4 x0 x1) p).trans (congrArg (fun f => (Finset.univ : Finset (Fin 64)).fold max (Ideal.ofBits .f32 0xFF800000#32) f) (funext hs))
  refine (pay4_at x0 x1 p q').trans ?_
  show _ = (shifted A B r q' - rowMax A B r) - Ideal.log (∑ k : Fin 64, Ideal.exp (shifted A B r k - rowMax A B r))
  rw [hM, hs q']
  simp only [hs]

/-! ## The index maps, decided over the 50 points -/

/-- The input and output windows sit at block row `t`, block column 0; the bias window at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-! ## What point `t` writes back -/

/-- Point `t` writes back block `t` of the log-softmax of the arrays as the region finds them. -/
theorem flushed4_eq (c : Dev nD) (t : Fin cfg4.N) :
    (dat4 (F := Ideal) V c).flushed 2 t = ((cfg4.win 2).blk t).view.read (Elt Ideal) (logSoftmax (V c main_v68) (V c main_v69)) := by
  show (cfg4.win 2).cut (grid4.coords t) ((dat4 (F := Ideal) V c).after 2 t) = _
  rw [after4_2]
  unfold out4_2
  rw [View.canon_unit_zero hz4]
  simp only [View.ld_unit_zero (S := S2000x64) hz4, View.ld_unit_zero (S := S1x64) hz4]
  obtain ⟨e0, e1, e2, e3, e4, e5⟩ := idx_facts4 t
  funext j
  refine blk4_at (iblk4 V c 0 t) (iblk4 V c 1 t) (V c main_v68) (V c main_v69) j (((cfg4.win 2).blk t).view.emb j) ?_ ?_ ?_
  · intro k
    show V c main_v68 (((cfg4.win 0).blk t).view.emb (ix2 (j 0) k)) = V c main_v68 (ix2 ((((cfg4.win 2).blk t).view.emb j) 0) k)
    refine congrArg (V c main_v68) ?_
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 64 + 1 * k.val = k.val; omega
  · intro k
    show V c main_v69 (((cfg4.win 1).blk t).view.emb (ix2 (0 : Fin 1) k)) = V c main_v69 (ix2 (0 : Fin 1) k)
    refine congrArg (V c main_v69) ?_
    funext a; apply Fin.ext
    match a with
    | ⟨0, _⟩ => show win4_1.index t (0 : Fin 2) * 1 + 1 * 0 = 0; omega
    | ⟨1, _⟩ => show win4_1.index t (1 : Fin 2) * 64 + 1 * k.val = k.val; omega
  · show win4_2.index t (1 : Fin 2) * 64 + 1 * (j 1).val = (j 1).val
    omega

/-! ## The output's blocks cover its array -/

/-- An entry of the output array is in point `t`'s block iff each coordinate is in the block's range on its axis. -/
theorem mem_blk4 (t : Fin cfg4.N) (i : S100000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v70).slice (win4_2.rect t)).set ↔ _
  rw [View.set_slice_whole, Rect.mem_set_unit]
  exact Iff.rfl

/-- Row `r` of the output array is written by point `r / 2000`. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 2000 :=
    ⟨⟨(i 0).val / 2000, lt_of_lt_of_eq (by omega : (i 0).val / 2000 < 50) N_4.symm⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-! ## The array after the region -/

/-- After the region's 50 points the output array is the row-wise log-softmax of the input array shifted by the bias
    row, as the region found them. -/
theorem final4 (c : Dev nD) : ((dat4 (F := Ideal) V c).arrAt 2 cfg4.N : Mat 100000 64) = logSoftmax (V c main_v68) (V c main_v69) :=
  (dat4 (F := Ideal) V c).arrAt_eq_of_cover 2 (logSoftmax (V c main_v68) (V c main_v69)) (fun t _ => flushed4_eq V c t) (cover4)

end Cert.Val

end
-- ==== Proof.Val.Linear.lean ====
/-
  The two linear layers of the reference are the matrix product of the specification: the host's dot_general of a
  plain [R,K] x [K,C] product reads, at (p, q), the sum over k of x(p, k) · w(k, q), which is the entry of lin.
-/
import proofs.«108080_j74191265071850_1_alg».proof.Proof.Val.Spec
import proofs.«108080_j74191265071850_1_alg».proof.Proof.Val.RefReadP
import Idealize.ShloMosaic.Lib.ValueIdx
import Idealize.ShloMosaic.PureOps.Ideal.Laws

noncomputable section

namespace Cert.Val

open Cert.ReferenceIdeal Cert.ReferenceIdeal.ReadP Idealize.ShloMosaic Idealize.ShloMosaic.ValueIdx

/-- The first linear layer: x · W1. -/
theorem lin1_eq (x0 : (⟨S100000x128, .f32⟩ : BufTy).Contents (Elt Ideal))
    (x3 : (⟨S128x128, .f32⟩ : BufTy).Contents (Elt Ideal)) :
    lin (r := 100000) (k := 128) (c := 128) x0 x3 = val_main_v9 (F := Ideal) x0 x3 := by
  funext i
  rw [val_main_v9_apply]
  unfold lin
  refine Finset.sum_congr rfl fun k _ => ?_
  have el : lidx_main_v9 i k = ix2 (n0 := 100000) (n1 := 128) (i 0) k :=
    funext fun a => Fin.ext (by match a with | ⟨0, _⟩ => rfl | ⟨1, _⟩ => rfl)
  have er : ridx_main_v9 i k = ix2 (n0 := 128) (n1 := 128) k (i 1) :=
    funext fun a => Fin.ext (by match a with | ⟨0, _⟩ => rfl | ⟨1, _⟩ => rfl)
  rw [el, er]

/-- The second linear layer: the rectified normalised rows times W2. -/
theorem lin2_eq (x0 : (⟨S100000x128, .f32⟩ : BufTy).Contents (Elt Ideal))
    (x1 : (⟨S2x1600000, .i32⟩ : BufTy).Contents (Elt Ideal))
    (x2 : (⟨S1600000, .f32⟩ : BufTy).Contents (Elt Ideal))
    (x3 : (⟨S128x128, .f32⟩ : BufTy).Contents (Elt Ideal))
    (x4 x5 x6 : (⟨S128, .f32⟩ : BufTy).Contents (Elt Ideal))
    (x7 : (⟨S128x64, .f32⟩ : BufTy).Contents (Elt Ideal)) :
    lin (r := 100000) (k := 128) (c := 64) (val_main_v77 (F := Ideal) x0 x1 x2 x3 x4 x5 x6) x7
      = val_main_v78 (F := Ideal) x0 x1 x2 x3 x4 x5 x6 x7 := by
  funext i
  rw [val_main_v78_apply]
  unfold lin
  refine Finset.sum_congr rfl fun k _ => ?_
  have el : lidx_main_v78 i k = ix2 (n0 := 100000) (n1 := 128) (i 0) k :=
    funext fun a => Fin.ext (by match a with | ⟨0, _⟩ => rfl | ⟨1, _⟩ => rfl)
  have er : ridx_main_v78 i k = ix2 (n0 := 128) (n1 := 64) k (i 1) :=
    funext fun a => Fin.ext (by match a with | ⟨0, _⟩ => rfl | ⟨1, _⟩ => rfl)
  rw [el, er]

end Cert.Val

end
-- ==== Proof.Val.LibHostRowMax.lean ====
/-
  The host's maximum along the second axis of an a×b array of extended reals, read at row p: the fold of `max` over
  the row from the initial value. For any extents; the reducing function is given up to an equation with `max`, so that
  an instance's own spelling of the maximum fits.
-/
import proofs.«108080_j74191265071850_1_alg».proof.Proof.Val.LibRowReduce
import Idealize.ShloMosaic.PureOps.Reduce
import Idealize.ShloMosaic.PureOps.Ideal
import Idealize.ShloMosaic.Lib.ValueIdx

noncomputable section

namespace Cert.LibHostRowMax

open Idealize.ShloMosaic Idealize.ShloMosaic.ValueIdx Cert.LibRowReduce

variable {a b : ℕ}

/-- THE HOST'S ROW MAXIMUM at row `p`. -/
theorem hostRowMax_apply (f : EReal → EReal → EReal) (hf : f = max) (x : (⟨2, ![a, b]⟩ : Shape).Idx → EReal)
    (init : (⟨0, ![]⟩ : Shape).Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduce f x init h' hu (ix1 p)
      = (Finset.univ : Finset (Fin b)).fold max (init (Shape.Idx.first hu)) (fun k => x (ix2 p k)) := by
  subst hf
  rw [Host.reduce_eq_fold_single max x init h' h hu (ix1 p)]
  exact congrArg (fun g : Fin b → EReal => (Finset.univ : Finset (Fin b)).fold max (init (Shape.Idx.first hu)) g)
    (funext fun k => congrArg x (lift_row h p k))

end Cert.LibHostRowMax

end
-- ==== Proof.Val.LogSoftmax.lean ====
/-
  The reference's last stage is the row-wise log-softmax of the specification. The stage before it adds the bias row to
  the second aggregation, entry by entry: that is the shifted entry h(p, q). The inlined log-softmax then takes the row
  maximum of h folded from −∞, joins it once more with −∞ (which changes nothing: a fold of max from a value is at least
  that value), subtracts it, exponentiates, sums each row from 0, takes the logarithm and subtracts that.
-/
import proofs.«108080_j74191265071850_1_alg».proof.Proof.Val.Spec
import proofs.«108080_j74191265071850_1_alg».proof.Proof.Val.RefReadP
import proofs.«108080_j74191265071850_1_alg».proof.Proof.Val.LibHostRowMax
import Idealize.ShloMosaic.Lib.ValueIdx
import Idealize.ShloMosaic.PureOps.Ideal.Laws

noncomputable section

namespace Cert.Val

open Cert.ReferenceIdeal Cert.ReferenceIdeal.ReadP Idealize.ShloMosaic Idealize.ShloMosaic.ValueIdx

section

variable (x0 : (⟨S100000x128, .f32⟩ : BufTy).Contents (Elt Ideal))
  (x1 : (⟨S2x1600000, .i32⟩ : BufTy).Contents (Elt Ideal))
  (x2 : (⟨S1600000, .f32⟩ : BufTy).Contents (Elt Ideal))
  (x3 : (⟨S128x128, .f32⟩ : BufTy).Contents (Elt Ideal))
  (x4 x5 x6 : (⟨S128, .f32⟩ : BufTy).Contents (Elt Ideal))
  (x7 : (⟨S128x64, .f32⟩ : BufTy).Contents (Elt Ideal))
  (x8 : (⟨S64, .f32⟩ : BufTy).Contents (Elt Ideal))

/-- The biased aggregation at (p, q) is the shifted entry. -/
theorem biased_at (p : Fin 100000) (q : Fin 64) :
    val_main_v120 (F := Ideal) x0 x1 x2 x3 x4 x5 x6 x7 x8 (ix2 p q)
      = shifted (r := 100000) (c := 64) (val_main_v117 (F := Ideal) x0 x1 x2 x3 x4 x5 x6 x7) (rowOf x8) p q := by
  have e : idx_main_v118 (idx_main_v119 (ix2 p q)) = ix1 q :=
    funext fun a => Fin.ext (by match a with | ⟨0, _⟩ => rfl)
  rw [val_main_v120_apply, val_main_v119_apply, val_main_v118_apply, e]
  rfl

/-- The host's row maximum at row p is the specification's. -/
theorem hostMax_at (p : Fin 100000) :
    val_main_call5_v0 (F := Ideal) x0 x1 x2 x3 x4 x5 x6 x7 x8 (ix1 p)
      = rowMax (r := 100000) (c := 64) (val_main_v117 (F := Ideal) x0 x1 x2 x3 x4 x5 x6 x7) (rowOf x8) p := by
  have hR : (⟨2, ![100000, 64]⟩ : Shape).Reduces [(1 : Fin 2)] ⟨1, ![100000]⟩ := by decide
  have hf : (FloatOps.maximumf (F := Ideal) (φ := .f32)) = max := funext fun _ => funext fun _ => rfl
  have h := Cert.LibHostRowMax.hostRowMax_apply (a := 100000) (b := 64) (FloatOps.maximumf (F := Ideal) (φ := .f32)) hf
    (val_main_v120 (F := Ideal) x0 x1 x2 x3 x4 x5 x6 x7 x8) (val_main_call5_cst (F := Ideal))
    Gen.reducesTo_S100000x64_S100000_d1 hR Gen.h_S_ p
  unfold val_main_call5_v0 rowMax
  refine h.trans ?_
  rw [val_main_call5_cst_apply]
  exact congrArg (fun g : Fin 64 → EReal => (Finset.univ : Finset (Fin 64)).fold max (Ideal.ofBits .f32 0xFF800000#32) g)
    (funext fun k => biased_at x0 x1 x2 x3 x4 x5 x6 x7 x8 p k)

/-- The row maximum as the reference keeps it: joined once more with −∞, kept as a column, repeated along the row. -/
theorem max_at (p : Fin 100000) (q : Fin 64) :
    val_main_call5_v4 (F := Ideal) x0 x1 x2 x3 x4 x5 x6 x7 x8 (ix2 p q)
      = rowMax (r := 100000) (c := 64) (val_main_v117 (F := Ideal) x0 x1 x2 x3 x4 x5 x6 x7) (rowOf x8) p := by
  have e : idx_main_call5_v3 (idx_main_call5_v4 (ix2 p q)) = ix1 p :=
    funext fun a => Fin.ext (by match a with | ⟨0, _⟩ => rfl)
  rw [val_main_call5_v4_apply, val_main_call5_v3_apply, e, val_main_call5_v2_apply, val_main_call5_v1_apply,
    val_main_call5_cst_0_apply, hostMax_at]
  exact max_eq_right ((Finset.le_fold_max _).2 (Or.inl le_rfl))

/-- The centred entry h(p, q) − M(p). -/
theorem centred_at (p : Fin 100000) (q : Fin 64) :
    val_main_call5_v5 (F := Ideal) x0 x1 x2 x3 x4 x5 x6 x7 x8 (ix2 p q)
      = shifted (r := 100000) (c := 64) (val_main_v117 (F := Ideal) x0 x1 x2 x3 x4 x5 x6 x7) (rowOf x8) p q
        - rowMax (r := 100000) (c := 64) (val_main_v117 (F := Ideal) x0 x1 x2 x3 x4 x5 x6 x7) (rowOf x8) p := by
  rw [val_main_call5_v5_apply, biased_at, max_at]
  rfl

/-- The row sum of the exponentials, from 0. -/
theorem expSum_at (p : Fin 100000) :
    val_main_call5_v7 (F := Ideal) x0 x1 x2 x3 x4 x5 x6 x7 x8 (ix1 p)
      = ∑ j : Fin 64, Ideal.exp
          (shifted (r := 100000) (c := 64) (val_main_v117 (F := Ideal) x0 x1 x2 x3 x4 x5 x6 x7) (rowOf x8) p j
            - rowMax (r := 100000) (c := 64) (val_main_v117 (F := Ideal) x0 x1 x2 x3 x4 x5 x6 x7) (rowOf x8) p) := by
  rw [val_main_call5_v7_apply, val_main_call5_cst_1_apply, Ideal.ofBits_def, Ideal.ofBits_zero_f32, zero_add]
  refine Finset.sum_congr rfl fun k _ => ?_
  have e : idx_main_call5_v7 (ix1 p) k = ix2 p k :=
    funext fun a => Fin.ext (by match a with | ⟨0, _⟩ => rfl | ⟨1, _⟩ => rfl)
  rw [e, val_main_call5_v6_apply, centred_at, Ideal.hostUnary_exp_def]

/-- The logarithm of the row sum, kept as a column and repeated along the row. -/
theorem logSum_at (p : Fin 100000) (q : Fin 64) :
    val_main_call5_v10 (F := Ideal) x0 x1 x2 x3 x4 x5 x6 x7 x8 (ix2 p q)
      = Ideal.log (∑ j : Fin 64, Ideal.exp
          (shifted (r := 100000) (c := 64) (val_main_v117 (F := Ideal) x0 x1 x2 x3 x4 x5 x6 x7) (rowOf x8) p j
            - rowMax (r := 100000) (c := 64) (val_main_v117 (F := Ideal) x0 x1 x2 x3 x4 x5 x6 x7) (rowOf x8) p)) := by
  have e : idx_main_call5_v8 (idx_main_call5_v10 (ix2 p q)) = ix1 p :=
    funext fun a => Fin.ext (by match a with | ⟨0, _⟩ => rfl)
  rw [val_main_call5_v10_apply, val_main_call5_v9_apply, val_main_call5_v8_apply, e, expSum_at, Ideal.hostUnary_log_def]

/-- The reference's last stage is the log-softmax of the second aggregation shifted by the bias row. -/
theorem lsm_eq :
    logSoftmax (r := 100000) (c := 64) (val_main_v117 (F := Ideal) x0 x1 x2 x3 x4 x5 x6 x7) (rowOf x8)
      = val_main_v121 (F := Ideal) x0 x1 x2 x3 x4 x5 x6 x7 x8 := by
  funext i
  obtain ⟨p, q, rfl⟩ : ∃ (p : Fin 100000) (q : Fin 64), i = ix2 p q := ⟨i 0, i 1, eq_ix2 i⟩
  rw [val_main_v121_apply, centred_at, logSum_at]
  rfl

end

end Cert.Val

end
-- ==== Proof.Val.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.Val.Finite.lean ====
/-
  Every entry of the first graph convolution's output (aggregation plus bias) is a real number when every float input
  is.

  The layer is h = x·W, the degree deg = scatter-add of the edge weights (with a one appended per node) into zeros,
  dinv = where(deg > 0, rsqrt(where(deg > 0, deg, 1)), 0), the edge norm dinv[row]·w·dinv[col], the messages
  h[row]·norm, their scatter-add into zeros, plus the bias. Sums, products, gathers, selections and accumulating
  scatters of real numbers are real; the only operation with a corner is the reciprocal square root, and its
  argument where(deg > 0, deg, 1) is a POSITIVE real number, whose reciprocal square root is the real 1/√r.
-/
import proofs.«108080_j74191265071850_1_alg».proof.Proof.Val.Spec
import proofs.«108080_j74191265071850_1_alg».proof.Proof.Val.RefReadP
import proofs.«108080_j74191265071850_1_alg».proof.Proof.Val.LibFinite
import Idealize.ShloMosaic.Lib.IdealHost

noncomputable section

namespace Cert.Val

open Cert.ReferenceIdeal Cert.ReferenceIdeal.ReadP Idealize.ShloMosaic Idealize.ShloMosaic.ValueIdx
open Idealize.ShloMosaic.LibFinite

/-- Every element of a concatenation is an element of one of its pieces: a property of all elements of all pieces
    holds of every element of the concatenation. -/
theorem concatenate_all {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 : (⟨S128, .f32⟩ : BufTy).Contents (Elt Ideal))

/-- The appended ones are real. -/
theorem v7_real (i : S100000.Idx) : IsReal (val_main_v7 (F := Ideal) i) := by
  rw [val_main_v7_apply, val_main_cst_apply]; exact isReal_ofBits_one

/-- The weights with the ones appended are real. -/
theorem v8_real (h2 : ∀ i, IsReal (x2 i)) (i : S1700000.Idx) : IsReal (val_main_v8 (F := Ideal) x2 i) := by
  unfold val_main_v8
  refine concatenate_all _ _ _ IsReal ?_ i
  intro p hp k
  simp only [List.mem_cons, List.mem_nil_iff, or_false] at hp
  rcases hp with rfl | rfl
  · exact h2 k
  · exact v7_real k

/-- The product x·W is real: a finite sum of products of reals. -/
theorem v9_real (h0 : ∀ i, IsReal (x0 i)) (h3 : ∀ i, IsReal (x3 i)) (i : S100000x128.Idx) :
    IsReal (val_main_v9 (F := Ideal) x0 x3 i) := by
  rw [val_main_v9_apply]
  exact IsReal.sum _ _ fun k _ => IsReal.mul _ _ (h0 _) (h3 _)

/-- The zeros the degree is accumulated into. -/
theorem v10_real (i : S100000.Idx) : IsReal (val_main_v10 (F := Ideal) i) := by
  rw [val_main_v10_apply, val_main_cst_0_apply]; exact isReal_ofBits_zero

/-- The degree is real. -/
theorem v12_real (h2 : ∀ i, IsReal (x2 i)) (i : S100000.Idx) : IsReal (val_main_v12 (F := Ideal) x1 x2 i) := by
  unfold val_main_v12
  exact isReal_scatterAdd _ _ _ _ (fun j => v10_real j) (fun j => v8_real x2 h2 j) i

/-- The guarded degree where(deg > 0, deg, 1) is a POSITIVE real number. -/
theorem v17_pos (h2 : ∀ i, IsReal (x2 i)) (i : S100000.Idx) :
    ∃ r : ℝ, 0 < r ∧ val_main_v17 (F := Ideal) x1 x2 i = (r : EReal) := by
  rw [val_main_v17_apply, val_main_v16_apply, val_main_v15_apply, val_main_cst_2_apply, val_main_call0_v1_apply,
    val_main_call0_v0_apply, val_main_cst_3_apply]
  obtain ⟨r, hr⟩ := v12_real x1 x2 h2 i
  rw [hr]
  simp only [Ideal.ofBits_def, Ideal.ofBits_zero_f32, Ideal.ofBits_one_f32]
  show ∃ r' : ℝ, 0 < r' ∧ Scalar.select (Ideal.cmp .ogt (r : EReal) 0) (r : EReal) 1 = (r' : EReal)
  unfold Scalar.select
  split
  · rename_i hc
    refine ⟨r, ?_, rfl⟩
    simp only [Ideal.cmp] at hc
    by_contra hn
    have hn' : ¬ ((0 : EReal) < (r : EReal)) := by rwa [← EReal.coe_zero, EReal.coe_lt_coe_iff]
    simp [hn'] at hc
  · exact ⟨1, one_pos, EReal.coe_one.symm⟩

/-- The reciprocal square root of the guarded degree is real: 1/√r for the positive real r. -/
theorem v18_real (h2 : ∀ i, IsReal (x2 i)) (i : S100000.Idx) : IsReal (val_main_v18 (F := Ideal) x1 x2 i) := by
  rw [val_main_v18_apply]
  obtain ⟨r, hr, e⟩ := v17_pos x1 x2 h2 i
  rw [e]
  show IsReal (Ideal.rsqrt (r : EReal))
  rw [Ideal.rsqrt_coe, if_neg (not_lt.2 hr.le), if_neg hr.ne']
  exact ⟨_, rfl⟩

/-- The normalisation factor dinv = where(deg > 0, rsqrt(…), 0) is real. -/
theorem v19_real (h2 : ∀ i, IsReal (x2 i)) (i : S100000.Idx) : IsReal (val_main_v19 (F := Ideal) x1 x2 i) := by
  rw [val_main_v19_apply]
  unfold Scalar.select
  split
  · exact v18_real x1 x2 h2 i
  · rw [val_main_call1_v1_apply, val_main_call1_v0_apply, val_main_cst_4_apply]; exact isReal_ofBits_zero

/-- dinv gathered at the source nodes is real. -/
theorem v26_real (h2 : ∀ i, IsReal (x2 i)) (i : S1700000.Idx) : IsReal (val_main_v26 (F := Ideal) x1 x2 i) := by
  unfold val_main_v26
  exact isReal_gather _ _ _ (fun j => v19_real x1 x2 h2 j) i

theorem v27_real (h2 : ∀ i, IsReal (x2 i)) (i : S1700000.Idx) : IsReal (val_main_v27 (F := Ideal) x1 x2 i) := by
  rw [val_main_v27_apply, Ideal.mulf_def]
  exact IsReal.mul _ _ (v26_real x1 x2 h2 i) (v8_real x2 h2 i)

/-- dinv gathered at the target nodes is real. -/
theorem v34_real (h2 : ∀ i, IsReal (x2 i)) (i : S1700000.Idx) : IsReal (val_main_v34 (F := Ideal) x1 x2 i) := by
  unfold val_main_v34
  exact isReal_gather _ _ _ (fun j => v19_real x1 x2 h2 j) i

/-- The edge norm dinv[row]·w·dinv[col] is real. -/
theorem v35_real (h2 : ∀ i, IsReal (x2 i)) (i : S1700000.Idx) : IsReal (val_main_v35 (F := Ideal) x1 x2 i) := by
  rw [val_main_v35_apply, Ideal.mulf_def]
  exact IsReal.mul _ _ (v27_real x1 x2 h2 i) (v34_real x1 x2 h2 i)

/-- The rows of x·W gathered at the source nodes are real. -/
theorem v42_real (h0 : ∀ i, IsReal (x0 i)) (h3 : ∀ i, IsReal (x3 i)) (i : S1700000x128.Idx) :
    IsReal (val_main_v42 (F := Ideal) x0 x1 x3 i) := by
  unfold val_main_v42
  exact isReal_gather _ _ _ (fun j => v9_real x0 x3 h0 h3 j) i

/-- The messages h[row]·norm are real. -/
theorem v45_real (h0 : ∀ i, IsReal (x0 i)) (h2 : ∀ i, IsReal (x2 i)) (h3 : ∀ i, IsReal (x3 i)) (i : S1700000x128.Idx) :
    IsReal (val_main_v45 (F := Ideal) x0 x1 x2 x3 i) := by
  rw [val_main_v45_apply, Ideal.mulf_def, val_main_v44_apply, val_main_v43_apply]
  exact IsReal.mul _ _ (v42_real x0 x1 x3 h0 h3 i) (v35_real x1 x2 h2 _)

/-- The zeros the messages are accumulated into. -/
theorem v46_real (i : S100000x128.Idx) : IsReal (val_main_v46 (F := Ideal) i) := by
  rw [val_main_v46_apply, val_main_cst_10_apply]; exact isReal_ofBits_zero

/-- The aggregated messages are real. -/
theorem v48_real (h0 : ∀ i, IsReal (x0 i)) (h2 : ∀ i, IsReal (x2 i)) (h3 : ∀ i, IsReal (x3 i)) (i : S100000x128.Idx) :
    IsReal (val_main_v48 (F := Ideal) x0 x1 x2 x3 i) := by
  unfold val_main_v48
  exact isReal_scatterAdd _ _ _ _ (fun j => v46_real j) (fun j => v45_real x0 x1 x2 x3 h0 h2 h3 j) i

/-- Every entry of the first layer's output, the aggregated messages plus the bias, is a real number when every
    entry of the node features, the edge weights, the weight matrix and the bias is. -/
theorem v51_fin (h0 : ∀ i, IsFin (x0 i)) (h2 : ∀ i, IsFin (x2 i)) (h3 : ∀ i, IsFin (x3 i)) (h4 : ∀ i, IsFin (x4 i)) :
    ∀ i, IsFin (val_main_v51 (F := Ideal) x0 x1 x2 x3 x4 i) := by
  intro i
  rw [val_main_v51_apply, Ideal.addf_def, val_main_v50_apply, val_main_v49_apply]
  exact IsReal.add _ _ (v48_real x0 x1 x2 x3 h0 h2 h3 i) (h4 _)

end Cert.Val

end
-- ==== Proof.Val.LibVariance.lean ====
/-
  The variance of a finite family of real numbers, two ways, on the extended reals.

  For real numbers h_p (p ranging over a finite type with N ≠ 0 elements) put μ = (∑ h_p) / N. The mean of the squared
  deviations, (∑ (h_p − μ)²) / N, equals the mean of the squares minus the squared mean, (∑ h_p²) / N − μ². Over the
  extended reals the subtraction and the product are total but do not obey the ring laws at the infinities, so the
  identity is stated for entries that are real numbers: every sum and quotient is then the coercion of the real one,
  and the identity is the one of ℝ.
-/
import Idealize.ShloMosaic.PureOps.Ideal

noncomputable section

namespace Cert.Val.Variance

open Idealize.ShloMosaic

/-- A finite sum of real numbers, taken in the extended reals, is the real sum. -/
theorem coe_sum {ι : Type*} (s : Finset ι) (g : ι → ℝ) :
    (∑ p ∈ s, ((g p : ℝ) : EReal)) = ((∑ p ∈ s, g p : ℝ) : EReal) := by
  classical
  induction s using Finset.induction_on with
  | empty => simp
  | insert a s ha ih => rw [Finset.sum_insert ha, Finset.sum_insert ha, ih, EReal.coe_add]

/-- The quotient of two real numbers, the divisor not zero, is the real quotient. -/
theorem div_coe (a b : ℝ) (hb : b ≠ 0) : Ideal.div (a : EReal) (b : EReal) = ((a / b : ℝ) : EReal) := by
  have hb' : ((b : ℝ) : EReal) ≠ 0 := by exact_mod_cast hb
  unfold Ideal.div
  rw [if_neg hb', ← EReal.coe_inv, ← EReal.coe_mul, div_eq_mul_inv]

/-- The identity in ℝ: with N the number of terms, mean of squared deviations = mean of squares − squared mean. -/
theorem real_law {ι : Type*} [Fintype ι] (g : ι → ℝ) (N : ℝ) (hN : N ≠ 0) (hcard : (Fintype.card ι : ℝ) = N) :
    (∑ p, (g p - (∑ p, g p) / N) * (g p - (∑ p, g p) / N)) / N
      = (∑ p, g p * g p) / N - ((∑ p, g p) / N) * ((∑ p, g p) / N) := by
  set S : ℝ := ∑ p, g p with hS
  have e : ∀ p, (g p - S / N) * (g p - S / N) = g p * g p - (2 * (S / N)) * g p + (S / N) * (S / N) := fun p => by ring
  simp only [e]
  rw [Finset.sum_add_distrib, Finset.sum_sub_distrib, ← Finset.mul_sum, Finset.sum_const, Finset.card_univ,
    nsmul_eq_mul, hcard, ← hS]
  field_simp
  ring

/-- The same identity on the extended reals, for a family every member of which is a real number. The mean is taken
    of an arbitrary family `h` with `h p = g p`; the divisor is the real `N`, the number of terms. -/
theorem two_pass_eq_one_pass {ι : Type*} [Fintype ι] (h : ι → EReal) (hreal : ∀ p, ∃ r : ℝ, h p = (r : EReal))
    (N : ℝ) (hN : N ≠ 0) (hcard : (Fintype.card ι : ℝ) = N) :
    Ideal.div (∑ p, (h p - Ideal.div (∑ p, h p) (N : EReal)) * (h p - Ideal.div (∑ p, h p) (N : EReal))) (N : EReal)
      = Ideal.div (∑ p, h p * h p) (N : EReal)
        - Ideal.div (∑ p, h p) (N : EReal) * Ideal.div (∑ p, h p) (N : EReal) := by
  choose g hg using hreal
  have hh : h = fun p => ((g p : ℝ) : EReal) := funext hg
  subst hh
  rw [coe_sum, div_coe _ _ hN]
  simp only [← EReal.coe_sub, ← EReal.coe_mul]
  rw [coe_sum, coe_sum, div_coe _ _ hN, div_coe _ _ hN, ← EReal.coe_sub]
  exact congrArg _ (real_law g N hN hcard)

end Cert.Val.Variance

end
-- ==== Proof.Val.BatchNorm.lean ====
/-
  Batch normalisation: the one-pass statistics of the whole-array specification against the reference's two passes.

  Column q of the shifted rows h(p, q) = a(p, q) + b(q) has mean μ(q) = (∑ₚ h(p, q)) / 100000. The specification takes the
  variance as the mean of the squares minus μ², the reference as the mean of the squared deviations (h − μ)². For entries
  that are real numbers the two agree (the law of LibVariance.lean, with 100000 the number of rows); everything after
  the variance — adding ε, the reciprocal square root, scaling by γ, shifting by β, the maximum with zero — is the same
  expression on both sides.
-/
import proofs.«108080_j74191265071850_1_alg».proof.Proof.Val.Spec
import proofs.«108080_j74191265071850_1_alg».proof.Proof.Val.RefReadP
import proofs.«108080_j74191265071850_1_alg».proof.Proof.Val.LibVariance
import Idealize.ShloMosaic.Lib.ValueIdx
import Idealize.ShloMosaic.PureOps.Ideal.Laws

noncomputable section

namespace Cert.Val

open Cert.ReferenceIdeal Cert.ReferenceIdeal.ReadP Idealize.ShloMosaic Idealize.ShloMosaic.ValueIdx

/-- The 32-bit float word 0x47C35000 denotes the real number 100000 (sign 0, exponent field 143, significand field
    0x435000: (2^23 + 0x435000) · 2^(143 − 127 − 23) = 12800000 / 128). -/
theorem nRows_eq : nRows = ((100000 : ℝ) : EReal) := by
  unfold nRows
  simp [Ideal.ofBits, Ideal.ieee, -EReal.coe_mul]; norm_num

/-- The specification read at an index built from its coordinates. -/
theorem rowOf_at {c : ℕ} (x : (⟨1, ![c]⟩ : Shape).Idx → EReal) (q : Fin c) : rowOf x (ix2 (0 : Fin 1) q) = x (ix1 q) := rfl

theorem colMean_at {r c : ℕ} (a : Mat r c) (b : Mat 1 c) (q : Fin c) :
    colMean a b (ix2 (0 : Fin 1) q) = Ideal.div (∑ p : Fin r, shifted a b p q) nRows := rfl

theorem colVar_at {r c : ℕ} (a : Mat r c) (b : Mat 1 c) (q : Fin c) :
    colVar a b (ix2 (0 : Fin 1) q)
      = Ideal.div (∑ p : Fin r, shifted a b p q * shifted a b p q) nRows
        - colMean a b (ix2 (0 : Fin 1) q) * colMean a b (ix2 (0 : Fin 1) q) := rfl

theorem bnApply_at {r c : ℕ} (a : Mat r c) (b μ σ γ β : Mat 1 c) (p : Fin r) (q : Fin c) :
    bnApply a b μ σ γ β (ix2 p q)
      = max ((((shifted a b p q - μ (ix2 (0 : Fin 1) q)) * Ideal.rsqrt (σ (ix2 (0 : Fin 1) q) + bnEps))
          * γ (ix2 (0 : Fin 1) q)) + β (ix2 (0 : Fin 1) q)) (Ideal.ofBits .f32 0x00000000#32) := rfl

section
variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x128, .f32⟩ : BufTy).Contents (Elt Ideal))
  (x4 x5 x6 : (⟨S128, .f32⟩ : BufTy).Contents (Elt Ideal))

/-- A length-128 vector broadcast to a 1 x 128 row and then to all 100000 rows reads its entry q at (p, q). -/
theorem idx_row_of_bcast (p : Fin 100000) (q : Fin 128) : idx_main_v49 (idx_main_v50 (ix2 p q)) = ix1 q :=
  funext fun a => Fin.ext (by match a with | ⟨0, _⟩ => rfl)

/-- The reference's shifted rows are the specification's: a(p, q) + b(q). -/
theorem v51_at (p : Fin 100000) (q : Fin 128) :
    val_main_v51 (F := Ideal) x0 x1 x2 x3 x4 (ix2 p q)
      = shifted (val_main_v48 (F := Ideal) x0 x1 x2 x3) (rowOf x4) p q := by
  rw [val_main_v51_apply, val_main_v50_apply, val_main_v49_apply, idx_row_of_bcast]
  rfl

/-- Row k of column q, as the reference's first column sum indexes it. -/
theorem idx_col_sum (q : Fin 128) (k : Fin 100000) : idx_main_v52 (ix1 q) k = ix2 k q :=
  funext fun a => Fin.ext (by match a with | ⟨0, _⟩ => rfl | ⟨1, _⟩ => rfl)

/-- Row k of column q, as the reference's second column sum indexes it. -/
theorem idx_col_sum_sq (q : Fin 128) (k : Fin 100000) : idx_main_v59 (ix1 q) k = ix2 k q :=
  funext fun a => Fin.ext (by match a with | ⟨0, _⟩ => rfl | ⟨1, _⟩ => rfl)

/-- The reference's column means are the specification's: the zero word plus the column sum of the shifted rows, over
    100000. -/
theorem v54_at (q : Fin 128) :
    val_main_v54 (F := Ideal) x0 x1 x2 x3 x4 (ix1 q)
      = colMean (val_main_v48 (F := Ideal) x0 x1 x2 x3) (rowOf x4) (ix2 (0 : Fin 1) q) := by
  rw [val_main_v54_apply, val_main_v52_apply, val_main_v53_apply, val_main_cst_12_apply, val_main_cst_11_apply]
  simp only [Ideal.hostDivf_def, Ideal.ofBits_def, Ideal.ofBits_zero_f32, zero_add, idx_col_sum, v51_at]
  rw [colMean_at, nRows]

/-- The broadcasts of the mean (for the deviations of the variance, and again for the normalised rows), of the
    reciprocal square root, of γ and of β all read entry q of their length-128 vector at (p, q). -/
theorem idx_mean_bcast (p : Fin 100000) (q : Fin 128) : idx_main_v55 (idx_main_v56 (ix2 p q)) = ix1 q :=
  funext fun a => Fin.ext (by match a with | ⟨0, _⟩ => rfl)
theorem idx_mean_bcast' (p : Fin 100000) (q : Fin 128) : idx_main_v62 (idx_main_v63 (ix2 p q)) = ix1 q :=
  funext fun a => Fin.ext (by match a with | ⟨0, _⟩ => rfl)
theorem idx_rsqrt_bcast (p : Fin 100000) (q : Fin 128) : idx_main_v68 (idx_main_v69 (ix2 p q)) = ix1 q :=
  funext fun a => Fin.ext (by match a with | ⟨0, _⟩ => rfl)
theorem idx_gamma_bcast (p : Fin 100000) (q : Fin 128) : idx_main_v71 (idx_main_v72 (ix2 p q)) = ix1 q :=
  funext fun a => Fin.ext (by match a with | ⟨0, _⟩ => rfl)
theorem idx_beta_bcast (p : Fin 100000) (q : Fin 128) : idx_main_v74 (idx_main_v75 (ix2 p q)) = ix1 q :=
  funext fun a => Fin.ext (by match a with | ⟨0, _⟩ => rfl)

/-- The reference's column variances (mean of the squared deviations) are the specification's (mean of the squares
    minus the squared mean), the shifted rows being real numbers. -/
theorem v61_at (hfin : ∀ i, IsFin (val_main_v51 (F := Ideal) x0 x1 x2 x3 x4 i)) (q : Fin 128) :
    val_main_v61 (F := Ideal) x0 x1 x2 x3 x4 (ix1 q)
      = colVar (val_main_v48 (F := Ideal) x0 x1 x2 x3) (rowOf x4) (ix2 (0 : Fin 1) q) := by
  have hterm : ∀ k : Fin 100000, val_main_v58 (F := Ideal) x0 x1 x2 x3 x4 (idx_main_v59 (ix1 q) k)
      = (shifted (val_main_v48 (F := Ideal) x0 x1 x2 x3) (rowOf x4) k q
          - colMean (val_main_v48 (F := Ideal) x0 x1 x2 x3) (rowOf x4) (ix2 (0 : Fin 1) q))
        * (shifted (val_main_v48 (F := Ideal) x0 x1 x2 x3) (rowOf x4) k q
          - colMean (val_main_v48 (F := Ideal) x0 x1 x2 x3) (rowOf x4) (ix2 (0 : Fin 1) q)) := by
    intro k
    rw [idx_col_sum_sq, val_main_v58_apply, val_main_v57_apply, val_main_v56_apply, val_main_v55_apply,
      idx_mean_bcast, v51_at, v54_at]
    rfl
  have hreal : ∀ p : Fin 100000, ∃ r : ℝ,
      shifted (val_main_v48 (F := Ideal) x0 x1 x2 x3) (rowOf x4) p q = (r : EReal) := fun p => by
    have h := hfin (ix2 p q)
    rw [v51_at] at h
    exact h
  rw [val_main_v61_apply, val_main_v59_apply, val_main_v60_apply, val_main_cst_14_apply, val_main_cst_13_apply,
    Finset.sum_congr rfl fun k _ => hterm k, Ideal.hostDivf_def, Ideal.ofBits_def, Ideal.ofBits_def,
    Ideal.ofBits_zero_f32, zero_add, colVar_at, colMean_at, ← nRows, nRows_eq]
  exact Variance.two_pass_eq_one_pass
    (fun p : Fin 100000 => shifted (val_main_v48 (F := Ideal) x0 x1 x2 x3) (rowOf x4) p q) hreal 100000
    (by norm_num) (by simp)

/-- Batch normalisation with the one-pass statistics, then scale, shift and rectify, is the reference's rows after its
    relu, the shifted rows being real numbers. -/
theorem bn_eq (hfin : ∀ i, IsFin (val_main_v51 (F := Ideal) x0 x1 x2 x3 x4 i)) :
    bnApply (val_main_v48 (F := Ideal) x0 x1 x2 x3) (rowOf x4)
        (colMean (val_main_v48 (F := Ideal) x0 x1 x2 x3) (rowOf x4))
        (colVar (val_main_v48 (F := Ideal) x0 x1 x2 x3) (rowOf x4)) (rowOf x5) (rowOf x6)
      = val_main_v77 (F := Ideal) x0 x1 x2 x3 x4 x5 x6 := by
  funext i
  obtain ⟨p, q, rfl⟩ : ∃ (p : Fin 100000) (q : Fin 128), i = ix2 p q := ⟨i 0, i 1, eq_ix2 i⟩
  rw [val_main_v77_apply, val_main_call2_v0_apply, val_main_call2_cst_apply,
    val_main_v76_apply, val_main_v75_apply, val_main_v74_apply, idx_beta_bcast,
    val_main_v73_apply, val_main_v72_apply, val_main_v71_apply, idx_gamma_bcast,
    val_main_v70_apply, val_main_v69_apply, val_main_v68_apply, idx_rsqrt_bcast,
    val_main_v67_apply, val_main_v66_apply, val_main_v65_apply, val_main_cst_15_apply,
    val_main_v64_apply, val_main_v63_apply, val_main_v62_apply, idx_mean_bcast',
    v51_at, v54_at, v61_at x0 x1 x2 x3 x4 hfin, bnApply_at, rowOf_at, rowOf_at]
  rfl

end

end Cert.Val

end
-- ==== Proof.Val.HostChain.lean ====
/-
  The host operations the kernel program runs between its kernel regions, against the reference program's stages.

  Between its five kernel regions the kernel program runs the same host operations as the reference: the edge lists
  with a self loop appended per node, the degree (scatter-add of the weights), its guarded reciprocal square root, the
  edge norm; then, per layer, the gather of the transformed rows at the source nodes, their scaling by the edge norm and
  the scatter-add at the target nodes; and reshapes of the bias, scale and shift vectors to rows. Stretch by stretch,
  with the contents before the stretch a variable, each buffer a stretch writes is the reference stage of the same
  operations, as a function of the argument arrays.
-/
import proofs.«108080_j74191265071850_1_alg».proof.Proof.Gen.KernelIdeal.Regions
import proofs.«108080_j74191265071850_1_alg».proof.Proof.Val.RefReadP
import proofs.«108080_j74191265071850_1_alg».proof.Proof.Val.Spec
import Idealize.ShloMosaic.Lib.StableHlo.Run
import Idealize.ShloMosaic.Lib.ValueLayout

noncomputable section

namespace Cert.Val

open Idealize.ShloMosaic Idealize.ShloMosaic.TcCoe Idealize.ShloMosaic.ValueIdx
open Cert.KernelIdeal Cert.KernelIdeal.Gen
open Cert.ReferenceIdeal.ReadP

/-- The argument arrays, typed as the reference's stages take them. -/
abbrev A0 : Type := (⟨Cert.ReferenceIdeal.S100000x128, .f32⟩ : BufTy).Contents (Elt Ideal)
abbrev A1 : Type := (⟨Cert.ReferenceIdeal.S2x1600000, .i32⟩ : BufTy).Contents (Elt Ideal)
abbrev A2 : Type := (⟨Cert.ReferenceIdeal.S1600000, .f32⟩ : BufTy).Contents (Elt Ideal)
abbrev A3 : Type := (⟨Cert.ReferenceIdeal.S128x128, .f32⟩ : BufTy).Contents (Elt Ideal)
abbrev A4 : Type := (⟨Cert.ReferenceIdeal.S128, .f32⟩ : BufTy).Contents (Elt Ideal)
abbrev A7 : Type := (⟨Cert.ReferenceIdeal.S128x64, .f32⟩ : BufTy).Contents (Elt Ideal)
abbrev A8 : Type := (⟨Cert.ReferenceIdeal.S64, .f32⟩ : BufTy).Contents (Elt Ideal)

/-- The contents of a core's buffers between two items of the program. -/
abbrev Vl : Type := Valuation τ sig (Elt Ideal)

/-! ## The typed references of the inlined selections

An operation of an inlined function call names its buffers through typed references, and moves contents between a
buffer's own type and the tensor type the call states along the equation between the two; at a literal reference the
two types are the same and the move is the identity. -/

/-- Contents moved to a typed reference's own buffer type and back are the contents. -/
theorem ofBuf_toBuf_k {sig : RefSig} {T : BufTy} {Val : EltTy → Type} (x : StableHlo.TRef sig T) (v : T.Contents Val) :
    x.ofBuf (x.toBuf v) = v := by
  obtain ⟨r, rfl, h2, h3⟩ := x
  rfl

theorem tb_main_v16 (v : (⟨Cert.KernelIdeal.S100000, .f32⟩ : BufTy).Contents (Elt Ideal)) :
    ((StableHlo.TRef.of (T := (⟨Cert.KernelIdeal.S100000, .f32⟩ : BufTy)) main_v16).toBuf v
      : (⟨Cert.KernelIdeal.S100000, .f32⟩ : BufTy).Contents (Elt Ideal)) = v := rfl
theorem tb_main_v18 (v : (⟨Cert.KernelIdeal.S100000, .f32⟩ : BufTy).Contents (Elt Ideal)) :
    ((StableHlo.TRef.of (T := (⟨Cert.KernelIdeal.S100000, .f32⟩ : BufTy)) main_v18).toBuf v
      : (⟨Cert.KernelIdeal.S100000, .f32⟩ : BufTy).Contents (Elt Ideal)) = v := rfl

/-! ## Before the first region: edge lists, degree, normalisation factor, edge norm -/

section First
variable (W : Vl)

/-- The row (source) indices with the self loops appended. -/
theorem s0_v3 : (StableHlo.after (hostOps0 (F := Ideal)) W (Proc.devRef .tc main_v3) : Cert.ReferenceIdeal.S1700000.Idx → BitVec 32)
    = val_main_v3 (F := Ideal) (W (Proc.devRef .tc main_arg1)) := by
  after_results; rfl

/-- The column (target) indices with the self loops appended. -/
theorem s0_v6 : (StableHlo.after (hostOps0 (F := Ideal)) W (Proc.devRef .tc main_v6) : Cert.ReferenceIdeal.S1700000.Idx → BitVec 32)
    = val_main_v6 (F := Ideal) (W (Proc.devRef .tc main_arg1)) := by
  after_results; rfl

/-- The edge weights with a one appended per node. -/
theorem s0_v8 : (StableHlo.after (hostOps0 (F := Ideal)) W (Proc.devRef .tc main_v8) : Cert.ReferenceIdeal.S1700000.Idx → EReal)
    = val_main_v8 (F := Ideal) (W (Proc.devRef .tc main_arg2)) := by
  after_results; rfl

/-- The degree. -/
theorem s0_v11 : (StableHlo.after (hostOps0 (F := Ideal)) W (Proc.devRef .tc main_v11) : Cert.ReferenceIdeal.S100000.Idx → EReal)
    = val_main_v12 (F := Ideal) (W (Proc.devRef .tc main_arg1)) (W (Proc.devRef .tc main_arg2)) := by
  after_results; rfl

/-- The two tests deg > 0. -/
theorem s0_v13 : (StableHlo.after (hostOps0 (F := Ideal)) W (Proc.devRef .tc main_v13) : Cert.ReferenceIdeal.S100000.Idx → BitVec 1)
    = val_main_v14 (F := Ideal) (W (Proc.devRef .tc main_arg1)) (W (Proc.devRef .tc main_arg2)) := by
  after_results; rfl

theorem s0_v15 : (StableHlo.after (hostOps0 (F := Ideal)) W (Proc.devRef .tc main_v15) : Cert.ReferenceIdeal.S100000.Idx → BitVec 1)
    = val_main_v16 (F := Ideal) (W (Proc.devRef .tc main_arg1)) (W (Proc.devRef .tc main_arg2)) := by
  after_results; rfl

/-- The constant one the guarded degree falls back to. -/
theorem s0_cst3 : (StableHlo.after (hostOps0 (F := Ideal)) W (Proc.devRef .tc main_cst_3) : Cert.ReferenceIdeal.S_.Idx → EReal)
    = val_main_cst_3 (F := Ideal) := by
  after_results; rfl

variable (x1 : A1) (x2 : A2)

/-- The guarded degree where(deg > 0, deg, 1). -/
theorem s1_v16
    (h11 : (W (Proc.devRef .tc main_v11) : Cert.ReferenceIdeal.S100000.Idx → EReal) = val_main_v12 (F := Ideal) x1 x2)
    (h15 : (W (Proc.devRef .tc main_v15) : Cert.ReferenceIdeal.S100000.Idx → BitVec 1) = val_main_v16 (F := Ideal) x1 x2)
    (hc3 : (W (Proc.devRef .tc main_cst_3) : Cert.ReferenceIdeal.S_.Idx → EReal) = val_main_cst_3 (F := Ideal)) :
    (StableHlo.after (hostOps0_1 (F := Ideal)) W (Proc.devRef .tc main_v16) : Cert.ReferenceIdeal.S100000.Idx → EReal)
      = val_main_v17 (F := Ideal) x1 x2 := by
  after_results
  rw [h11, h15, hc3]
  unfold val_main_v17 val_main_call0_v1 val_main_call0_v0
  generalize val_main_v16 (F := Ideal) x1 x2 = a
  generalize val_main_v12 (F := Ideal) x1 x2 = b
  generalize val_main_cst_3 (F := Ideal) = c
  refine (tb_main_v16 _).trans ?_
  exact rfl

/-- Its reciprocal square root, and the constant zero the normalisation factor falls back to. -/
theorem s2_v17
    (h16 : (W (Proc.devRef .tc main_v16) : Cert.ReferenceIdeal.S100000.Idx → EReal) = val_main_v17 (F := Ideal) x1 x2) :
    (StableHlo.after (hostOps0_2 (F := Ideal)) W (Proc.devRef .tc main_v17) : Cert.ReferenceIdeal.S100000.Idx → EReal)
      = val_main_v18 (F := Ideal) x1 x2 := by
  after_results
  rw [h16]; rfl

theorem s2_cst4 : (StableHlo.after (hostOps0_2 (F := Ideal)) W (Proc.devRef .tc main_cst_4) : Cert.ReferenceIdeal.S_.Idx → EReal)
    = val_main_cst_4 (F := Ideal) := by
  after_results; rfl

/-- The normalisation factor dinv = where(deg > 0, rsqrt(…), 0). -/
theorem s3_v18
    (h13 : (W (Proc.devRef .tc main_v13) : Cert.ReferenceIdeal.S100000.Idx → BitVec 1) = val_main_v14 (F := Ideal) x1 x2)
    (h17 : (W (Proc.devRef .tc main_v17) : Cert.ReferenceIdeal.S100000.Idx → EReal) = val_main_v18 (F := Ideal) x1 x2)
    (hc4 : (W (Proc.devRef .tc main_cst_4) : Cert.ReferenceIdeal.S_.Idx → EReal) = val_main_cst_4 (F := Ideal)) :
    (StableHlo.after (hostOps0_3 (F := Ideal)) W (Proc.devRef .tc main_v18) : Cert.ReferenceIdeal.S100000.Idx → EReal)
      = val_main_v19 (F := Ideal) x1 x2 := by
  after_results
  rw [h13, h17, hc4]
  unfold val_main_v19 val_main_call1_v1 val_main_call1_v0
  generalize val_main_v14 (F := Ideal) x1 x2 = a
  generalize val_main_v18 (F := Ideal) x1 x2 = b
  generalize val_main_cst_4 (F := Ideal) = c
  refine (tb_main_v18 _).trans ?_
  exact rfl

/-- The edge norm dinv[row]·w·dinv[col]. -/
theorem s4_v34
    (h3 : (W (Proc.devRef .tc main_v3) : Cert.ReferenceIdeal.S1700000.Idx → BitVec 32) = val_main_v3 (F := Ideal) x1)
    (h6 : (W (Proc.devRef .tc main_v6) : Cert.ReferenceIdeal.S1700000.Idx → BitVec 32) = val_main_v6 (F := Ideal) x1)
    (h8 : (W (Proc.devRef .tc main_v8) : Cert.ReferenceIdeal.S1700000.Idx → EReal) = val_main_v8 (F := Ideal) x2)
    (h18 : (W (Proc.devRef .tc main_v18) : Cert.ReferenceIdeal.S100000.Idx → EReal) = val_main_v19 (F := Ideal) x1 x2) :
    (StableHlo.after (hostOps0_4 (F := Ideal)) W (Proc.devRef .tc main_v34) : Cert.ReferenceIdeal.S1700000.Idx → EReal)
      = val_main_v35 (F := Ideal) x1 x2 := by
  after_results_simp
  rw [h3, h6, h8, h18]; rfl

end First

/-! ## The chain from the launch contents -/

section Chain
variable (m : (ℓ : Loc nD τ sig) → Buf (Elt Ideal) ℓ) (c : Dev nD)

/-- Before the first region, the row indices are the reference's, of the edge array at launch. -/
theorem k_v3 : (V5 m c (Proc.devRef .tc main_v3) : Cert.ReferenceIdeal.S1700000.Idx → BitVec 32)
    = val_main_v3 (F := Ideal) (m ((c.tc : Thread nD τ).loc main_arg1)) := by
  rw [V5_of m c main_v3 (by decide), V4_of m c main_v3 (by decide), V3_of m c main_v3 (by decide),
    V2_of m c main_v3 (by decide)]
  exact s0_v3 (V0 m c)

/-- Before the first region, the column indices are the reference's, of the edge array at launch. -/
theorem k_v6 : (V5 m c (Proc.devRef .tc main_v6) : Cert.ReferenceIdeal.S1700000.Idx → BitVec 32)
    = val_main_v6 (F := Ideal) (m ((c.tc : Thread nD τ).loc main_arg1)) := by
  rw [V5_of m c main_v6 (by decide), V4_of m c main_v6 (by decide), V3_of m c main_v6 (by decide),
    V2_of m c main_v6 (by decide)]
  exact s0_v6 (V0 m c)

/-- Before the first region, the edge norm is the reference's, of the edge array and the edge weights at launch. -/
theorem k_v34 : (V5 m c (Proc.devRef .tc main_v34) : Cert.ReferenceIdeal.S1700000.Idx → EReal)
    = val_main_v35 (F := Ideal) (m ((c.tc : Thread nD τ).loc main_arg1)) (m ((c.tc : Thread nD τ).loc main_arg2)) := by
  have h11 := s0_v11 (V0 m c)
  have h13 := s0_v13 (V0 m c)
  have h15 := s0_v15 (V0 m c)
  have hc3 := s0_cst3 (V0 m c)
  have h16 := s1_v16 (V1 m c) _ _ h11 h15 hc3
  have h17 := s2_v17 (V2 m c) _ _ h16
  have hc4 := s2_cst4 (V2 m c)
  have h13' : (V3 m c (Proc.devRef .tc main_v13) : Cert.ReferenceIdeal.S100000.Idx → BitVec 1)
      = val_main_v14 (F := Ideal) (V0 m c (Proc.devRef .tc main_arg1)) (V0 m c (Proc.devRef .tc main_arg2)) := by
    rw [V3_of m c main_v13 (by decide), V2_of m c main_v13 (by decide)]; exact h13
  have h18 := s3_v18 (V3 m c) _ _ h13' h17 hc4
  have h3 : (V4 m c (Proc.devRef .tc main_v3) : Cert.ReferenceIdeal.S1700000.Idx → BitVec 32)
      = val_main_v3 (F := Ideal) (V0 m c (Proc.devRef .tc main_arg1)) := by
    rw [V4_of m c main_v3 (by decide), V3_of m c main_v3 (by decide), V2_of m c main_v3 (by decide)]
    exact s0_v3 (V0 m c)
  have h6 : (V4 m c (Proc.devRef .tc main_v6) : Cert.ReferenceIdeal.S1700000.Idx → BitVec 32)
      = val_main_v6 (F := Ideal) (V0 m c (Proc.devRef .tc main_arg1)) := by
    rw [V4_of m c main_v6 (by decide), V3_of m c main_v6 (by decide), V2_of m c main_v6 (by decide)]
    exact s0_v6 (V0 m c)
  have h8 : (V4 m c (Proc.devRef .tc main_v8) : Cert.ReferenceIdeal.S1700000.Idx → EReal)
      = val_main_v8 (F := Ideal) (V0 m c (Proc.devRef .tc main_arg2)) := by
    rw [V4_of m c main_v8 (by decide), V3_of m c main_v8 (by decide), V2_of m c main_v8 (by decide)]
    exact s0_v8 (V0 m c)
  exact s4_v34 (V4 m c) _ _ h3 h6 h8 h18

end Chain

end Cert.Val

end
-- ==== Proof.Val.HostAgg.lean ====
/- The kernel program's host stretches between its regions, against the reference program's stages: each stretch
   is the same operations as a run of the reference's stages, so from contents that are the reference's earlier
   stages it leaves the reference's later ones; the bias rows it reshapes are the argument vectors as rows. -/
import proofs.«108080_j74191265071850_1_alg».proof.Proof.Gen.KernelIdeal.Regions
import proofs.«108080_j74191265071850_1_alg».proof.Proof.Val.RefReadP
import proofs.«108080_j74191265071850_1_alg».proof.Proof.Val.Spec
import Idealize.ShloMosaic.Lib.StableHlo.Run
import Idealize.ShloMosaic.Lib.ValueLayout

set_option maxRecDepth 16384

noncomputable section

namespace Cert.Val

open Cert.KernelIdeal Cert.KernelIdeal.Gen Cert.ReferenceIdeal.ReadP
open Idealize.ShloMosaic Idealize.ShloMosaic.TcCoe Idealize.ShloMosaic.ValueIdx
open Idealize.SL Idealize.SL.Sem

/-! ## The reference recomputes the edge weights for its second layer: the same stages -/

/-- The second layer's edge weights are the first layer's: the same operations of the same arguments. -/
theorem v104_eq (x1 : (⟨Cert.ReferenceIdeal.S2x1600000, .i32⟩ : BufTy).Contents (Elt Ideal)) (x2 : (⟨Cert.ReferenceIdeal.S1600000, .f32⟩ : BufTy).Contents (Elt Ideal)) : val_main_v104 (F := Ideal) x1 x2 = val_main_v35 (F := Ideal) x1 x2 := rfl

/-! ## The first aggregation, and the first bias row -/

set_option maxHeartbeats 1000000 in
/-- The stretch between regions 0 and 1, from the reference's source indices, target indices, edge weights and
    first linear layer: the reference's first aggregation. -/
theorem agg1 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S128x128, .f32⟩ : BufTy).Contents (Elt Ideal))
    (W : Valuation τ sig (Elt Ideal))
    (h3 : (W (Proc.devRef .tc main_v3) : Cert.ReferenceIdeal.S1700000.Idx → BitVec 32) = val_main_v3 (F := Ideal) x1)
    (h6 : (W (Proc.devRef .tc main_v6) : Cert.ReferenceIdeal.S1700000.Idx → BitVec 32) = val_main_v6 (F := Ideal) x1)
    (h34 : (W (Proc.devRef .tc main_v34) : Cert.ReferenceIdeal.S1700000.Idx → EReal) = val_main_v35 (F := Ideal) x1 x2)
    (h35 : (W (Proc.devRef .tc main_v35) : Cert.ReferenceIdeal.S100000x128.Idx → EReal) = val_main_v9 (F := Ideal) x0 x3) :
    (StableHlo.after hostOps1 W (Proc.devRef .tc main_v48) : Mat 100000 128) = val_main_v48 (F := Ideal) x0 x1 x2 x3 := by
  dsimp only [hostOps1]
  after_results_simp
  rw [h3, h6, h34, h35]
  rfl

/-- The bias vector reshaped to a row. -/
theorem row1 (x4 : (⟨Cert.ReferenceIdeal.S128, .f32⟩ : BufTy).Contents (Elt Ideal)) (W : Valuation τ sig (Elt Ideal))
    (h4 : (W (Proc.devRef .tc main_arg4) : Cert.ReferenceIdeal.S128.Idx → EReal) = x4) :
    (StableHlo.after hostOps1 W (Proc.devRef .tc main_v49) : Mat 1 128) = rowOf x4 := by
  dsimp only [hostOps1]
  after_results
  rw [h4]
  funext i
  rw [eq_ix2 i]
  exact shapeCast_a_1a_apply x4 shapeCasts_S128_S1x128 (i 0) (i 1)

/-! ## The three rows region 2 reads -/

theorem rows2 (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (W : Valuation τ sig (Elt Ideal))
    (h4 : (W (Proc.devRef .tc main_arg4) : Cert.ReferenceIdeal.S128.Idx → EReal) = x4)
    (h5 : (W (Proc.devRef .tc main_arg5) : Cert.ReferenceIdeal.S128.Idx → EReal) = x5)
    (h6 : (W (Proc.devRef .tc main_arg6) : Cert.ReferenceIdeal.S128.Idx → EReal) = x6) :
    (StableHlo.after hostOps2 W (Proc.devRef .tc main_v51) : Mat 1 128) = rowOf x4
    ∧ (StableHlo.after hostOps2 W (Proc.devRef .tc main_v52) : Mat 1 128) = rowOf x5
    ∧ (StableHlo.after hostOps2 W (Proc.devRef .tc main_v53) : Mat 1 128) = rowOf x6 := by
  refine ⟨?_, ?_, ?_⟩
  · dsimp only [hostOps2]
    after_results
    rw [h4]
    funext i
    rw [eq_ix2 i]
    exact shapeCast_a_1a_apply x4 shapeCasts_S128_S1x128 (i 0) (i 1)
  · dsimp only [hostOps2]
    after_results
    rw [h5]
    funext i
    rw [eq_ix2 i]
    exact shapeCast_a_1a_apply x5 shapeCasts_S128_S1x128 (i 0) (i 1)
  · dsimp only [hostOps2]
    after_results
    rw [h6]
    funext i
    rw [eq_ix2 i]
    exact shapeCast_a_1a_apply x6 shapeCasts_S128_S1x128 (i 0) (i 1)

/-! ## The second aggregation, and the second bias row -/

set_option maxHeartbeats 1000000 in
/-- The stretch between regions 3 and 4, from the reference's source indices, target indices, edge weights and
    second linear layer: the reference's second aggregation. -/
theorem agg2 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128, .f32⟩ : BufTy).Contents (Elt Ideal)) (x6 : (⟨Cert.ReferenceIdeal.S128, .f32⟩ : BufTy).Contents (Elt Ideal)) (x7 : (⟨Cert.ReferenceIdeal.S128x64, .f32⟩ : BufTy).Contents (Elt Ideal))
    (W : Valuation τ sig (Elt Ideal))
    (h3 : (W (Proc.devRef .tc main_v3) : Cert.ReferenceIdeal.S1700000.Idx → BitVec 32) = val_main_v3 (F := Ideal) x1)
    (h6 : (W (Proc.devRef .tc main_v6) : Cert.ReferenceIdeal.S1700000.Idx → BitVec 32) = val_main_v6 (F := Ideal) x1)
    (h34 : (W (Proc.devRef .tc main_v34) : Cert.ReferenceIdeal.S1700000.Idx → EReal) = val_main_v35 (F := Ideal) x1 x2)
    (h55 : (W (Proc.devRef .tc main_v55) : Cert.ReferenceIdeal.S100000x64.Idx → EReal) = val_main_v78 (F := Ideal) x0 x1 x2 x3 x4 x5 x6 x7) :
    (StableHlo.after hostOps4 W (Proc.devRef .tc main_v68) : Mat 100000 64) = val_main_v117 (F := Ideal) x0 x1 x2 x3 x4 x5 x6 x7 := by
  have h34' : (W (Proc.devRef .tc main_v34) : Cert.ReferenceIdeal.S1700000.Idx → EReal) = val_main_v104 (F := Ideal) x1 x2 := h34.trans (v104_eq x1 x2).symm
  dsimp only [hostOps4]
  after_results_simp
  rw [h3, h6, h34', h55]
  rfl

/-- The second bias vector reshaped to a row. -/
theorem row4 (x8 : (⟨Cert.ReferenceIdeal.S64, .f32⟩ : BufTy).Contents (Elt Ideal)) (W : Valuation τ sig (Elt Ideal))
    (h8 : (W (Proc.devRef .tc main_arg8) : Cert.ReferenceIdeal.S64.Idx → EReal) = x8) :
    (StableHlo.after hostOps4 W (Proc.devRef .tc main_v69) : Mat 1 64) = rowOf x8 := by
  dsimp only [hostOps4]
  after_results
  rw [h8]
  funext i
  rw [eq_ix2 i]
  exact shapeCast_a_1a_apply x8 shapeCasts_S64_S1x64 (i 0) (i 1)

end Cert.Val

end
-- ==== Proof.Val.Bridge.lean ====
/-
  The bridge: at the ideal instance, what the kernel program's last region leaves in the result array is the
  reference's last stage of the same argument arrays.

  Follow the program. Region 0 leaves x·W1, the reference's first product. The host stretch after it aggregates it along
  the edges with the same operations as the reference, and reshapes the bias to a row. Region 1 leaves the column means
  and one-pass variances of the biased aggregate; region 2 the normalised, scaled, shifted, rectified rows — the
  reference's batch norm and relu, whose two-pass variance agrees with the one-pass form because every biased entry is a
  real number (the inputs are finite). Region 3 leaves the second product, the next stretch aggregates it, and region 4
  leaves the row-wise log-softmax of the biased aggregate: the reference's result.
-/
import proofs.«108080_j74191265071850_1_alg».proof.Proof.KI.Run
import proofs.«108080_j74191265071850_1_alg».proof.Proof.Val.Keep
import proofs.«108080_j74191265071850_1_alg».proof.Proof.Val.Final0
import proofs.«108080_j74191265071850_1_alg».proof.Proof.Val.Final1
import proofs.«108080_j74191265071850_1_alg».proof.Proof.Val.Final2
import proofs.«108080_j74191265071850_1_alg».proof.Proof.Val.Final3
import proofs.«108080_j74191265071850_1_alg».proof.Proof.Val.Final4
import proofs.«108080_j74191265071850_1_alg».proof.Proof.Val.Linear
import proofs.«108080_j74191265071850_1_alg».proof.Proof.Val.LogSoftmax
import proofs.«108080_j74191265071850_1_alg».proof.Proof.Val.Finite
import proofs.«108080_j74191265071850_1_alg».proof.Proof.Val.BatchNorm
import proofs.«108080_j74191265071850_1_alg».proof.Proof.Val.HostChain
import proofs.«108080_j74191265071850_1_alg».proof.Proof.Val.HostAgg

set_option quotPrecheck false

noncomputable section

namespace Cert.Val

open Cert.KernelIdeal Cert.KernelIdeal.Gen Cert.KernelIdeal.Hand Cert.ReferenceIdeal.ReadP
open Idealize.ShloMosaic Idealize.ShloMosaic.TcCoe Idealize.SL.Sem

variable (m : (ℓ : Loc nD τ sig) → Buf (Elt Ideal) ℓ) (c : Dev nD)

local notation "a0" => (m ((c.tc : Thread nD τ).loc main_arg0))
local notation "a1" => (m ((c.tc : Thread nD τ).loc main_arg1))
local notation "a2" => (m ((c.tc : Thread nD τ).loc main_arg2))
local notation "a3" => (m ((c.tc : Thread nD τ).loc main_arg3))
local notation "a4" => (m ((c.tc : Thread nD τ).loc main_arg4))
local notation "a5" => (m ((c.tc : Thread nD τ).loc main_arg5))
local notation "a6" => (m ((c.tc : Thread nD τ).loc main_arg6))
local notation "a7" => (m ((c.tc : Thread nD τ).loc main_arg7))
local notation "a8" => (m ((c.tc : Thread nD τ).loc main_arg8))

/-- Region 0 leaves the first product. -/
theorem s6 : (X6 m c main_v35 : Mat 100000 128) = val_main_v9 (F := Ideal) a0 a3 := by
  refine (X6_out m c).trans ((final0 (atRef (V5 m)) c).trans ?_)
  rw [show atRef (V5 m) c main_arg0 = a0 from V5_arg0 m c, show atRef (V5 m) c main_arg3 = a3 from V5_arg3 m c]
  exact lin1_eq a0 a3

/-- The first aggregation is the reference's. -/
theorem s48 : (X7 m c main_v48 : Mat 100000 128) = val_main_v48 (F := Ideal) a0 a1 a2 a3 :=
  agg1 a0 a1 a2 a3 (X6 m c) ((X6_v3 m c).trans (k_v3 m c)) ((X6_v6 m c).trans (k_v6 m c)) ((X6_v34 m c).trans (k_v34 m c)) (s6 m c)

/-- The bias row of the statistics region. -/
theorem s49 : (X7 m c main_v49 : Mat 1 128) = rowOf a4 := row1 a4 (X6 m c) (X6_arg4 m c)

/-- Region 1 leaves the column means … -/
theorem s50_0 : (X9 m c main_v50_0 : Mat 1 128) = colMean (val_main_v48 (F := Ideal) a0 a1 a2 a3) (rowOf a4) := by
  refine (X9_v50_0 m c).trans ((final1_mean (atRef (X7 m)) c).trans ?_)
  rw [show atRef (X7 m) c main_v48 = _ from s48 m c, show atRef (X7 m) c main_v49 = _ from s49 m c]

/-- … and the one-pass column variances of the biased aggregate. -/
theorem s50_1 : (X9 m c main_v50_1 : Mat 1 128) = colVar (val_main_v48 (F := Ideal) a0 a1 a2 a3) (rowOf a4) := by
  refine (X9_v50_1 m c).trans ((final1_var (atRef (X7 m)) c).trans ?_)
  rw [show atRef (X7 m) c main_v48 = _ from s48 m c, show atRef (X7 m) c main_v49 = _ from s49 m c]

/-- Region 2 leaves the reference's batch norm and relu, the biased aggregate's entries being real numbers. -/
theorem s54 (h0 : ∀ i, IsFin (a0 i)) (h2 : ∀ i, IsFin (a2 i)) (h3 : ∀ i, IsFin (a3 i)) (h4 : ∀ i, IsFin (a4 i)) :
    (X10 m c main_v54 : Mat 100000 128) = val_main_v77 (F := Ideal) a0 a1 a2 a3 a4 a5 a6 := by
  obtain ⟨r51, r52, r53⟩ := rows2 a4 a5 a6 (X8 m c) (X8_arg4 m c) (X8_arg5 m c) (X8_arg6 m c)
  refine (X10_out m c).trans ((final2 (atRef (X9 m)) c).trans ?_)
  rw [show atRef (X9 m) c main_v48 = _ from (X9_v48 m c).trans (s48 m c), show atRef (X9 m) c main_v51 = _ from r51,
    show atRef (X9 m) c main_v50_0 = _ from s50_0 m c, show atRef (X9 m) c main_v50_1 = _ from s50_1 m c,
    show atRef (X9 m) c main_v52 = _ from r52, show atRef (X9 m) c main_v53 = _ from r53]
  exact bn_eq a0 a1 a2 a3 a4 a5 a6 (v51_fin a0 a1 a2 a3 a4 h0 h2 h3 h4)

/-- Region 3 leaves the second product. -/
theorem s55 (h0 : ∀ i, IsFin (a0 i)) (h2 : ∀ i, IsFin (a2 i)) (h3 : ∀ i, IsFin (a3 i)) (h4 : ∀ i, IsFin (a4 i)) :
    (X11 m c main_v55 : Mat 100000 64) = val_main_v78 (F := Ideal) a0 a1 a2 a3 a4 a5 a6 a7 := by
  refine (X11_out m c).trans ((final3 (atRef (X10 m)) c).trans ?_)
  rw [show atRef (X10 m) c main_v54 = _ from s54 m c h0 h2 h3 h4, show atRef (X10 m) c main_arg7 = a7 from X10_arg7 m c]
  exact lin2_eq a0 a1 a2 a3 a4 a5 a6 a7

/-- THE BRIDGE. The kernel program's result, the fold of its last region's write-backs, is the reference's last stage of the
    same argument arrays, given that the float arguments the first layer reads are finite. -/
theorem result_eq (h0 : ∀ i, IsFin (a0 i)) (h2 : ∀ i, IsFin (a2 i)) (h3 : ∀ i, IsFin (a3 i)) (h4 : ∀ i, IsFin (a4 i)) :
    (o13 (F := Ideal) m c : Mat 100000 64) = val_main_v121 (F := Ideal) a0 a1 a2 a3 a4 a5 a6 a7 a8 := by
  have s68 : (X12 m c main_v68 : Mat 100000 64) = val_main_v117 (F := Ideal) a0 a1 a2 a3 a4 a5 a6 a7 :=
    agg2 a0 a1 a2 a3 a4 a5 a6 a7 (X11 m c) ((X11_v3 m c).trans (k_v3 m c)) ((X11_v6 m c).trans (k_v6 m c)) ((X11_v34 m c).trans (k_v34 m c))
      (s55 m c h0 h2 h3 h4)
  have s69 : (X12 m c main_v69 : Mat 1 64) = rowOf a8 := row4 a8 (X11 m c) (X11_arg8 m c)
  refine (final4 (atRef (X12 m)) c).trans ?_
  rw [show atRef (X12 m) c main_v68 = _ from s68, show atRef (X12 m) c main_v69 = _ from s69]
  exact lsm_eq a0 a1 a2 a3 a4 a5 a6 a7 a8

end Cert.Val

end
-- ==== Proof.Val.PreFin.lean ====
/-
  The precondition, decoded: when the printed predicate "every float input is finite" evaluates to all ones, every
  entry of every float argument array is a real number.

  The predicate is a conjunction, one conjunct per float array: the conjunction over all entries of |x| < +∞, where
  +∞ is spelt as the 32-bit word 0x7F800000. On the extended reals |x| is max x (−x), which is +∞ exactly at the two
  infinities, so |x| < +∞ says that x is a real number.
-/
import proofs.«108080_j74191265071850_1_alg».proof.Pre_finite_inputs
import proofs.«108080_j74191265071850_1_alg».proof.Proof.Val.Spec
import Idealize.ShloMosaic.Lib.ReduceAll
import Idealize.ShloMosaic.Lib.IdealHost

noncomputable section

namespace Cert.Val

open Idealize.ShloMosaic Idealize.ShloMosaic.ValueIdx

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem isFin_of_abs_lt_top (x : EReal) (h : max x (-x) < (⊤ : EReal)) : IsFin x := by
  induction x using EReal.rec with
  | bot => simp at h
  | coe r => exact ⟨r, rfl⟩
  | top => simp at h

/-- The element test of the predicate, read back: the comparison |x| < +∞ answering 1 makes x a real number. -/
theorem isFin_of_test (x : EReal)
    (h : FloatOps.cmpf (F := Ideal) (φ := .f32) .olt (FloatOps.hostAbsf (F := Ideal) (φ := .f32) x)
      (FloatOps.ofBits (F := Ideal) .f32 0x7F800000#32) = 1#1) : IsFin x := by
  refine isFin_of_abs_lt_top x ?_
  have h' : Ideal.cmp .olt (max x (-x)) (Ideal.ofBits .f32 0x7F800000#32) = 1#1 := h
  rw [ofBits_inf] at h'
  simp only [Ideal.cmp] at h'
  by_contra hn
  simp [hn] at h'

instance : Subsingleton Cert.Pre_finite_inputs.S_.Idx := ⟨fun a b => funext fun d => d.elim0⟩

/-- One conjunct of the predicate, read back: the conjunction over all entries of |x| < +∞ being 1 makes every entry of
    the array a real number. -/
theorem all_fin {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) (i : s.Idx) : IsFin (x i) := by
  have hi := Host.reduce_andi_all _ _ hr hu ix0 e i
  exact isFin_of_test (x i) hi

open Cert.Pre_finite_inputs in
/-- The precondition, decoded: if the printed predicate answers all ones, every entry of each of the eight float
    argument arrays is a real number. -/
theorem pre_fin [Cert.Pre_finite_inputs.Facts]
    (a0 : FVec Ideal S100000x128 .f32) (a1 : IVec S2x1600000 32) (a2 : FVec Ideal S1600000 .f32)
    (a3 : FVec Ideal S128x128 .f32) (a4 : FVec Ideal S128 .f32) (a5 : FVec Ideal S128 .f32)
    (a6 : FVec Ideal S128 .f32) (a7 : FVec Ideal S128x64 .f32) (a8 : FVec Ideal S64 .f32)
    (h : Cert.Pre_finite_inputs.fn (F := Ideal) a0 a1 a2 a3 a4 a5 a6 a7 a8 = (fun _ => 1#1)) :
    (∀ i, IsFin (a0 i)) ∧ (∀ i, IsFin (a2 i)) ∧ (∀ i, IsFin (a3 i)) ∧ (∀ i, IsFin (a4 i)) ∧ (∀ i, IsFin (a5 i))
      ∧ (∀ i, IsFin (a6 i)) ∧ (∀ i, IsFin (a7 i)) ∧ (∀ i, IsFin (a8 i)) := by
  have h' := congrFun h ix0
  dsimp only [Cert.Pre_finite_inputs.fn, Cert.Pre_finite_inputs.fn_part1, Cert.Pre_finite_inputs.fn_part2] at h'
  obtain ⟨h', e8⟩ := IntOp.andi_eq_one.1 h'
  obtain ⟨h', e7⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨e0, e2⟩ := IntOp.andi_eq_one.1 h'
  exact ⟨all_fin a0 _ _ _ e0, all_fin a2 _ _ _ e2, all_fin a3 _ _ _ e3, all_fin a4 _ _ _ e4, all_fin a5 _ _ _ e5,
    all_fin a6 _ _ _ e6, all_fin a7 _ _ _ e7, all_fin a8 _ _ _ e8⟩

end Cert.Val

end
-- ==== Proof.lean ====
/-
  The certificate's five claims, assembled.

  The kernel program is five kernel regions (two linear layers, the batch-norm statistics, the batch-norm apply, the
  log-softmax) among stretches of host operations (the edge lists with self loops, the degree normalisation, the two
  gather-scale-scatter aggregations). Its frame, at the bit-exact instance and at the ideal one, is the run of its
  thirteen items from one record per region (Proof/K/Run.lean, Proof/KI/Run.lean); the reference's frame is its run
  with the result dropped; the idealization rewrote nothing; and at the ideal instance the two programs' results are one
  function of the arguments (Proof/Val/Bridge.lean): the only place they differ is the variance — one pass in the
  kernel, two passes in the reference —, which agree once every entry is a real number, and that follows from the
  inputs' finiteness through the first layer.
-/
import proofs.«108080_j74191265071850_1_alg».proof.Defs
import proofs.«108080_j74191265071850_1_alg».proof.Proof.Gen.Kernel
import proofs.«108080_j74191265071850_1_alg».proof.Proof.Gen.KernelIdeal
import proofs.«108080_j74191265071850_1_alg».proof.Proof.Gen.ReferenceIdeal
import proofs.«108080_j74191265071850_1_alg».proof.Proof.Gen.Pre_finite_inputs
import proofs.«108080_j74191265071850_1_alg».proof.Proof.K.Run
import proofs.«108080_j74191265071850_1_alg».proof.Proof.KI.Run
import proofs.«108080_j74191265071850_1_alg».proof.Proof.Val.RefRunP
import proofs.«108080_j74191265071850_1_alg».proof.Proof.Val.RefAfter
import proofs.«108080_j74191265071850_1_alg».proof.Proof.Val.Bridge
import proofs.«108080_j74191265071850_1_alg».proof.Proof.Val.PreFin
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- At the ideal instance the kernel program's result array ends at the fold of its last region's write-backs, the
    reference's at the fold of its host operations; from memories that agree on the arguments the two are one array: the
    reference's fold is its last stage (read operation by operation), and the kernel's fold is that stage of the same
    arguments (the bridge), the precondition making every float argument finite. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Hand.o13 (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨f0, f2, f3, f4, f5, f6, f7, f8⟩ := Cert.Val.pre_fin _ _ _ _ _ _ _ _ _ (hpre c)
  rw [Cert.Val.after_ops m' c, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (Cert.Val.result_eq m c f0 f2 f3 f4).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
